-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x256x128 : Shape := ⟨4, ![2, 512, 256, 128]⟩
abbrev S2x512x64 : Shape := ⟨3, ![2, 512, 64]⟩
abbrev S512 : Shape := ⟨1, ![512]⟩
abbrev S_ : Shape := ⟨0, ![]⟩

class Facts : Prop where
  bcast_S_S2x512x256x128 : S_.BroadcastsInDim S2x512x256x128 (![] : Fin 0 → Fin S2x512x256x128.rank)
  reducesTo_S2x512x256x128_S_d0_1_2_3 : S2x512x256x128.ReducesTo [0, 1, 2, 3] S_
  h_S_ : 0 < S_.numel
  bcast_S_S2x512x64 : S_.BroadcastsInDim S2x512x64 (![] : Fin 0 → Fin S2x512x64.rank)
  reducesTo_S2x512x64_S_d0_1_2 : S2x512x64.ReducesTo [0, 1, 2] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_arg15 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg11 : FVec F S512 .f32) (main_arg12 : FVec F S512 .f32) (main_arg13 : FVec F S512 .f32) (main_arg14 : FVec F S512 .f32) (main_arg15 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S512 .f32) (main_arg9 : FVec F S512 .f32) (main_arg10 : FVec F S512 .f32) (main_arg11 : FVec F S512 .f32) (main_arg12 : FVec F S512 .f32) (main_arg13 : FVec F S512 .f32) (main_arg14 : FVec F S512 .f32) (main_arg15 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_v48 main_v49 main_v50

def fn_part1 {F : FTy → Type} [FloatOps F] (main_arg4 : FVec F S512 .f32) (main_arg5 : FVec F S512 .f32) (main_arg6 : FVec F S512 .f32) (main_arg7 : FVec F S512 .f32) (main_arg8 : FVec F S512 .f32) (main_arg9 : FVec F S512 .f32) (main_arg10 : FVec F S512 .f32) (main_arg11 : FVec F S512 .f32) (main_arg12 : FVec F S512 .f32) (main_arg13 : FVec F S512 .f32) (main_arg14 : FVec F S512 .f32) (main_arg15 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2x512x256x128 .f32) (main_arg1 : FVec F S2x512x64 .f32) (main_arg2 : FVec F S512 .f32) (main_arg3 : FVec F S512 .f32) (main_arg4 : FVec F S512 .f32) (main_arg5 : FVec F S512 .f32) (main_arg6 : FVec F S512 .f32) (main_arg7 : FVec F S512 .f32) (main_arg8 : FVec F S512 .f32) (main_arg9 : FVec F S512 .f32) (main_arg10 : FVec F S512 .f32) (main_arg11 : FVec F S512 .f32) (main_arg12 : FVec F S512 .f32) (main_arg13 : FVec F S512 .f32) (main_arg14 : FVec F S512 .f32) (main_arg15 : FVec F S512 .f32) : IVec S_ 1 :=
  let main_v0 : FVec F S2x512x256x128 .f32 := Host.absf main_arg0
  let main_cst : FVec F S_ .f32 := constant S_ .f32 0x7F800000#32
  let main_v1 : FVec F S2x512x256x128 .f32 := broadcastInDim S2x512x256x128 ![] bcast_S_S2x512x256x128 main_cst
  let main_v2 : IVec S2x512x256x128 1 := cmpf .olt main_v0 main_v1
  let main_c : IVec S_ 1 := constantI S_ 1 1#1
  let main_v3 : IVec S_ 1 := (fun x v => Host.reduce IntOp.andi x v reducesTo_S2x512x256x128_S_d0_1_2_3 h_S_) main_v2 main_c
  let main_v4 : FVec F S2x512x64 .f32 := Host.absf main_arg1
  let main_cst_0 : FVec F S_ .f32 := constant S_ .f32 0x7F800000#32
  let main_v5 : FVec F S2x512x64 .f32 := broadcastInDim S2x512x64 ![] bcast_S_S2x512x64 main_cst_0
  let main_v6 : IVec S2x512x64 1 := cmpf .olt main_v4 main_v5
  let main_c_1 : IVec S_ 1 := constantI S_ 1 1#1
  let main_v7 : IVec S_ 1 := (fun x v => Host.reduce IntOp.andi x v reducesTo_S2x512x64_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2x512x256x128 : Shape := ⟨4, ![2, 512, 256, 128]⟩
abbrev S2x512x64 : Shape := ⟨3, ![2, 512, 64]⟩
abbrev S512 : Shape := ⟨1, ![512]⟩
abbrev S256 : Shape := ⟨1, ![256]⟩
abbrev S1x512 : Shape := ⟨2, ![1, 512]⟩
abbrev S2x512x32x128 : Shape := ⟨4, ![2, 512, 32, 128]⟩
abbrev S_ : Shape := ⟨0, ![]⟩
abbrev S1x512x1x1 : Shape := ⟨4, ![1, 512, 1, 1]⟩
abbrev S1x512x1 : Shape := ⟨3, ![1, 512, 1]⟩
abbrev S2 : Shape := ⟨1, ![2]⟩
abbrev S2x1x1 : Shape := ⟨3, ![2, 1, 1]⟩
abbrev S2x512 : Shape := ⟨2, ![2, 512]⟩
abbrev S2x512x1 : Shape := ⟨3, ![2, 512, 1]⟩
abbrev S256x1 : Shape := ⟨2, ![256, 1]⟩
abbrev S2x512x256 : Shape := ⟨3, ![2, 512, 256]⟩
abbrev S2x512x256x1 : Shape := ⟨4, ![2, 512, 256, 1]⟩
abbrev S2x512x16x128 : Shape := ⟨4, ![2, 512, 16, 128]⟩
abbrev S2x512x16x1 : Shape := ⟨4, ![2, 512, 16, 1]⟩

abbrev nBuf : Space → Nat
  | .hbm => 190
  | .vmem => 16
  | .smem => 0
  | _ => 0

abbrev hbmTy0_0 (i : Nat) : BufTy := match i % 128 with
  | 0 => ⟨S2x512x256x128, .f32⟩
  | 1 => ⟨S2x512x64, .f32⟩
  | 2 => ⟨S512, .f32⟩
  | 3 => ⟨S512, .f32⟩
  | 4 => ⟨S512, .f32⟩
  | 5 => ⟨S512, .f32⟩
  | 6 => ⟨S512, .f32⟩
  | 7 => ⟨S512, .f32⟩
  | 8 => ⟨S512, .f32⟩
  | 9 => ⟨S512, .f32⟩
  | 10 => ⟨S512, .f32⟩
  | 11 => ⟨S512, .f32⟩
  | 12 => ⟨S512, .f32⟩
  | 13 => ⟨S512, .f32⟩
  | 14 => ⟨S512, .f32⟩
  | 15 => ⟨S512, .f32⟩
  | 16 => ⟨S256, .i32⟩
  | 17 => ⟨S256, .i1⟩
  | 18 => ⟨S256, .i1⟩
  | 19 => ⟨S1x512, .f32⟩
  | 20 => ⟨S1x512, .f32⟩
  | 21 => ⟨S_, .f32⟩
  | 22 => ⟨S1x512, .f32⟩
  | 23 => ⟨S1x512, .f32⟩
  | 24 => ⟨S512, .f32⟩
  | 25 => ⟨S_, .f32⟩
  | 26 => ⟨S1x512, .f32⟩
  | 27 => ⟨S1x512, .f32⟩
  | 28 => ⟨S512, .f32⟩
  | 29 => ⟨S512, .f32⟩
  | 30 => ⟨S512, .f32⟩
  | 31 => ⟨S512, .f32⟩
  | 32 => ⟨S512, .f32⟩
  | 33 => ⟨S_, .f32⟩
  | 34 => ⟨S512, .f32⟩
  | 35 => ⟨S512, .f32⟩
  | 36 => ⟨S512, .f32⟩
  | 37 => ⟨S512, .f32⟩
  | 38 => ⟨S512, .f32⟩
  | 39 => ⟨S1x512x1x1, .f32⟩
  | 40 => ⟨S512, .f32⟩
  | 41 => ⟨S512, .f32⟩
  | 42 => ⟨S512, .f32⟩
  | 43 => ⟨S512, .f32⟩
  | 44 => ⟨S512, .f32⟩
  | 45 => ⟨S1x512x1x1, .f32⟩
  | 46 => ⟨S512, .f32⟩
  | 47 => ⟨S512, .f32⟩
  | 48 => ⟨S_, .f32⟩
  | 49 => ⟨S512, .f32⟩
  | 50 => ⟨S512, .f32⟩
  | 51 => ⟨S512, .f32⟩
  | 52 => ⟨S512, .f32⟩
  | 53 => ⟨S512, .f32⟩
  | 54 => ⟨S1x512x1x1, .f32⟩
  | 55 => ⟨S512, .f32⟩
  | 56 => ⟨S512, .f32⟩
  | 57 => ⟨S512, .f32⟩
  | 58 => ⟨S512, .f32⟩
  | 59 => ⟨S512, .f32⟩
  | 60 => ⟨S1x512x1x1, .f32⟩
  | 61 => ⟨S1x512x1, .f32⟩
  | 62 => ⟨S2x512x64, .f32⟩
  | 63 => ⟨S2x512x64, .f32⟩
  | 64 => ⟨S1x512x1, .f32⟩
  | 65 => ⟨S2x512x64, .f32⟩
  | 66 => ⟨S2x512x64, .f32⟩
  | 67 => ⟨S_, .f32⟩
  | 68 => ⟨S2, .f32⟩
  | 69 => ⟨S2x1x1, .f32⟩
  | 70 => ⟨S_, .f32⟩
  | 71 => ⟨S2x1x1, .f32⟩
  | 72 => ⟨S2x1x1, .f32⟩
  | 73 => ⟨S_, .i32⟩
  | 74 => ⟨S_, .f32⟩
  | 75 => ⟨S2, .f32⟩
  | 76 => ⟨S2x1x1, .f32⟩
  | 77 => ⟨S_, .f32⟩
  | 78 => ⟨S2x1x1, .f32⟩
  | 79 => ⟨S2x1x1, .f32⟩
  | 80 => ⟨S2x512x64, .f32⟩
  | 81 => ⟨S2x512x64, .f32⟩
  | 82 => ⟨S2x512x64, .f32⟩
  | 83 => ⟨S_, .f32⟩
  | 84 => ⟨S_, .f32⟩
  | 85 => ⟨S_, .f32⟩
  | 86 => ⟨S_, .f32⟩
  | 87 => ⟨S2, .f32⟩
  | 88 => ⟨S2x1x1, .f32⟩
  | 89 => ⟨S2x1x1, .f32⟩
  | 90 => ⟨S2x1x1, .f32⟩
  | 91 => ⟨S_, .f32⟩
  | 92 => ⟨S_, .i1⟩
  | 93 => ⟨S_, .f32⟩
  | 94 => ⟨S_, .f32⟩
  | 95 => ⟨S2x1x1, .f32⟩
  | 96 => ⟨S2x1x1, .f32⟩
  | 97 => ⟨S2x512x64, .f32⟩
  | 98 => ⟨S2x512x64, .f32⟩
  | 99 => ⟨S_, .f32⟩
  | 100 => ⟨S2x1x1, .f32⟩
  | 101 => ⟨S2x1x1, .f32⟩
  | 102 => ⟨S2x1x1, .f32⟩
  | 103 => ⟨S2x512x64, .f32⟩
  | 104 => ⟨S2x512x64, .f32⟩
  | 105 => ⟨S1x512x1, .f32⟩
  | 106 => ⟨S2x512x64, .f32⟩
  | 107 => ⟨S2x512x64, .f32⟩
  | 108 => ⟨S1x512x1, .f32⟩
  | 109 => ⟨S2x512x64, .f32⟩
  | 110 => ⟨S2x512x64, .f32⟩
  | 111 => ⟨S_, .f32⟩
  | 112 => ⟨S2x512, .f32⟩
  | 113 => ⟨S_, .f32⟩
  | 114 => ⟨S2x512, .f32⟩
  | 115 => ⟨S2x512, .f32⟩
  | 116 => ⟨S2x512x1, .f32⟩
  | 117 => ⟨S2x512x64, .f32⟩
  | 118 => ⟨S2x512x64, .f32⟩
  | 119 => ⟨S2x512x64, .f32⟩
  | 120 => ⟨S_, .f32⟩
  | 121 => ⟨S2x512, .f32⟩
  | 122 => ⟨S2x512x1, .f32⟩
  | 123 => ⟨S2x512x64, .f32⟩
  | 124 => ⟨S2x512x64, .f32⟩
  | 125 => ⟨S_, .i32⟩
  | 126 => ⟨S256, .i32⟩
  | 127 => ⟨S256, .i32⟩
  | _ => ⟨S2x512x256x128, .f32⟩

abbrev hbmTy0_1 (i : Nat) : BufTy := match i % 128 with
  | 0 => ⟨S256, .i32⟩
  | 1 => ⟨S256x1, .i32⟩
  | 2 => ⟨S2x512x256, .f32⟩
  | 3 => ⟨S1x512x1, .f32⟩
  | 4 => ⟨S2x512x64, .f32⟩
  | 5 => ⟨S2x512x64, .f32⟩
  | 6 => ⟨S1x512x1, .f32⟩
  | 7 => ⟨S2x512x64, .f32⟩
  | 8 => ⟨S2x512x64, .f32⟩
  | 9 => ⟨S_, .f32⟩
  | 10 => ⟨S2, .f32⟩
  | 11 => ⟨S2x1x1, .f32⟩
  | 12 => ⟨S_, .f32⟩
  | 13 => ⟨S2x1x1, .f32⟩
  | 14 => ⟨S2x1x1, .f32⟩
  | 15 => ⟨S_, .i32⟩
  | 16 => ⟨S_, .f32⟩
  | 17 => ⟨S2, .f32⟩
  | 18 => ⟨S2x1x1, .f32⟩
  | 19 => ⟨S_, .f32⟩
  | 20 => ⟨S2x1x1, .f32⟩
  | 21 => ⟨S2x1x1, .f32⟩
  | 22 => ⟨S2x512x64, .f32⟩
  | 23 => ⟨S2x512x64, .f32⟩
  | 24 => ⟨S2x512x64, .f32⟩
  | 25 => ⟨S_, .f32⟩
  | 26 => ⟨S_, .f32⟩
  | 27 => ⟨S_, .f32⟩
  | 28 => ⟨S_, .f32⟩
  | 29 => ⟨S2, .f32⟩
  | 30 => ⟨S2x1x1, .f32⟩
  | 31 => ⟨S2x1x1, .f32⟩
  | 32 => ⟨S2x1x1, .f32⟩
  | 33 => ⟨S_, .f32⟩
  | 34 => ⟨S_, .i1⟩
  | 35 => ⟨S_, .f32⟩
  | 36 => ⟨S_, .f32⟩
  | 37 => ⟨S2x1x1, .f32⟩
  | 38 => ⟨S2x1x1, .f32⟩
  | 39 => ⟨S2x512x64, .f32⟩
  | 40 => ⟨S2x512x64, .f32⟩
  | 41 => ⟨S_, .f32⟩
  | 42 => ⟨S2x1x1, .f32⟩
  | 43 => ⟨S2x1x1, .f32⟩
  | 44 => ⟨S2x1x1, .f32⟩
  | 45 => ⟨S2x512x64, .f32⟩
  | 46 => ⟨S2x512x64, .f32⟩
  | 47 => ⟨S1x512x1, .f32⟩
  | 48 => ⟨S2x512x64, .f32⟩
  | 49 => ⟨S2x512x64, .f32⟩
  | 50 => ⟨S1x512x1, .f32⟩
  | 51 => ⟨S2x512x64, .f32⟩
  | 52 => ⟨S2x512x64, .f32⟩
  | 53 => ⟨S_, .i32⟩
  | 54 => ⟨S256, .i32⟩
  | 55 => ⟨S256, .i32⟩
  | 56 => ⟨S256, .i32⟩
  | 57 => ⟨S256x1, .i32⟩
  | 58 => ⟨S2x512x256, .f32⟩
  | 59 => ⟨S2x512x256x1, .f32⟩
  | 60 => ⟨S2x512x256x1, .f32⟩
  | 61 => ⟨S2x512x256x128, .f32⟩
  | _ => ⟨S2x512x256x128, .f32⟩

abbrev hbmTy (i : Nat) : BufTy := match i / 128 with
  | 0 => hbmTy0_0 i
  | 1 => hbmTy0_1 i
  | _ => ⟨S2x512x256x128, .f32⟩

abbrev bufTy : (tb : Table) → Fin (tcTables nBuf tb) → BufTy
  | .hbm, ⟨i, _⟩ => hbmTy i
  | .local _ .vmem, ⟨0, _⟩ => ⟨S2x512x32x128, .f32⟩
  | .local _ .vmem, ⟨1, _⟩ => ⟨S2x512x32x128, .f32⟩
  | .local _ .vmem, ⟨2, _⟩ => ⟨S1x512, .f32⟩
  | .local _ .vmem, ⟨3, _⟩ => ⟨S1x512, .f32⟩
  | .local _ .vmem, ⟨4, _⟩ => ⟨S2x512x16x128, .f32⟩
  | .local _ .vmem, ⟨5, _⟩ => ⟨S2x512x16x128, .f32⟩
  | .local _ .vmem, ⟨6, _⟩ => ⟨S1x512x1x1, .f32⟩
  | .local _ .vmem, ⟨7, _⟩ => ⟨S1x512x1x1, .f32⟩
  | .local _ .vmem, ⟨8, _⟩ => ⟨S1x512x1x1, .f32⟩
  | .local _ .vmem, ⟨9, _⟩ => ⟨S1x512x1x1, .f32⟩
  | .local _ .vmem, ⟨10, _⟩ => ⟨S2x512x16x1, .f32⟩
  | .local _ .vmem, ⟨11, _⟩ => ⟨S2x512x16x1, .f32⟩
  | .local _ .vmem, ⟨12, _⟩ => ⟨S2x512x16x1, .f32⟩
  | .local _ .vmem, ⟨13, _⟩ => ⟨S2x512x16x1, .f32⟩
  | .local _ .vmem, ⟨14, _⟩ => ⟨S2x512x16x128, .f32⟩
  | .local _ .vmem, ⟨15, _⟩ => ⟨S2x512x16x128, .f32⟩
  | _, _ => ⟨S2x512x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_v0_0 : Ref sig .tc := ⟨.hbm, 19, rfl⟩
abbrev main_v0_1 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_2 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_c_7 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_v12 : Ref sig .tc := ⟨.hbm, 90, rfl⟩
abbrev main_call0_cst_3 : Ref sig .tc := ⟨.hbm, 91, rfl⟩
abbrev main_call0_v13 : Ref sig .tc := ⟨.hbm, 92, rfl⟩
abbrev main_call0_cst_4 : Ref sig .tc := ⟨.hbm, 93, rfl⟩
abbrev main_call0_call0_v0 : Ref sig .tc := ⟨.hbm, 94, rfl⟩
abbrev main_call0_call0_v1 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_8 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_9 : Ref sig .tc := ⟨.hbm, 111, rfl⟩
abbrev main_v61 : Ref sig .tc := ⟨.hbm, 112, rfl⟩
abbrev main_cst_10 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_11 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_c_12 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_13 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_v85 : Ref sig .tc := ⟨.hbm, 141, rfl⟩
abbrev main_v86 : Ref sig .tc := ⟨.hbm, 142, rfl⟩
abbrev main_c_15 : Ref sig .tc := ⟨.hbm, 143, rfl⟩
abbrev main_call1_cst : Ref sig .tc := ⟨.hbm, 144, rfl⟩
abbrev main_call1_v0 : Ref sig .tc := ⟨.hbm, 145, rfl⟩
abbrev main_call1_v1 : Ref sig .tc := ⟨.hbm, 146, rfl⟩
abbrev main_call1_cst_0 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_call1_v5 : Ref sig .tc := ⟨.hbm, 151, rfl⟩
abbrev main_call1_v6 : Ref sig .tc := ⟨.hbm, 152, rfl⟩
abbrev main_call1_v7 : Ref sig .tc := ⟨.hbm, 153, rfl⟩
abbrev main_call1_cst_1 : Ref sig .tc := ⟨.hbm, 154, rfl⟩
abbrev main_call1_v8 : Ref sig .tc := ⟨.hbm, 155, rfl⟩
abbrev main_call1_cst_2 : Ref sig .tc := ⟨.hbm, 156, rfl⟩
abbrev main_call1_v9 : Ref sig .tc := ⟨.hbm, 157, rfl⟩
abbrev main_call1_v10 : Ref sig .tc := ⟨.hbm, 158, rfl⟩
abbrev main_call1_v11 : Ref sig .tc := ⟨.hbm, 159, rfl⟩
abbrev main_call1_v12 : Ref sig .tc := ⟨.hbm, 160, rfl⟩
abbrev main_call1_cst_3 : Ref sig .tc := ⟨.hbm, 161, rfl⟩
abbrev main_call1_v13 : Ref sig .tc := ⟨.hbm, 162, rfl⟩
abbrev main_call1_cst_4 : Ref sig .tc := ⟨.hbm, 163, rfl⟩
abbrev main_call1_call0_v0 : Ref sig .tc := ⟨.hbm, 164, rfl⟩
abbrev main_call1_call0_v1 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_cst_16 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_c_17 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 2 → Memref sig .tc .vmem S2x512x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x512x16x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x512x16x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x512x16x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S1x512_S1x512_0_0 : ∀ a, (![0, 0] : Fin 2 → Nat) a + S1x512.size a ≤ S1x512.size a
  h_S1x512 : 0 < S1x512.numel
  inb_S2x512x32x128_S2x512x32x128_0_0_0_0 : ∀ a, (![0, 0, 0, 0] : Fin 4 → Nat) a + S2x512x32x128.size a ≤ S2x512x32x128.size a
  h_S2x512x32x128 : 0 < S2x512x32x128.numel
  reduces_S2x512x32x128_S512 : S2x512x32x128.Reduces [0, 2, 3] S512
  shapeCasts_S1x512_S1x512 : S1x512.ShapeCasts S1x512
  shapeCasts_S512_S1x512 : S512.ShapeCasts S1x512
  bcast_S_S1x512 : S_.BroadcastsInDim S1x512 (![] : Fin 0 → Fin S1x512.rank)
  shapeCasts_S1x512_S512 : S1x512.ShapeCasts S512
  bcast_S_S512 : S_.BroadcastsInDim S512 (![] : Fin 0 → Fin S512.rank)
  shapeCasts_S512_S1x512x1x1 : S512.ShapeCasts S1x512x1x1
  bcast_S512_S1x512x1_1 : S512.BroadcastsInDim S1x512x1 (![1] : Fin 1 → Fin S1x512x1.rank)
  bcast_S1x512x1_S2x512x64_0_1_2 : S1x512x1.BroadcastsInDim S2x512x64 (![0, 1, 2] : Fin 3 → Fin S2x512x64.rank)
  reducesTo_S2x512x64_S2_d1_2 : S2x512x64.ReducesTo [1, 2] S2
  h_S_ : 0 < S_.numel
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S2x1x1_S2x512x64_0_1_2 : S2x1x1.BroadcastsInDim S2x512x64 (![0, 1, 2] : Fin 3 → Fin S2x512x64.rank)
  reducesTo_S2x512x64_S2x512_d2 : S2x512x64.ReducesTo [2] S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x64_0_1_2 : S2x512x1.BroadcastsInDim S2x512x64 (![0, 1, 2] : Fin 3 → Fin S2x512x64.rank)
  bcast_S_S256 : S_.BroadcastsInDim S256 (![] : Fin 0 → Fin S256.rank)
  bcast_S256_S256x1_0 : S256.BroadcastsInDim S256x1 (![0] : Fin 1 → Fin S256x1.rank)
  bcast_S2x512x256_S2x512x256x1_0_1_2 : S2x512x256.BroadcastsInDim S2x512x256x1 (![0, 1, 2] : Fin 3 → Fin S2x512x256x1.rank)
  inb_S2x512x16x128_S2x512x16x128_0_0_0_0 : ∀ a, (![0, 0, 0, 0] : Fin 4 → Nat) a + S2x512x16x128.size a ≤ S2x512x16x128.size a
  h_S2x512x16x128 : 0 < S2x512x16x128.numel
  inb_S1x512x1x1_S1x512x1x1_0_0_0_0 : ∀ a, (![0, 0, 0, 0] : Fin 4 → Nat) a + S1x512x1x1.size a ≤ S1x512x1x1.size a
  h_S1x512x1x1 : 0 < S1x512x1x1.numel
  shapeCasts_S1x512x1x1_S1x512x1x1 : S1x512x1x1.ShapeCasts S1x512x1x1
  broadcasts_S1x512x1x1_S2x512x16x128 : S1x512x1x1.Broadcasts S2x512x16x128
  inb_S2x512x16x1_S2x512x16x1_0_0_0_0 : ∀ a, (![0, 0, 0, 0] : Fin 4 → Nat) a + S2x512x16x1.size a ≤ S2x512x16x1.size a
  h_S2x512x16x1 : 0 < S2x512x16x1.numel
  shapeCasts_S2x512x16x1_S2x512x16x1 : S2x512x16x1.ShapeCasts S2x512x16x1
  broadcasts_S2x512x16x1_S2x512x16x128 : S2x512x16x1.Broadcasts S2x512x16x128
  gather_S2x512x64_S256x1_S2x512x256_01_2_n_n_2_1_25121_wf : GatherDims.WF S2x512x64 S256x1 S2x512x256 [0, 1] [2] [] [2] [] 1 ![2, 512, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x32x128.size a ≤ S2x512x256x128.size a
  hwx0_0 : ∀ i : grid0.Coords, EltTy.bits .f32 = 32 ∨ (Rect.block (s := S2x512x256x128) S2x512x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x16x128.size a ≤ S2x512x256x128.size a
  hwx1_0 : ∀ i : grid1.Coords, EltTy.bits .f32 = 32 ∨ (Rect.block (s := S2x512x256x128) S2x512x16x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512x1x1.size a ≤ S1x512x1x1.size a
  hwx1_1 : ∀ i : grid1.Coords, EltTy.bits .f32 = 32 ∨ (Rect.block (s := S1x512x1x1) S1x512x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512x1x1.size a ≤ S1x512x1x1.size a
  hwx1_2 : ∀ i : grid1.Coords, EltTy.bits .f32 = 32 ∨ (Rect.block (s := S1x512x1x1) S1x512x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512x1x1.size a ≤ S1x512x1x1.size a
  hwx1_3 : ∀ i : grid1.Coords, EltTy.bits .f32 = 32 ∨ (Rect.block (s := S1x512x1x1) S1x512x1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512x1x1.size a ≤ S1x512x1x1.size a
  hwx1_4 : ∀ i : grid1.Coords, EltTy.bits .f32 = 32 ∨ (Rect.block (s := S1x512x1x1) S1x512x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x512x16x1.size a ≤ S2x512x256x1.size a
  hwx1_5 : ∀ i : grid1.Coords, EltTy.bits .f32 = 32 ∨ (Rect.block (s := S2x512x256x1) S2x512x16x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x512x16x1.size a ≤ S2x512x256x1.size a
  hwx1_6 : ∀ i : grid1.Coords, EltTy.bits .f32 = 32 ∨ (Rect.block (s := S2x512x256x1) S2x512x16x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2x512x16x128.size a ≤ S2x512x256x128.size a
  hwx1_7 : ∀ i : grid1.Coords, EltTy.bits .f32 = 32 ∨ (Rect.block (s := S2x512x256x128) S2x512x16x128.size (cc1_transform_7 i) (hinb1_7 i)).WholeWords (EltTy.packing .f32)

variable [Facts₀]

def gather_S2x512x64_S256x1_S2x512x256_01_2_n_n_2_1_25121 : GatherDims S2x512x64 S256x1 S2x512x256 where
  offsetDims := [0, 1]
  collapsedSliceDims := [2]
  operandBatchingDims := []
  startIndicesBatchingDims := []
  startIndexMap := [2]
  indexVectorDim := 1
  sliceSizes := ![2, 512, 1]
  wf := gather_S2x512x64_S256x1_S2x512x256_01_2_n_n_2_1_25121_wf

abbrev win0_0 : Pipeline.Window sig grid0 :=
  Pipeline.Window.ofSpec (Memref.whole main_arg0) S2x512x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x512x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x512x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x512x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x512x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x512x1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v106) S2x512x16x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v107) S2x512x16x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v108) S2x512x16x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x512x256x128 : Shape := ⟨4, ![2, 512, 256, 128]⟩
abbrev S2x512x64 : Shape := ⟨3, ![2, 512, 64]⟩
abbrev S512 : Shape := ⟨1, ![512]⟩
abbrev S1x512x1x1 : Shape := ⟨4, ![1, 512, 1, 1]⟩
abbrev S_ : Shape := ⟨0, ![]⟩
abbrev S1x512x1 : Shape := ⟨3, ![1, 512, 1]⟩
abbrev S2 : Shape := ⟨1, ![2]⟩
abbrev S2x1x1 : Shape := ⟨3, ![2, 1, 1]⟩
abbrev S2x512 : Shape := ⟨2, ![2, 512]⟩
abbrev S2x512x1 : Shape := ⟨3, ![2, 512, 1]⟩
abbrev S256 : Shape := ⟨1, ![256]⟩
abbrev S256x1 : Shape := ⟨2, ![256, 1]⟩
abbrev S2x512x256 : Shape := ⟨3, ![2, 512, 256]⟩
abbrev S2x512x256x1 : Shape := ⟨4, ![2, 512, 256, 1]⟩

abbrev nBuf : Space → Nat
  | .hbm => 266
  | .vmem => 0
  | .smem => 0
  | _ => 0

abbrev hbmTy0_0 (i : Nat) : BufTy := match i % 128 with
  | 0 => ⟨S2x512x256x128, .f32⟩
  | 1 => ⟨S2x512x64, .f32⟩
  | 2 => ⟨S512, .f32⟩
  | 3 => ⟨S512, .f32⟩
  | 4 => ⟨S512, .f32⟩
  | 5 => ⟨S512, .f32⟩
  | 6 => ⟨S512, .f32⟩
  | 7 => ⟨S512, .f32⟩
  | 8 => ⟨S512, .f32⟩
  | 9 => ⟨S512, .f32⟩
  | 10 => ⟨S512, .f32⟩
  | 11 => ⟨S512, .f32⟩
  | 12 => ⟨S512, .f32⟩
  | 13 => ⟨S512, .f32⟩
  | 14 => ⟨S512, .f32⟩
  | 15 => ⟨S512, .f32⟩
  | 16 => ⟨S1x512x1x1, .f32⟩
  | 17 => ⟨S2x512x256x128, .f32⟩
  | 18 => ⟨S2x512x256x128, .f32⟩
  | 19 => ⟨S_, .f32⟩
  | 20 => ⟨S512, .f32⟩
  | 21 => ⟨S1x512x1x1, .f32⟩
  | 22 => ⟨S_, .f32⟩
  | 23 => ⟨S1x512x1x1, .f32⟩
  | 24 => ⟨S1x512x1x1, .f32⟩
  | 25 => ⟨S_, .i32⟩
  | 26 => ⟨S_, .f32⟩
  | 27 => ⟨S512, .f32⟩
  | 28 => ⟨S1x512x1x1, .f32⟩
  | 29 => ⟨S_, .f32⟩
  | 30 => ⟨S1x512x1x1, .f32⟩
  | 31 => ⟨S1x512x1x1, .f32⟩
  | 32 => ⟨S2x512x256x128, .f32⟩
  | 33 => ⟨S2x512x256x128, .f32⟩
  | 34 => ⟨S2x512x256x128, .f32⟩
  | 35 => ⟨S_, .f32⟩
  | 36 => ⟨S_, .f32⟩
  | 37 => ⟨S_, .f32⟩
  | 38 => ⟨S_, .f32⟩
  | 39 => ⟨S512, .f32⟩
  | 40 => ⟨S1x512x1x1, .f32⟩
  | 41 => ⟨S1x512x1x1, .f32⟩
  | 42 => ⟨S1x512x1x1, .f32⟩
  | 43 => ⟨S_, .f32⟩
  | 44 => ⟨S_, .i1⟩
  | 45 => ⟨S_, .f32⟩
  | 46 => ⟨S_, .f32⟩
  | 47 => ⟨S1x512x1x1, .f32⟩
  | 48 => ⟨S1x512x1x1, .f32⟩
  | 49 => ⟨S2x512x256x128, .f32⟩
  | 50 => ⟨S2x512x256x128, .f32⟩
  | 51 => ⟨S_, .f32⟩
  | 52 => ⟨S1x512x1x1, .f32⟩
  | 53 => ⟨S1x512x1x1, .f32⟩
  | 54 => ⟨S1x512x1x1, .f32⟩
  | 55 => ⟨S2x512x256x128, .f32⟩
  | 56 => ⟨S2x512x256x128, .f32⟩
  | 57 => ⟨S1x512x1x1, .f32⟩
  | 58 => ⟨S2x512x256x128, .f32⟩
  | 59 => ⟨S2x512x256x128, .f32⟩
  | 60 => ⟨S1x512x1x1, .f32⟩
  | 61 => ⟨S2x512x256x128, .f32⟩
  | 62 => ⟨S2x512x256x128, .f32⟩
  | 63 => ⟨S1x512x1, .f32⟩
  | 64 => ⟨S2x512x64, .f32⟩
  | 65 => ⟨S2x512x64, .f32⟩
  | 66 => ⟨S1x512x1, .f32⟩
  | 67 => ⟨S2x512x64, .f32⟩
  | 68 => ⟨S2x512x64, .f32⟩
  | 69 => ⟨S_, .f32⟩
  | 70 => ⟨S2, .f32⟩
  | 71 => ⟨S2x1x1, .f32⟩
  | 72 => ⟨S_, .f32⟩
  | 73 => ⟨S2x1x1, .f32⟩
  | 74 => ⟨S2x1x1, .f32⟩
  | 75 => ⟨S_, .i32⟩
  | 76 => ⟨S_, .f32⟩
  | 77 => ⟨S2, .f32⟩
  | 78 => ⟨S2x1x1, .f32⟩
  | 79 => ⟨S_, .f32⟩
  | 80 => ⟨S2x1x1, .f32⟩
  | 81 => ⟨S2x1x1, .f32⟩
  | 82 => ⟨S2x512x64, .f32⟩
  | 83 => ⟨S2x512x64, .f32⟩
  | 84 => ⟨S2x512x64, .f32⟩
  | 85 => ⟨S_, .f32⟩
  | 86 => ⟨S_, .f32⟩
  | 87 => ⟨S_, .f32⟩
  | 88 => ⟨S_, .f32⟩
  | 89 => ⟨S2, .f32⟩
  | 90 => ⟨S2x1x1, .f32⟩
  | 91 => ⟨S2x1x1, .f32⟩
  | 92 => ⟨S2x1x1, .f32⟩
  | 93 => ⟨S_, .f32⟩
  | 94 => ⟨S_, .i1⟩
  | 95 => ⟨S_, .f32⟩
  | 96 => ⟨S_, .f32⟩
  | 97 => ⟨S2x1x1, .f32⟩
  | 98 => ⟨S2x1x1, .f32⟩
  | 99 => ⟨S2x512x64, .f32⟩
  | 100 => ⟨S2x512x64, .f32⟩
  | 101 => ⟨S_, .f32⟩
  | 102 => ⟨S2x1x1, .f32⟩
  | 103 => ⟨S2x1x1, .f32⟩
  | 104 => ⟨S2x1x1, .f32⟩
  | 105 => ⟨S2x512x64, .f32⟩
  | 106 => ⟨S2x512x64, .f32⟩
  | 107 => ⟨S1x512x1, .f32⟩
  | 108 => ⟨S2x512x64, .f32⟩
  | 109 => ⟨S2x512x64, .f32⟩
  | 110 => ⟨S1x512x1, .f32⟩
  | 111 => ⟨S2x512x64, .f32⟩
  | 112 => ⟨S2x512x64, .f32⟩
  | 113 => ⟨S_, .f32⟩
  | 114 => ⟨S2x512, .f32⟩
  | 115 => ⟨S_, .f32⟩
  | 116 => ⟨S2x512, .f32⟩
  | 117 => ⟨S2x512, .f32⟩
  | 118 => ⟨S2x512x1, .f32⟩
  | 119 => ⟨S2x512x64, .f32⟩
  | 120 => ⟨S2x512x64, .f32⟩
  | 121 => ⟨S2x512x64, .f32⟩
  | 122 => ⟨S_, .f32⟩
  | 123 => ⟨S2x512, .f32⟩
  | 124 => ⟨S2x512x1, .f32⟩
  | 125 => ⟨S2x512x64, .f32⟩
  | 126 => ⟨S2x512x64, .f32⟩
  | 127 => ⟨S256, .i32⟩
  | _ => ⟨S2x512x256x128, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S256, .f32⟩
  | 5 => ⟨S256, .i32⟩
  | 6 => ⟨S_, .i32⟩
  | 7 => ⟨S256, .i32⟩
  | 8 => ⟨S256, .i1⟩
  | 9 => ⟨S_, .i32⟩
  | 10 => ⟨S256, .i32⟩
  | 11 => ⟨S256, .i32⟩
  | 12 => ⟨S256, .i32⟩
  | 13 => ⟨S256x1, .i32⟩
  | 14 => ⟨S2x512x256, .f32⟩
  | 15 => ⟨S2x512x256x1, .f32⟩
  | 16 => ⟨S2x512x256x128, .f32⟩
  | 17 => ⟨S2x512x256x128, .f32⟩
  | 18 => ⟨S1x512x1, .f32⟩
  | 19 => ⟨S2x512x64, .f32⟩
  | 20 => ⟨S2x512x64, .f32⟩
  | 21 => ⟨S1x512x1, .f32⟩
  | 22 => ⟨S2x512x64, .f32⟩
  | 23 => ⟨S2x512x64, .f32⟩
  | 24 => ⟨S_, .f32⟩
  | 25 => ⟨S2, .f32⟩
  | 26 => ⟨S2x1x1, .f32⟩
  | 27 => ⟨S_, .f32⟩
  | 28 => ⟨S2x1x1, .f32⟩
  | 29 => ⟨S2x1x1, .f32⟩
  | 30 => ⟨S_, .i32⟩
  | 31 => ⟨S_, .f32⟩
  | 32 => ⟨S2, .f32⟩
  | 33 => ⟨S2x1x1, .f32⟩
  | 34 => ⟨S_, .f32⟩
  | 35 => ⟨S2x1x1, .f32⟩
  | 36 => ⟨S2x1x1, .f32⟩
  | 37 => ⟨S2x512x64, .f32⟩
  | 38 => ⟨S2x512x64, .f32⟩
  | 39 => ⟨S2x512x64, .f32⟩
  | 40 => ⟨S_, .f32⟩
  | 41 => ⟨S_, .f32⟩
  | 42 => ⟨S_, .f32⟩
  | 43 => ⟨S_, .f32⟩
  | 44 => ⟨S2, .f32⟩
  | 45 => ⟨S2x1x1, .f32⟩
  | 46 => ⟨S2x1x1, .f32⟩
  | 47 => ⟨S2x1x1, .f32⟩
  | 48 => ⟨S_, .f32⟩
  | 49 => ⟨S_, .i1⟩
  | 50 => ⟨S_, .f32⟩
  | 51 => ⟨S_, .f32⟩
  | 52 => ⟨S2x1x1, .f32⟩
  | 53 => ⟨S2x1x1, .f32⟩
  | 54 => ⟨S2x512x64, .f32⟩
  | 55 => ⟨S2x512x64, .f32⟩
  | 56 => ⟨S_, .f32⟩
  | 57 => ⟨S2x1x1, .f32⟩
  | 58 => ⟨S2x1x1, .f32⟩
  | 59 => ⟨S2x1x1, .f32⟩
  | 60 => ⟨S2x512x64, .f32⟩
  | 61 => ⟨S2x512x64, .f32⟩
  | 62 => ⟨S1x512x1, .f32⟩
  | 63 => ⟨S2x512x64, .f32⟩
  | 64 => ⟨S2x512x64, .f32⟩
  | 65 => ⟨S1x512x1, .f32⟩
  | 66 => ⟨S2x512x64, .f32⟩
  | 67 => ⟨S2x512x64, .f32⟩
  | 68 => ⟨S256, .i32⟩
  | 69 => ⟨S256, .f32⟩
  | 70 => ⟨S_, .f32⟩
  | 71 => ⟨S256, .f32⟩
  | 72 => ⟨S256, .f32⟩
  | 73 => ⟨S256, .f32⟩
  | 74 => ⟨S256, .i32⟩
  | 75 => ⟨S_, .i32⟩
  | 76 => ⟨S256, .i32⟩
  | 77 => ⟨S256, .i1⟩
  | 78 => ⟨S_, .i32⟩
  | 79 => ⟨S256, .i32⟩
  | 80 => ⟨S256, .i32⟩
  | 81 => ⟨S256, .i32⟩
  | 82 => ⟨S256x1, .i32⟩
  | 83 => ⟨S2x512x256, .f32⟩
  | 84 => ⟨S2x512x256x1, .f32⟩
  | 85 => ⟨S1x512x1x1, .f32⟩
  | 86 => ⟨S2x512x256x128, .f32⟩
  | 87 => ⟨S2x512x256x128, .f32⟩
  | 88 => ⟨S_, .f32⟩
  | 89 => ⟨S512, .f32⟩
  | 90 => ⟨S1x512x1x1, .f32⟩
  | 91 => ⟨S_, .f32⟩
  | 92 => ⟨S1x512x1x1, .f32⟩
  | 93 => ⟨S1x512x1x1, .f32⟩
  | 94 => ⟨S_, .i32⟩
  | 95 => ⟨S_, .f32⟩
  | 96 => ⟨S512, .f32⟩
  | 97 => ⟨S1x512x1x1, .f32⟩
  | 98 => ⟨S_, .f32⟩
  | 99 => ⟨S1x512x1x1, .f32⟩
  | 100 => ⟨S1x512x1x1, .f32⟩
  | 101 => ⟨S2x512x256x128, .f32⟩
  | 102 => ⟨S2x512x256x128, .f32⟩
  | 103 => ⟨S2x512x256x128, .f32⟩
  | 104 => ⟨S_, .f32⟩
  | 105 => ⟨S_, .f32⟩
  | 106 => ⟨S_, .f32⟩
  | 107 => ⟨S_, .f32⟩
  | 108 => ⟨S512, .f32⟩
  | 109 => ⟨S1x512x1x1, .f32⟩
  | 110 => ⟨S1x512x1x1, .f32⟩
  | 111 => ⟨S1x512x1x1, .f32⟩
  | 112 => ⟨S_, .f32⟩
  | 113 => ⟨S_, .i1⟩
  | 114 => ⟨S_, .f32⟩
  | 115 => ⟨S_, .f32⟩
  | 116 => ⟨S1x512x1x1, .f32⟩
  | 117 => ⟨S1x512x1x1, .f32⟩
  | 118 => ⟨S2x512x256x128, .f32⟩
  | 119 => ⟨S2x512x256x128, .f32⟩
  | 120 => ⟨S_, .f32⟩
  | 121 => ⟨S1x512x1x1, .f32⟩
  | 122 => ⟨S1x512x1x1, .f32⟩
  | 123 => ⟨S1x512x1x1, .f32⟩
  | 124 => ⟨S2x512x256x128, .f32⟩
  | 125 => ⟨S2x512x256x128, .f32⟩
  | 126 => ⟨S1x512x1x1, .f32⟩
  | 127 => ⟨S2x512x256x128, .f32⟩
  | _ => ⟨S2x512x256x128, .f32⟩

abbrev hbmTy0_2 (i : Nat) : BufTy := match i % 128 with
  | 0 => ⟨S2x512x256x128, .f32⟩
  | 1 => ⟨S1x512x1x1, .f32⟩
  | 2 => ⟨S2x512x256x128, .f32⟩
  | 3 => ⟨S2x512x256x128, .f32⟩
  | 4 => ⟨S_, .f32⟩
  | 5 => ⟨S2x512x256x128, .f32⟩
  | 6 => ⟨S2x512x256x128, .f32⟩
  | 7 => ⟨S2x512x256x128, .f32⟩
  | 8 => ⟨S2x512x256x128, .f32⟩
  | 9 => ⟨S2x512x256x128, .f32⟩
  | _ => ⟨S2x512x256x128, .f32⟩

abbrev hbmTy (i : Nat) : BufTy := match i / 128 with
  | 0 => hbmTy0_0 i
  | 1 => hbmTy0_1 i
  | 2 => hbmTy0_2 i
  | _ => ⟨S2x512x256x128, .f32⟩

abbrev bufTy : (tb : Table) → Fin (tcTables nBuf tb) → BufTy
  | .hbm, ⟨i, _⟩ => hbmTy i
  | _, _ => ⟨S2x512x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_1 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_2 : Ref sig .tc := ⟨.hbm, 69, rfl⟩
abbrev main_v27 : Ref sig .tc := ⟨.hbm, 70, rfl⟩
abbrev main_v28 : Ref sig .tc := ⟨.hbm, 71, rfl⟩
abbrev main_cst_3 : Ref sig .tc := ⟨.hbm, 72, rfl⟩
abbrev main_v29 : Ref sig .tc := ⟨.hbm, 73, rfl⟩
abbrev main_v30 : Ref sig .tc := ⟨.hbm, 74, rfl⟩
abbrev main_c_4 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_v12 : Ref sig .tc := ⟨.hbm, 92, rfl⟩
abbrev main_call1_cst_3 : Ref sig .tc := ⟨.hbm, 93, rfl⟩
abbrev main_call1_v13 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_cst_5 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_cst_6 : Ref sig .tc := ⟨.hbm, 113, rfl⟩
abbrev main_v45 : Ref sig .tc := ⟨.hbm, 114, rfl⟩
abbrev main_cst_7 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_cst_8 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_9 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_c_10 : Ref sig .tc := ⟨.hbm, 134, rfl⟩
abbrev main_v62 : Ref sig .tc := ⟨.hbm, 135, rfl⟩
abbrev main_v63 : Ref sig .tc := ⟨.hbm, 136, rfl⟩
abbrev main_c_11 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_cst_12 : Ref sig .tc := ⟨.hbm, 152, rfl⟩
abbrev main_v78 : Ref sig .tc := ⟨.hbm, 153, rfl⟩
abbrev main_v79 : Ref sig .tc := ⟨.hbm, 154, rfl⟩
abbrev main_cst_13 : Ref sig .tc := ⟨.hbm, 155, rfl⟩
abbrev main_v80 : Ref sig .tc := ⟨.hbm, 156, rfl⟩
abbrev main_v81 : Ref sig .tc := ⟨.hbm, 157, rfl⟩
abbrev main_c_14 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_cst_0 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_v5 : Ref sig .tc := ⟨.hbm, 166, rfl⟩
abbrev main_call2_v6 : Ref sig .tc := ⟨.hbm, 167, rfl⟩
abbrev main_call2_v7 : Ref sig .tc := ⟨.hbm, 168, rfl⟩
abbrev main_call2_cst_1 : Ref sig .tc := ⟨.hbm, 169, rfl⟩
abbrev main_call2_v8 : Ref sig .tc := ⟨.hbm, 170, rfl⟩
abbrev main_call2_cst_2 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_v12 : Ref sig .tc := ⟨.hbm, 175, rfl⟩
abbrev main_call2_cst_3 : Ref sig .tc := ⟨.hbm, 176, rfl⟩
abbrev main_call2_v13 : Ref sig .tc := ⟨.hbm, 177, rfl⟩
abbrev main_call2_cst_4 : Ref sig .tc := ⟨.hbm, 178, rfl⟩
abbrev main_call2_call0_v0 : Ref sig .tc := ⟨.hbm, 179, rfl⟩
abbrev main_call2_call0_v1 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_cst_15 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_cst_16 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_c_17 : Ref sig .tc := ⟨.hbm, 203, rfl⟩
abbrev main_v102 : Ref sig .tc := ⟨.hbm, 204, rfl⟩
abbrev main_v103 : Ref sig .tc := ⟨.hbm, 205, rfl⟩
abbrev main_c_18 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_cst_19 : Ref sig .tc := ⟨.hbm, 216, rfl⟩
abbrev main_v113 : Ref sig .tc := ⟨.hbm, 217, rfl⟩
abbrev main_v114 : Ref sig .tc := ⟨.hbm, 218, rfl⟩
abbrev main_cst_20 : Ref sig .tc := ⟨.hbm, 219, rfl⟩
abbrev main_v115 : Ref sig .tc := ⟨.hbm, 220, rfl⟩
abbrev main_v116 : Ref sig .tc := ⟨.hbm, 221, rfl⟩
abbrev main_c_21 : Ref sig .tc := ⟨.hbm, 222, rfl⟩
abbrev main_call3_cst : Ref sig .tc := ⟨.hbm, 223, rfl⟩
abbrev main_call3_v0 : Ref sig .tc := ⟨.hbm, 224, rfl⟩
abbrev main_call3_v1 : Ref sig .tc := ⟨.hbm, 225, rfl⟩
abbrev main_call3_cst_0 : Ref sig .tc := ⟨.hbm, 226, rfl⟩
abbrev main_call3_v2 : Ref sig .tc := ⟨.hbm, 227, rfl⟩
abbrev main_call3_v3 : Ref sig .tc := ⟨.hbm, 228, rfl⟩
abbrev main_call3_v4 : Ref sig .tc := ⟨.hbm, 229, rfl⟩
abbrev main_call3_v5 : Ref sig .tc := ⟨.hbm, 230, rfl⟩
abbrev main_call3_v6 : Ref sig .tc := ⟨.hbm, 231, rfl⟩
abbrev main_call3_v7 : Ref sig .tc := ⟨.hbm, 232, rfl⟩
abbrev main_call3_cst_1 : Ref sig .tc := ⟨.hbm, 233, rfl⟩
abbrev main_call3_v8 : Ref sig .tc := ⟨.hbm, 234, rfl⟩
abbrev main_call3_cst_2 : Ref sig .tc := ⟨.hbm, 235, rfl⟩
abbrev main_call3_v9 : Ref sig .tc := ⟨.hbm, 236, rfl⟩
abbrev main_call3_v10 : Ref sig .tc := ⟨.hbm, 237, rfl⟩
abbrev main_call3_v11 : Ref sig .tc := ⟨.hbm, 238, rfl⟩
abbrev main_call3_v12 : Ref sig .tc := ⟨.hbm, 239, rfl⟩
abbrev main_call3_cst_3 : Ref sig .tc := ⟨.hbm, 240, rfl⟩
abbrev main_call3_v13 : Ref sig .tc := ⟨.hbm, 241, rfl⟩
abbrev main_call3_cst_4 : Ref sig .tc := ⟨.hbm, 242, rfl⟩
abbrev main_call3_call0_v0 : Ref sig .tc := ⟨.hbm, 243, rfl⟩
abbrev main_call3_call0_v1 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_cst_22 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_call4_cst : Ref sig .tc := ⟨.hbm, 260, rfl⟩
abbrev main_call4_v0 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩

abbrev nD : Nat := 1
abbrev τ : Topo := Topo.v7x

variable {F : FTy → Type} [FloatOps F]

class Facts₀ : Prop where
  bcast_S512_S1x512x1x1_1 : S512.BroadcastsInDim S1x512x1x1 (![1] : Fin 1 → Fin S1x512x1x1.rank)
  bcast_S1x512x1x1_S2x512x256x128_0_1_2_3 : S1x512x1x1.BroadcastsInDim S2x512x256x128 (![0, 1, 2, 3] : Fin 4 → Fin S2x512x256x128.rank)
  reducesTo_S2x512x256x128_S512_d0_2_3 : S2x512x256x128.ReducesTo [0, 2, 3] S512
  h_S_ : 0 < S_.numel
  bcast_S_S1x512x1x1 : S_.BroadcastsInDim S1x512x1x1 (![] : Fin 0 → Fin S1x512x1x1.rank)
  bcast_S512_S1x512x1_1 : S512.BroadcastsInDim S1x512x1 (![1] : Fin 1 → Fin S1x512x1.rank)
  bcast_S1x512x1_S2x512x64_0_1_2 : S1x512x1.BroadcastsInDim S2x512x64 (![0, 1, 2] : Fin 3 → Fin S2x512x64.rank)
  reducesTo_S2x512x64_S2_d1_2 : S2x512x64.ReducesTo [1, 2] S2
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S2x1x1_S2x512x64_0_1_2 : S2x1x1.BroadcastsInDim S2x512x64 (![0, 1, 2] : Fin 3 → Fin S2x512x64.rank)
  reducesTo_S2x512x64_S2x512_d2 : S2x512x64.ReducesTo [2] S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x64_0_1_2 : S2x512x1.BroadcastsInDim S2x512x64 (![0, 1, 2] : Fin 3 → Fin S2x512x64.rank)
  bcast_S_S256 : S_.BroadcastsInDim S256 (![] : Fin 0 → Fin S256.rank)
  bcast_S256_S256x1_0 : S256.BroadcastsInDim S256x1 (![0] : Fin 1 → Fin S256x1.rank)
  bcast_S2x512x256_S2x512x256x1_0_1_2 : S2x512x256.BroadcastsInDim S2x512x256x1 (![0, 1, 2] : Fin 3 → Fin S2x512x256x1.rank)
  bcast_S2x512x256x1_S2x512x256x128_0_1_2_3 : S2x512x256x1.BroadcastsInDim S2x512x256x128 (![0, 1, 2, 3] : Fin 4 → Fin S2x512x256x128.rank)
  bcast_S_S2x512x256x128 : S_.BroadcastsInDim S2x512x256x128 (![] : Fin 0 → Fin S2x512x256x128.rank)
  gather_S2x512x64_S256x1_S2x512x256_01_2_n_n_2_1_25121_wf : GatherDims.WF S2x512x64 S256x1 S2x512x256 [0, 1] [2] [] [2] [] 1 ![2, 512, 1]

variable [Facts₀]

def gather_S2x512x64_S256x1_S2x512x256_01_2_n_n_2_1_25121 : GatherDims S2x512x64 S256x1 S2x512x256 where
  offsetDims := [0, 1]
  collapsedSliceDims := [2]
  operandBatchingDims := []
  startIndicesBatchingDims := []
  startIndexMap := [2]
  indexVectorDim := 1
  sliceSizes := ![2, 512, 1]
  wf := gather_S2x512x64_S256x1_S2x512x256_01_2_n_n_2_1_25121_wf

class Facts : Prop extends Facts₀ where

variable [Facts]
-- ==== Proof.KernelRun.lean ====
/-
  The idealized kernel's run, with the result array named.

  The program is two pipelined regions among stretches of host operations.  Its generated frame follows the buffer
  contents from boundary to boundary: after the last region every unscoped buffer holds the contents `Gen.W8`, the last
  fold of that walk.  The frame keeps of this only that the sixteen argument arrays end as launched; here the same launch is
  read once more, at the result buffer as well: the result array ends at `Gen.W8 m ρ c` read at the result's reference.
-/
import proofs.«118657_j45303315038549_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last fold of the
    boundary contents, and the sixteen argument arrays end as launched. -/
theorem run : θ_run defs (onTc (τ := τ) (main (F := F))) ⟨m, fun _ => 0, ρ⟩ (fun r => ∀ c : Dev nD,
      r.2.mem ((c.tc : Thread nD τ).loc main_v108) = W8 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v108 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.ValueRun

end
-- ==== Proof.KernelFold.lean ====
/-
  The host's fold of the batch normalization into one scale and one shift per channel.

  From the two accumulated arrays S (the per-channel sum of the audio) and Q (the per-channel sum of its squares), both
  [1,512], the host takes  mean = S / 65536,  var = Q / 65536 − mean · mean,  and for a branch with depthwise weight w, gain γ
  and offset β
        inv   = rsqrt (w · w · var + ε),
        scale = (w · inv) · γ ,        shift = (((−w) · mean) · inv) · γ + β ,
  each reshaped from [512] to [1,512,1,1].  These operations all sit in the first stretch of host operations after the
  statistics region; no later stretch writes their buffers, so the second region finds them as that stretch left them.
-/
import proofs.«118657_j45303315038549_1_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal
import Idealize.ShloMosaic.PureOps.Ideal.Laws

set_option maxRecDepth 16384

noncomputable section

namespace Cert.KernelIdeal.Fold

open Idealize.ShloMosaic Idealize.ShloMosaic.TcCoe Idealize.ShloMosaic.StableHlo Idealize.ShloMosaic.ValueIdx Idealize.SL.Sem
open Cert.KernelIdeal Cert.KernelIdeal.Gen

/-! ## The fold as whole-array functions -/

/-- An accumulated array [1,512] divided by the number of entries per channel, as a vector [512]. -/
def chanMean (S : FVec Ideal S1x512 .f32) : FVec Ideal S512 .f32 := fun i =>
  shapeCast S512 (Host.divf S (broadcastInDim S1x512 ![] bcast_S_S1x512 (constant (F := Ideal) S_ .f32 0x47800000#32)))
    shapeCasts_S1x512_S512 i

/-- The one-pass variance: the mean of the squares minus the square of the mean. -/
def chanVar (S Q : FVec Ideal S1x512 .f32) : FVec Ideal S512 .f32 :=
  subf (chanMean Q) (mulf (chanMean S) (chanMean S))

/-- The reciprocal standard deviation of the weighted audio: rsqrt (w · w · var + ε). -/
def invStd (w : FVec Ideal S512 .f32) (S Q : FVec Ideal S1x512 .f32) : FVec Ideal S512 .f32 :=
  Host.rsqrt (addf (mulf (mulf w w) (chanVar S Q)) (broadcastInDim S512 ![] bcast_S_S512 (constant (F := Ideal) S_ .f32 0x3727C5AC#32)))

/-- The folded scale (w · inv) · γ, as [1,512,1,1]. -/
def scaleOf (w γ : FVec Ideal S512 .f32) (S Q : FVec Ideal S1x512 .f32) : FVec Ideal S1x512x1x1 .f32 := fun i =>
  shapeCast S1x512x1x1 (mulf (mulf w (invStd w S Q)) γ) shapeCasts_S512_S1x512x1x1 i

/-- The folded shift (((−w) · mean) · inv) · γ + β, as [1,512,1,1]. -/
def shiftOf (w γ β : FVec Ideal S512 .f32) (S Q : FVec Ideal S1x512 .f32) : FVec Ideal S1x512x1x1 .f32 := fun i =>
  shapeCast S1x512x1x1 (addf (mulf (mulf (mulf (Host.negf w) (chanMean S)) (invStd w S Q)) γ) β) shapeCasts_S512_S1x512x1x1 i

/-! ## What the first stretch leaves -/

section Run

variable (m : (ℓ : Loc nD τ sig) → Buf (Elt Ideal) ℓ) (ρ : Dev nD → PrngReg)

theorem W3_v16 (c : Dev nD) : W3 m ρ c (Proc.devRef .tc main_v16)
    = scaleOf (W2 m ρ c (Proc.devRef .tc main_arg2)) (W2 m ρ c (Proc.devRef .tc main_arg3))
        (W2 m ρ c (Proc.devRef .tc main_v0_0)) (W2 m ρ c (Proc.devRef .tc main_v0_1)) := by
  show StableHlo.after hostOps1 (W2 m ρ c) (Proc.devRef .tc main_v16) = _
  after_results_simp
  rfl

theorem W3_v22 (c : Dev nD) : W3 m ρ c (Proc.devRef .tc main_v22)
    = shiftOf (W2 m ρ c (Proc.devRef .tc main_arg2)) (W2 m ρ c (Proc.devRef .tc main_arg3)) (W2 m ρ c (Proc.devRef .tc main_arg4))
        (W2 m ρ c (Proc.devRef .tc main_v0_0)) (W2 m ρ c (Proc.devRef .tc main_v0_1)) := by
  show StableHlo.after hostOps1 (W2 m ρ c) (Proc.devRef .tc main_v22) = _
  after_results_simp
  rfl

theorem W3_v30 (c : Dev nD) : W3 m ρ c (Proc.devRef .tc main_v30)
    = scaleOf (W2 m ρ c (Proc.devRef .tc main_arg5)) (W2 m ρ c (Proc.devRef .tc main_arg6))
        (W2 m ρ c (Proc.devRef .tc main_v0_0)) (W2 m ρ c (Proc.devRef .tc main_v0_1)) := by
  show StableHlo.after hostOps1 (W2 m ρ c) (Proc.devRef .tc main_v30) = _
  after_results_simp
  rfl

theorem W3_v36 (c : Dev nD) : W3 m ρ c (Proc.devRef .tc main_v36)
    = shiftOf (W2 m ρ c (Proc.devRef .tc main_arg5)) (W2 m ρ c (Proc.devRef .tc main_arg6)) (W2 m ρ c (Proc.devRef .tc main_arg7))
        (W2 m ρ c (Proc.devRef .tc main_v0_0)) (W2 m ρ c (Proc.devRef .tc main_v0_1)) := by
  show StableHlo.after hostOps1 (W2 m ρ c) (Proc.devRef .tc main_v36) = _
  after_results_simp
  rfl

/-! ## No later stretch writes them -/

theorem W7_v16 (c : Dev nD) : W7 m ρ c (Proc.devRef .tc main_v16) = W3 m ρ c (Proc.devRef .tc main_v16) :=
  calc W7 m ρ c (Proc.devRef .tc main_v16)
    _ = W6 m ρ c (Proc.devRef .tc main_v16) := StableHlo.after_of_forall_not_mem _ _ (List.forall_iff_forall_mem.mp (by
      simp only [hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v16) := StableHlo.after_of_forall_not_mem _ _ (List.forall_iff_forall_mem.mp (by
      simp only [hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v16) := StableHlo.after_of_forall_not_mem _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v16) := StableHlo.after_of_forall_not_mem _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W7_v22 (c : Dev nD) : W7 m ρ c (Proc.devRef .tc main_v22) = W3 m ρ c (Proc.devRef .tc main_v22) :=
  calc W7 m ρ c (Proc.devRef .tc main_v22)
    _ = W6 m ρ c (Proc.devRef .tc main_v22) := StableHlo.after_of_forall_not_mem _ _ (List.forall_iff_forall_mem.mp (by
      simp only [hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v22) := StableHlo.after_of_forall_not_mem _ _ (List.forall_iff_forall_mem.mp (by
      simp only [hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v22) := StableHlo.after_of_forall_not_mem _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v22) := StableHlo.after_of_forall_not_mem _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W7_v30 (c : Dev nD) : W7 m ρ c (Proc.devRef .tc main_v30) = W3 m ρ c (Proc.devRef .tc main_v30) :=
  calc W7 m ρ c (Proc.devRef .tc main_v30)
    _ = W6 m ρ c (Proc.devRef .tc main_v30) := StableHlo.after_of_forall_not_mem _ _ (List.forall_iff_forall_mem.mp (by
      simp only [hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v30) := StableHlo.after_of_forall_not_mem _ _ (List.forall_iff_forall_mem.mp (by
      simp only [hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v30) := StableHlo.after_of_forall_not_mem _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v30) := StableHlo.after_of_forall_not_mem _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W7_v36 (c : Dev nD) : W7 m ρ c (Proc.devRef .tc main_v36) = W3 m ρ c (Proc.devRef .tc main_v36) :=
  calc W7 m ρ c (Proc.devRef .tc main_v36)
    _ = W6 m ρ c (Proc.devRef .tc main_v36) := StableHlo.after_of_forall_not_mem _ _ (List.forall_iff_forall_mem.mp (by
      simp only [hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v36) := StableHlo.after_of_forall_not_mem _ _ (List.forall_iff_forall_mem.mp (by
      simp only [hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v36) := StableHlo.after_of_forall_not_mem _ _ (List.forall_iff_forall_mem.mp (by
      simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v36) := StableHlo.after_of_forall_not_mem _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The statistics region leaves the per-channel vectors as launched -/

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (fun w => by fin_cases w <;> decide)
    _ = W0 m ρ c (Proc.devRef .tc main_arg2) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (fun w => by fin_cases w <;> decide)
    _ = W0 m ρ c (Proc.devRef .tc main_arg3) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (fun w => by fin_cases w <;> decide)
    _ = W0 m ρ c (Proc.devRef .tc main_arg4) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (fun w => by fin_cases w <;> decide)
    _ = W0 m ρ c (Proc.devRef .tc main_arg5) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (fun w => by fin_cases w <;> decide)
    _ = W0 m ρ c (Proc.devRef .tc main_arg6) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (fun w => by fin_cases w <;> decide)
    _ = W0 m ρ c (Proc.devRef .tc main_arg7) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

end Run

end Cert.KernelIdeal.Fold

end
-- ==== Proof.KernelFoldRead.lean ====
/-
  The folded scale and shift read at a channel.

  A reshape between [512] and [1,512,1,1] (or from [1,512] to [512]) keeps the row-major position, and the position of
  (0, c, 0, 0), of (0, c) and of c is c in each case; so the entry of the folded vector at channel c is the scalar
  expression of the channel's weight, gain, offset and accumulated sums.
-/
import proofs.«118657_j45303315038549_1_alg».proof.Proof.KernelFold

set_option maxRecDepth 16384

noncomputable section

namespace Cert.KernelIdeal.Fold

open Idealize.ShloMosaic Idealize.ShloMosaic.TcCoe Idealize.ShloMosaic.ValueIdx
open Cert.KernelIdeal Cert.KernelIdeal.Gen

/-- The per-channel mean: the accumulated entry over the word of 65536. -/
theorem chanMean_apply (S : FVec Ideal S1x512 .f32) (c : Fin 512) :
    chanMean S (ix1 c) = Ideal.div (S (ix2 (0 : Fin 1) c)) (Ideal.ofBits .f32 0x47800000#32) := by
  unfold chanMean
  refine (shapeCast_apply _ _ (ix1 c) (ix2 (0 : Fin 1) c) (by
    rw [Shape.rowMajor_val_two, Shape.rowMajor_val_one]
    show 0 * 512 + c.val = c.val
    omega)).trans ?_
  rfl

/-- The one-pass variance at a channel. -/
theorem chanVar_apply (S Q : FVec Ideal S1x512 .f32) (c : Fin 512) :
    chanVar S Q (ix1 c) = chanMean Q (ix1 c) - chanMean S (ix1 c) * chanMean S (ix1 c) := rfl

/-- The reciprocal standard deviation at a channel. -/
theorem invStd_apply (w : FVec Ideal S512 .f32) (S Q : FVec Ideal S1x512 .f32) (c : Fin 512) :
    invStd w S Q (ix1 c)
      = Ideal.rsqrt (w (ix1 c) * w (ix1 c) * chanVar S Q (ix1 c) + Ideal.ofBits .f32 0x3727C5AC#32) := rfl

/-- The folded scale at a channel. -/
theorem scaleOf_apply (w γ : FVec Ideal S512 .f32) (S Q : FVec Ideal S1x512 .f32) (c : Fin 512) :
    scaleOf w γ S Q (ix4 (0 : Fin 1) c (0 : Fin 1) (0 : Fin 1)) = (w (ix1 c) * invStd w S Q (ix1 c)) * γ (ix1 c) := by
  unfold scaleOf
  refine (shapeCast_apply _ _ (ix4 (0 : Fin 1) c (0 : Fin 1) (0 : Fin 1)) (ix1 c) (by
    rw [Shape.rowMajor_val_one, Shape.rowMajor_val_four]
    show c.val = ((0 * 512 + c.val) * 1 + 0) * 1 + 0
    omega)).trans ?_
  rfl

/-- The folded shift at a channel. -/
theorem shiftOf_apply (w γ β : FVec Ideal S512 .f32) (S Q : FVec Ideal S1x512 .f32) (c : Fin 512) :
    shiftOf w γ β S Q (ix4 (0 : Fin 1) c (0 : Fin 1) (0 : Fin 1))
      = ((-(w (ix1 c)) * chanMean S (ix1 c)) * invStd w S Q (ix1 c)) * γ (ix1 c) + β (ix1 c) := by
  unfold shiftOf
  refine (shapeCast_apply _ _ (ix4 (0 : Fin 1) c (0 : Fin 1) (0 : Fin 1)) (ix1 c) (by
    rw [Shape.rowMajor_val_one, Shape.rowMajor_val_four]
    show c.val = ((0 * 512 + c.val) * 1 + 0) * 1 + 0
    omega)).trans ?_
  rfl

end Cert.KernelIdeal.Fold

end
-- ==== Proof.LibBnLaw.lean ====
/-
  The scalar facts of a graph convolution network's batch normalization, over the extended reals.

  A fused batch norm folds the per-feature statistics into one scale and one shift: with s the reciprocal
  standard deviation it computes  h·(γ·s) + (β − (μ·γ)·s), where the textbook form is  ((h − μ)·s)·γ + β.
  On the extended reals multiplication does not distribute over a difference at the infinities, so the two
  agree where the five numbers are real; there they are one polynomial identity.  Beside the law: the
  values of the float words the two programs share (50000, 1, 0, the single-precision neighbour of 1e-5,
  -inf), and the variance's guard "number of rows minus the degrees of freedom is positive", which at
  50000 rows and zero degrees of freedom is true, so that the guarded select returns its first branch.
-/
import Idealize.ShloMosaic.PureOps.Ideal.Laws
import Idealize.ShloMosaic.Lib.IdealHost
import Idealize.ShloMosaic.Lib.ValueIdx

noncomputable section

namespace Cert.GcnReal

open Idealize.ShloMosaic

/-! ## The batch-norm law -/

/-- Scale-and-shift equals normalize-then-affine, at real numbers: h(γs) + (β − (μγ)s) = ((h − μ)s)γ + β. -/
theorem bn_law (h μ s γ β : ℝ) :
    ((h : EReal) * ((γ : EReal) * (s : EReal)) + ((β : EReal) - ((μ : EReal) * (γ : EReal)) * (s : EReal)))
      = ((((h : EReal) - (μ : EReal)) * (s : EReal)) * (γ : EReal) + (β : EReal)) := by
  simp only [← EReal.coe_mul, ← EReal.coe_sub, ← EReal.coe_add]
  exact congrArg _ (by ring)

/-- The law under a maximum with any third number (the rectifier is the maximum with zero). -/
theorem bn_law_max (h μ s γ β : ℝ) (z : EReal) :
    max ((h : EReal) * ((γ : EReal) * (s : EReal)) + ((β : EReal) - ((μ : EReal) * (γ : EReal)) * (s : EReal))) z
      = max ((((h : EReal) - (μ : EReal)) * (s : EReal)) * (γ : EReal) + (β : EReal)) z := by
  rw [bn_law]

/-- The law for extended reals known to be real numbers. -/
theorem bn_law_of_real {x μ s γ β : EReal} (hx : ∃ r : ℝ, x = r) (hμ : ∃ r : ℝ, μ = r) (hs : ∃ r : ℝ, s = r)
    (hγ : ∃ r : ℝ, γ = r) (hβ : ∃ r : ℝ, β = r) :
    x * (γ * s) + (β - (μ * γ) * s) = ((x - μ) * s) * γ + β := by
  obtain ⟨x, rfl⟩ := hx; obtain ⟨μ, rfl⟩ := hμ; obtain ⟨s, rfl⟩ := hs; obtain ⟨γ, rfl⟩ := hγ; obtain ⟨β, rfl⟩ := hβ
  exact bn_law x μ s γ β

/-- The rectified law for extended reals known to be real numbers, the maximum spelt as the ideal
    instance's maximumf is (the maximum of the order). -/
theorem bn_relu_law_of_real {x μ s γ β : EReal} (z : EReal) (hx : ∃ r : ℝ, x = r) (hμ : ∃ r : ℝ, μ = r)
    (hs : ∃ r : ℝ, s = r) (hγ : ∃ r : ℝ, γ = r) (hβ : ∃ r : ℝ, β = r) :
    max (x * (γ * s) + (β - (μ * γ) * s)) z = max (((x - μ) * s) * γ + β) z := by
  rw [bn_law_of_real hx hμ hs hγ hβ]

/-- The same, in the float operations' own names at the ideal instance. -/
theorem bn_relu_law_ops {x μ s γ β : Ideal .f32} (z : Ideal .f32) (hx : ∃ r : ℝ, x = r) (hμ : ∃ r : ℝ, μ = r)
    (hs : ∃ r : ℝ, s = r) (hγ : ∃ r : ℝ, γ = r) (hβ : ∃ r : ℝ, β = r) :
    FloatOps.maximumf (FloatOps.addf (FloatOps.mulf x (FloatOps.mulf γ s)) (FloatOps.subf β (FloatOps.mulf (FloatOps.mulf μ γ) s))) z
      = FloatOps.maximumf (FloatOps.addf (FloatOps.mulf (FloatOps.mulf (FloatOps.subf x μ) s) γ) β) z :=
  bn_relu_law_of_real z hx hμ hs hγ hβ

/-! ## The float words the programs share -/

/-- The word 0x47435000 is 50000 (the number of rows). -/
theorem ofBits_50000 : Ideal.ofBits .f32 0x47435000#32 = ((50000 : ℝ) : EReal) := by
  simp [Ideal.ofBits, Ideal.ieee, -EReal.coe_mul]; norm_num

/-- The word 0x3F800000 is 1. -/
theorem ofBits_one : Ideal.ofBits .f32 0x3F800000#32 = ((1 : ℝ) : EReal) := by
  simp [Ideal.ofBits, Ideal.ieee, -EReal.coe_mul]; norm_num

/-- The word 0x00000000 is 0. -/
theorem ofBits_zero : Ideal.ofBits .f32 0x00000000#32 = ((0 : ℝ) : EReal) :=
  Ideal.ofBits_zero_f32.trans EReal.coe_zero.symm

/-- The word 0x3727C5AC, single precision's neighbour of 1e-5, is a positive real number. -/
theorem ofBits_eps_pos : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

/-- The word 0xFF800000 is -inf, the bottom of the extended reals. -/
theorem ofBits_neg_inf : Ideal.ofBits .f32 0xFF800000#32 = ⊥ := by simp [Ideal.ofBits, Ideal.ieee]

/-! ## The variance's guard: 50000 − 0 > 0 -/

/-- The integer word zero converts to the float zero. -/
theorem sitofp_zero (S0 : Shape) :
    sitofp (F := Ideal) .f32 (constantI S0 32 0#32) = fun _ => ((0 : ℝ) : EReal) := by
  funext i
  show (((0#32 : BitVec 32).toInt : ℝ) : EReal) = _
  simp

/-- 50000 minus the converted zero word is 50000. -/
theorem rows_sub_ddof (S0 : Shape) :
    subf (constant (F := Ideal) S0 .f32 0x47435000#32) (sitofp (F := Ideal) .f32 (constantI S0 32 0#32))
      = fun _ => ((50000 : ℝ) : EReal) := by
  rw [sitofp_zero]
  funext i
  show Ideal.ofBits .f32 0x47435000#32 - ((0 : ℝ) : EReal) = _
  rw [ofBits_50000, EReal.coe_zero, sub_zero]

/-- The guard "rows − degrees of freedom > 0" is the true bit everywhere. -/
theorem guard_true (S0 : Shape) :
    cmpf .ogt (subf (constant (F := Ideal) S0 .f32 0x47435000#32) (sitofp (F := Ideal) .f32 (constantI S0 32 0#32)))
        (constant (F := Ideal) S0 .f32 0x00000000#32)
      = constantI S0 1 1#1 := by
  rw [rows_sub_ddof]
  funext i
  show Ideal.cmp .ogt ((50000 : ℝ) : EReal) (Ideal.ofBits .f32 0x00000000#32) = 1#1
  rw [Ideal.ofBits_zero_f32]
  unfold Ideal.cmp
  have h : (0 : EReal) < ((50000 : ℝ) : EReal) := by exact_mod_cast (by norm_num : (0 : ℝ) < 50000)
  simp [h]

/-- A select whose predicate is the true bit broadcast to the operands' shape returns its first operand. -/
theorem select_broadcast_true {S0 T : Shape} {α : Type} (dims : Fin S0.rank → Fin T.rank)
    (hb : S0.BroadcastsInDim T dims) (a b : T.Idx → α) :
    select (broadcastInDim T dims hb (constantI S0 1 1#1)) a b = a := by
  funext j
  show Scalar.select (1#1 : BitVec 1) (a j) (b j) = a j
  unfold Scalar.select
  simp

/-- The guarded select of the variance returns the guarded value: the predicate is "rows − 0 > 0". -/
theorem select_guard {S0 T : Shape} {α : Type} (dims : Fin S0.rank → Fin T.rank)
    (hb : S0.BroadcastsInDim T dims) (a b : T.Idx → α) :
    select (broadcastInDim T dims hb
        (cmpf .ogt (subf (constant (F := Ideal) S0 .f32 0x47435000#32) (sitofp (F := Ideal) .f32 (constantI S0 32 0#32)))
          (constant (F := Ideal) S0 .f32 0x00000000#32))) a b = a := by
  rw [guard_true, select_broadcast_true]

end Cert.GcnReal

end
-- ==== Proof.ChannelLaw.lean ====
/-
  THE PER-CHANNEL BATCH-NORM LAW: one pass folded into a scale and a shift, against two passes.

  Fix a channel, its 2·256·128 = 65536 entries x, and a branch's weight w, gain g and offset β.  One program sums x and
  x² once, sets mean = (∑x)/N and var = (∑x²)/N − mean², and applies  x ↦ x·((w·s)·g) + (((−w)·mean)·s·g + β)  with
  s = 1/√(w²·var + ε).  The other forms y = x·w, its mean μ = (∑y)/N, its variance v = (∑(y − μ)²)/N in a second pass,
  and applies  x ↦ ((x·w − μ)·(1/√(v + ε)))·g + β.  Over the real numbers μ = w·mean (w leaves the sum) and
  v = w²·var (the identity E[(y − μ)²] = E[y²] − μ²), so both reciprocal square roots are taken of the same real number,
  which is at least ε > 0 because v is a sum of squares over a positive number; there the reciprocal square root is the
  real 1/√·, and the two affine maps are one polynomial identity.  On the extended reals multiplication does not
  distribute over addition at the infinities, so every step is done on real witnesses and only then read back.
-/
import Mathlib.Algebra.BigOperators.Field
import Mathlib.Algebra.Order.BigOperators.Ring.Finset
import Mathlib.Data.Fintype.BigOperators
import Mathlib.Tactic
import Idealize.ShloMosaic.PureOps.Ideal
import Idealize.ShloMosaic.PureOps.Ideal.Laws
import proofs.«118657_j45303315038549_1_alg».proof.Proof.LibBnLaw

noncomputable section

namespace Cert.ChannelLaw

open Idealize.ShloMosaic
open scoped BigOperators

/-! ## The two programs' per-channel terms -/

/-- One pass: the sum of the entries. -/
def kSum (X : Fin 2 → Fin 256 → Fin 128 → EReal) : EReal := ∑ b, ∑ t, ∑ f, X b t f

/-- One pass: the sum of the squared entries. -/
def kSq (X : Fin 2 → Fin 256 → Fin 128 → EReal) : EReal := ∑ b, ∑ t, ∑ f, X b t f * X b t f

/-- One pass: the mean, the sum over the word of 65536. -/
def kMean (X : Fin 2 → Fin 256 → Fin 128 → EReal) : EReal := Ideal.div (kSum X) (Ideal.ofBits .f32 0x47800000#32)

/-- One pass: the variance, mean of squares minus squared mean. -/
def kVar (X : Fin 2 → Fin 256 → Fin 128 → EReal) : EReal :=
  Ideal.div (kSq X) (Ideal.ofBits .f32 0x47800000#32) - kMean X * kMean X

/-- One pass: the reciprocal standard deviation of the weighted entries. -/
def kInv (X : Fin 2 → Fin 256 → Fin 128 → EReal) (W : EReal) : EReal :=
  Ideal.rsqrt (W * W * kVar X + Ideal.ofBits .f32 0x3727C5AC#32)

/-- One pass, folded: a scale and a shift. -/
def kern (X : Fin 2 → Fin 256 → Fin 128 → EReal) (W G B : EReal) (x : EReal) : EReal :=
  x * ((W * kInv X W) * G) + ((((-W) * kMean X) * kInv X W) * G + B)

/-- Two passes: the mean of the weighted entries. -/
def rMu (X : Fin 2 → Fin 256 → Fin 128 → EReal) (W : EReal) : EReal :=
  Ideal.div (0 + ∑ b, ∑ t, ∑ f, X b t f * W) (Ideal.ofBits .f32 0x47800000#32)

/-- Two passes: the mean squared deviation of the weighted entries. -/
def rVar (X : Fin 2 → Fin 256 → Fin 128 → EReal) (W : EReal) : EReal :=
  Ideal.div (0 + ∑ b, ∑ t, ∑ f, (X b t f * W - rMu X W) * (X b t f * W - rMu X W)) (Ideal.ofBits .f32 0x47800000#32)

/-- Two passes: normalize, then gain and offset. -/
def ref (X : Fin 2 → Fin 256 → Fin 128 → EReal) (W G B : EReal) (x : EReal) : EReal :=
  ((x * W - rMu X W) * Ideal.rsqrt (rVar X W + Ideal.ofBits .f32 0x3727C5AC#32)) * G + B

/-! ## Words, sums and quotients of real numbers -/

/-- The single-precision word 0x47800000 (exponent 143, fraction 0) is 2¹⁶ = 65536. -/
theorem ofBits_N : Ideal.ofBits .f32 0x47800000#32 = ((65536 : ℝ) : EReal) := by
  simp [Ideal.ofBits, Ideal.ieee, -EReal.coe_mul]; norm_num

/-- The inclusion of the reals in the extended reals commutes with a finite sum. -/
theorem coe_sum {ι : Type*} (s : Finset ι) (z : ι → ℝ) :
    (∑ i ∈ s, (z i : EReal)) = ((∑ i ∈ s, z i : ℝ) : EReal) := by
  classical
  induction s using Finset.induction_on with
  | empty => simp
  | insert a s ha ih => rw [Finset.sum_insert ha, Finset.sum_insert ha, ih, EReal.coe_add]

/-- The same for the triple sum over batch, frame and frequency. -/
theorem coe_sum3 (z : Fin 2 → Fin 256 → Fin 128 → ℝ) :
    (∑ b : Fin 2, ∑ t : Fin 256, ∑ f : Fin 128, ((z b t f : ℝ) : EReal))
      = ((∑ b, ∑ t, ∑ f, z b t f : ℝ) : EReal) := by
  simp only [coe_sum]

/-- A real number over the word of 65536 is the real quotient. -/
theorem div_N_coe (a : ℝ) :
    Ideal.div (a : EReal) (Ideal.ofBits .f32 0x47800000#32) = ((a / 65536 : ℝ) : EReal) := by
  rw [ofBits_N, Ideal.div_coe (by norm_num), ← EReal.coe_mul, mul_one_div]

/-- The reciprocal square root of a positive real number is the real 1/√·. -/
theorem rsqrt_pos_coe (r : ℝ) (hr : 0 < r) : Ideal.rsqrt (r : EReal) = (((Real.sqrt r)⁻¹ : ℝ) : EReal) := by
  rw [Ideal.rsqrt_coe, if_neg (not_lt.2 hr.le), if_neg hr.ne']

/-! ## The statistics over the reals -/

/-- The real mean of the entries. -/
def meanR (xr : Fin 2 → Fin 256 → Fin 128 → ℝ) : ℝ := (∑ b, ∑ t, ∑ f, xr b t f) / 65536

/-- The real variance of the entries, mean of squares minus squared mean. -/
def varR (xr : Fin 2 → Fin 256 → Fin 128 → ℝ) : ℝ :=
  (∑ b, ∑ t, ∑ f, xr b t f * xr b t f) / 65536 - meanR xr * meanR xr

/-- Over any finite index type of n ≠ 0 elements: the mean squared deviation of x·w from its mean is w² times
    (mean of x² minus squared mean of x).  Expand the square, sum the three terms, and use that the sum of x·w is
    μ·n. -/
theorem two_pass_var {P : Type} [Fintype P] (n : ℝ) (hc : (Fintype.card P : ℝ) = n) (hn : n ≠ 0) (x : P → ℝ) (w : ℝ) :
    (∑ p, (x p * w - (∑ q, x q * w) / n) * (x p * w - (∑ q, x q * w) / n)) / n
      = w * w * ((∑ p, x p * x p) / n - ((∑ p, x p) / n) * ((∑ p, x p) / n)) := by
  have hA : (∑ q, x q * w) = (∑ q, x q) * w := (Finset.sum_mul _ _ _).symm
  rw [hA]
  set A := ∑ q, x q with hAdef
  have hp : ∀ p, (x p * w - A * w / n) * (x p * w - A * w / n)
      = (x p * x p) * (w * w) - (2 * (A * w / n) * w) * x p + (A * w / n) * (A * w / n) := fun p => by ring
  rw [Finset.sum_congr rfl (fun p _ => hp p), Finset.sum_add_distrib, Finset.sum_sub_distrib, ← Finset.sum_mul,
    ← Finset.mul_sum, Finset.sum_const, Finset.card_univ, nsmul_eq_mul, hc, ← hAdef]
  field_simp
  ring

/-- The index type of one channel has 65536 elements. -/
theorem card_idx : (Fintype.card (Fin 2 × Fin 256 × Fin 128) : ℝ) = 65536 := by
  simp [Fintype.card_prod]

/-- The weighted entries' mean is w times the entries' mean. -/
theorem mu_eq (xr : Fin 2 → Fin 256 → Fin 128 → ℝ) (w : ℝ) :
    (∑ b, ∑ t, ∑ f, xr b t f * w) / 65536 = w * meanR xr := by
  simp only [meanR, ← Finset.sum_mul]
  ring

/-- The weighted entries' mean squared deviation is w² times the entries' variance. -/
theorem v_eq (xr : Fin 2 → Fin 256 → Fin 128 → ℝ) (w : ℝ) :
    (∑ b, ∑ t, ∑ f, (xr b t f * w - w * meanR xr) * (xr b t f * w - w * meanR xr)) / 65536 = w * w * varR xr := by
  have h := two_pass_var (P := Fin 2 × Fin 256 × Fin 128) 65536 card_idx (by norm_num)
    (fun p => xr p.1 p.2.1 p.2.2) w
  simp only [Fintype.sum_prod_type] at h
  rw [mu_eq] at h
  exact h

/-- w² times the variance is a mean of squares, so it is not negative. -/
theorem wwvar_nonneg (xr : Fin 2 → Fin 256 → Fin 128 → ℝ) (w : ℝ) : 0 ≤ w * w * varR xr := by
  rw [← v_eq]
  exact div_nonneg
    (Finset.sum_nonneg fun _ _ => Finset.sum_nonneg fun _ _ => Finset.sum_nonneg fun _ _ => mul_self_nonneg _)
    (by norm_num)

/-! ## The two programs' statistics at real entries -/

section AtReals
variable (xr : Fin 2 → Fin 256 → Fin 128 → ℝ) (w : ℝ)

theorem kMean_coe : kMean (fun b t f => ((xr b t f : ℝ) : EReal)) = ((meanR xr : ℝ) : EReal) := by
  simp only [kMean, kSum, meanR]
  rw [coe_sum3, div_N_coe]

theorem kVar_coe : kVar (fun b t f => ((xr b t f : ℝ) : EReal)) = ((varR xr : ℝ) : EReal) := by
  simp only [kVar, kSq, kMean_coe, varR, ← EReal.coe_mul]
  rw [coe_sum3 (fun b t f => xr b t f * xr b t f), div_N_coe, ← EReal.coe_sub]

theorem rMu_coe : rMu (fun b t f => ((xr b t f : ℝ) : EReal)) (w : EReal) = ((w * meanR xr : ℝ) : EReal) := by
  simp only [rMu, ← EReal.coe_mul, zero_add]
  rw [coe_sum3 (fun b t f => xr b t f * w), div_N_coe, mu_eq]

theorem rVar_coe : rVar (fun b t f => ((xr b t f : ℝ) : EReal)) (w : EReal) = ((w * w * varR xr : ℝ) : EReal) := by
  simp only [rVar, rMu_coe, ← EReal.coe_mul, ← EReal.coe_sub, zero_add]
  rw [coe_sum3 (fun b t f => (xr b t f * w - w * meanR xr) * (xr b t f * w - w * meanR xr)), div_N_coe, v_eq]

end AtReals

/-! ## The law -/

/-- The law at real entries, weight, gain and offset, and at any real argument. -/
theorem law_coe (xr : Fin 2 → Fin 256 → Fin 128 → ℝ) (w g β x : ℝ) :
    kern (fun b t f => ((xr b t f : ℝ) : EReal)) (w : EReal) (g : EReal) (β : EReal) (x : EReal)
      = ref (fun b t f => ((xr b t f : ℝ) : EReal)) (w : EReal) (g : EReal) (β : EReal) (x : EReal) := by
  obtain ⟨ε, hε, hE⟩ := Cert.GcnReal.ofBits_eps_pos
  have hr : 0 < w * w * varR xr + ε := add_pos_of_nonneg_of_pos (wwvar_nonneg xr w) hε
  have hk : kInv (fun b t f => ((xr b t f : ℝ) : EReal)) (w : EReal)
      = (((Real.sqrt (w * w * varR xr + ε))⁻¹ : ℝ) : EReal) := by
    rw [kInv, kVar_coe, hE, ← EReal.coe_mul, ← EReal.coe_mul, ← EReal.coe_add, rsqrt_pos_coe _ hr]
  have hv : Ideal.rsqrt (rVar (fun b t f => ((xr b t f : ℝ) : EReal)) (w : EReal) + Ideal.ofBits .f32 0x3727C5AC#32)
      = (((Real.sqrt (w * w * varR xr + ε))⁻¹ : ℝ) : EReal) := by
    rw [rVar_coe, hE, ← EReal.coe_add, rsqrt_pos_coe _ hr]
  rw [kern, ref, hk, hv, kMean_coe, rMu_coe]
  simp only [← EReal.coe_neg, ← EReal.coe_mul, ← EReal.coe_sub, ← EReal.coe_add]
  exact congrArg _ (by ring)

/-- The law for extended reals known entrywise to be real numbers, at an entry. -/
theorem law_of_real (X : Fin 2 → Fin 256 → Fin 128 → EReal) (W G B : EReal)
    (hX : ∀ b t f, ∃ r : ℝ, X b t f = (r : EReal)) (hW : ∃ r : ℝ, W = r) (hG : ∃ r : ℝ, G = r) (hB : ∃ r : ℝ, B = r)
    (b0 : Fin 2) (t0 : Fin 256) (f0 : Fin 128) :
    kern X W G B (X b0 t0 f0) = ref X W G B (X b0 t0 f0) := by
  choose xr hxr using hX
  obtain ⟨w, rfl⟩ := hW; obtain ⟨g, rfl⟩ := hG; obtain ⟨β, rfl⟩ := hB
  have hXe : X = fun b t f => ((xr b t f : ℝ) : EReal) := by funext b t f; exact hxr b t f
  rw [hXe]
  exact law_coe xr w g β (xr b0 t0 f0)

/-- The law at any argument that is a real number (not only at an entry). -/
theorem law_of_real_at (X : Fin 2 → Fin 256 → Fin 128 → EReal) (W G B x : EReal)
    (hX : ∀ b t f, ∃ r : ℝ, X b t f = (r : EReal)) (hW : ∃ r : ℝ, W = r) (hG : ∃ r : ℝ, G = r) (hB : ∃ r : ℝ, B = r)
    (hx : ∃ r : ℝ, x = r) :
    kern X W G B x = ref X W G B x := by
  choose xr hxr using hX
  obtain ⟨w, rfl⟩ := hW; obtain ⟨g, rfl⟩ := hG; obtain ⟨β, rfl⟩ := hB; obtain ⟨x, rfl⟩ := hx
  have hXe : X = fun b t f => ((xr b t f : ℝ) : EReal) := by funext b t f; exact hxr b t f
  rw [hXe]
  exact law_coe xr w g β x

/-- The rectified law: the maximum with zero of both sides. -/
theorem relu_law_of_real (X : Fin 2 → Fin 256 → Fin 128 → EReal) (W G B : EReal)
    (hX : ∀ b t f, ∃ r : ℝ, X b t f = (r : EReal)) (hW : ∃ r : ℝ, W = r) (hG : ∃ r : ℝ, G = r) (hB : ∃ r : ℝ, B = r)
    (b0 : Fin 2) (t0 : Fin 256) (f0 : Fin 128) :
    max (kern X W G B (X b0 t0 f0)) 0 = max (ref X W G B (X b0 t0 f0)) 0 :=
  congrArg (fun z => max z 0) (law_of_real X W G B hX hW hG hB b0 t0 f0)

end Cert.ChannelLaw
-- ==== Proof.BridgeKernel.lean ====
/-
  The kernel's batch-normalized value at an entry, in the channel law's folded form.

  At entry (b, c, t, f) the second region computes x · scale(c) + shift(c).  With the accumulated arrays read as the
  channel's sums (the statistics region's result), scale(c) and shift(c) are the scalar expressions of the channel's
  weight, gain, offset and of the sums of the channel's audio entries and of their squares: the one-pass, folded form
  `ChannelLaw.kern`.
-/
import proofs.«118657_j45303315038549_1_alg».proof.Proof.KernelFoldRead
import proofs.«118657_j45303315038549_1_alg».proof.Proof.ChannelLaw

set_option maxRecDepth 16384

noncomputable section

namespace Cert.KernelIdeal.Fold

open Idealize.ShloMosaic Idealize.ShloMosaic.TcCoe Idealize.ShloMosaic.ValueIdx
open Cert.KernelIdeal Cert.KernelIdeal.Gen

/-- x · scale + shift at an entry is the folded form of the channel law, at the channel's entries. -/
theorem folded_eq_kern (x : FVec Ideal S2x512x256x128 .f32) (w γ β : FVec Ideal S512 .f32) (S Q : FVec Ideal S1x512 .f32)
    (hS : ∀ q : Fin 512, S (ix2 (0 : Fin 1) q) = ∑ b : Fin 2, ∑ t : Fin 256, ∑ f : Fin 128, x (ix4 b q t f))
    (hQ : ∀ q : Fin 512, Q (ix2 (0 : Fin 1) q) = ∑ b : Fin 2, ∑ t : Fin 256, ∑ f : Fin 128, x (ix4 b q t f) * x (ix4 b q t f))
    (b : Fin 2) (c : Fin 512) (t : Fin 256) (f : Fin 128) :
    x (ix4 b c t f) * scaleOf w γ S Q (ix4 (0 : Fin 1) c (0 : Fin 1) (0 : Fin 1))
        + shiftOf w γ β S Q (ix4 (0 : Fin 1) c (0 : Fin 1) (0 : Fin 1))
      = Cert.ChannelLaw.kern (fun b' t' f' => x (ix4 b' c t' f')) (w (ix1 c)) (γ (ix1 c)) (β (ix1 c)) (x (ix4 b c t f)) := by
  simp only [scaleOf_apply, shiftOf_apply, invStd_apply, chanVar_apply, chanMean_apply, hS, hQ]
  rfl

end Cert.KernelIdeal.Fold

end
-- ==== Proof.RefOps.lean ====
/-
  The reference program's run, written out as one line of host operations.

  The program calls three outlined functions: the variance of a rank-4 array per channel and of a rank-3 array per
  batch entry (each of which calls the guarded select), and the maximum with zero. A call means the callee's body
  on the operands, each value of the body in a buffer of the call's own. So the whole program is a straight line of
  250 operations: the callee's operations listed at each call site over that call's buffers, between the caller's own.
  The line is cut into stretches by what they compute; it is the stretches joined. From a memory with zero counters
  every weakly fair execution terminates, and each buffer ends at the fold of the operations' results over the launch
  contents.
-/
import proofs.«118657_j45303315038549_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- Statements %0–%c: the value weight broadcast over the audio array, the product x·w, its sum over batch, time and frequency per channel, and that sum divided by 65536 (the mean). -/
abbrev a0 : List (HloOp τ sig (Elt F)) :=
  [ StableHlo.unary main_arg2 main_v0 (broadcastInDim S1x512x1x1 ![1] bcast_S512_S1x512x1x1_1 : (⟨S512, .f32⟩ : BufTy).Contents (Elt F) → (⟨S1x512x1x1, .f32⟩ : BufTy).Contents (Elt F)),
    StableHlo.unary main_v0 main_v1 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_arg0 main_v1 main_v2 (mulf : (⟨S2x512x256x128, .f32⟩ : BufTy).Contents (Elt F) → (⟨S2x512x256x128, .f32⟩ : BufTy).Contents (Elt F) → (⟨S2x512x256x128, .f32⟩ : BufTy).Contents (Elt F)),
    StableHlo.nullary main_cst (constant S_ .f32 0x00000000#32),
    StableHlo.binary main_v2 main_cst main_v3 ((fun x v => Host.reduceAdd x v reducesTo_S2x512x256x128_S512_d0_2_3 h_S_) : (⟨S2x512x256x128, .f32⟩ : BufTy).Contents (Elt F) → (⟨S_, .f32⟩ : BufTy).Contents (Elt F) → (⟨S512, .f32⟩ : BufTy).Contents (Elt F)),
    StableHlo.unary main_v3 main_v4 (broadcastInDim S1x512x1x1 ![1] bcast_S512_S1x512x1x1_1 : (⟨S512, .f32⟩ : BufTy).Contents (Elt F) → (⟨S1x512x1x1, .f32⟩ : BufTy).Contents (Elt F)),
    StableHlo.nullary main_cst_0 (constant S_ .f32 0x47800000#32),
    StableHlo.unary main_cst_0 main_v5 (broadcastInDim S1x512x1x1 ![] bcast_S_S1x512x1x1 : (⟨S_, .f32⟩ : BufTy).Contents (Elt F) → (⟨S1x512x1x1, .f32⟩ : BufTy).Contents (Elt F)),
    StableHlo.binary main_v4 main_v5 main_v6 (Host.divf : (⟨S1x512x1x1, .f32⟩ : BufTy).Contents (Elt F) → (⟨S1x512x1x1, .f32⟩ : BufTy).Contents (Elt F) → (⟨S1x512x1x1, .f32⟩ : BufTy).Contents (Elt F)),
    StableHlo.nullary main_c (constantI S_ 32 0#32) ]

/-- Statement %7, the variance of x·w per channel: the mean again, the deviations squared and summed, divided by 65536 − 0, and the guard selecting that quotient when 65536 − 0 > 0. -/
abbrev a1 : List (HloOp τ sig (Elt F)) :=
  [ StableHlo.TRef.nullary main_call0.cst (constant S_ .f32 0x00000000#32),
    StableHlo.TRef.binary (.of main_v2) main_call0.cst main_call0.v0 (fun x v => Host.reduceAdd x v reducesTo_S2x512x256x128_S512_d0_2_3 h_S_),
    StableHlo.TRef.unary main_call0.v0 main_call0.v1 (broadcastInDim S1x512x1x1 ![1] bcast_S512_S1x512x1x1_1),
    StableHlo.TRef.nullary main_call0.cst_0 (constant S_ .f32 0x47800000#32),
    StableHlo.TRef.unary main_call0.cst_0 main_call0.v2 (broadcastInDim S1x512x1x1 ![] bcast_S_S1x512x1x1),
    StableHlo.TRef.binary main_call0.v1 main_call0.v2 main_call0.v3 Host.divf,
    StableHlo.TRef.unary main_call0.v3 main_call0.v4 (broadcastInDim S2x512x256x128 ![0, 1, 2, 3] bcast_S1x512x1x1_S2x512x256x128_0_1_2_3),
    StableHlo.TRef.binary (.of main_v2) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2x512x256x128_S512_d0_2_3 h_S_),
    StableHlo.TRef.unary main_call0.v9 main_call0.v10 (broadcastInDim S1x512x1x1 ![1] bcast_S512_S1x512x1x1_1),
    StableHlo.TRef.unary main_call0.v8 main_call0.v11 (broadcastInDim S1x512x1x1 ![] bcast_S_S1x512x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x512x1x1 ![] bcast_S_S1x512x1x1),
    StableHlo.TRef.ternary main_call0.v13 main_call0.v12 main_call0.call0.v1 main_call0.call0.v2 (fun p a b => select (broadcastInDim S1x512x1x1 ![] bcast_S_S1x512x1x1 p) a b) ]

/-- Statements %8–%20: the deviation from the mean times the reciprocal square root of variance plus 1e-5, scaled by γ and shifted by β (the value branch normalised). -/
abbrev a2 : List (HloOp τ sig (Elt F)) :=
  [ StableHlo.unary main_v6 main_v8 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_v2 main_v8 main_v9 (subf : (⟨S2x512x256x128, .f32⟩ : BufTy).Contents (Elt F) → (⟨S2x512x256x128, .f32⟩ : BufTy).Contents (Elt F) → (⟨S2x512x256x128, .f32⟩ : BufTy).Contents (Elt F)),
    StableHlo.nullary main_cst_1 (constant S_ .f32 0x3727C5AC#32),
    StableHlo.unary main_cst_1 main_v10 (broadcastInDim S1x512x1x1 ![] bcast_S_S1x512x1x1 : (⟨S_, .f32⟩ : BufTy).Contents (Elt F) → (⟨S1x512x1x1, .f32⟩ : BufTy).Contents (Elt F)),
    StableHlo.binary main_v7 main_v10 main_v11 (addf : (⟨S1x512x1x1, .f32⟩ : BufTy).Contents (Elt F) → (⟨S1x512x1x1, .f32⟩ : BufTy).Contents (Elt F) → (⟨S1x512x1x1, .f32⟩ : BufTy).Contents (Elt F)),
    StableHlo.unary main_v11 main_v12 (Host.rsqrt : (⟨S1x512x1x1, .f32⟩ : BufTy).Contents (Elt F) → (⟨S1x512x1x1, .f32⟩ : BufTy).Contents (Elt F)),
    StableHlo.unary main_v12 main_v13 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_v9 main_v13 main_v14 (mulf : (⟨S2x512x256x128, .f32⟩ : BufTy).Contents (Elt F) → (⟨S2x512x256x128, .f32⟩ : BufTy).Contents (Elt F) → (⟨S2x512x256x128, .f32⟩ : BufTy).Contents (Elt F)),
    StableHlo.unary main_arg3 main_v15 (broadcastInDim S1x512x1x1 ![1] bcast_S512_S1x512x1x1_1 : (⟨S512, .f32⟩ : BufTy).Contents (Elt F) → (⟨S1x512x1x1, .f32⟩ : BufTy).Contents (Elt F)),
    StableHlo.unary main_v15 main_v16 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_v14 main_v16 main_v17 (mulf : (⟨S2x512x256x128, .f32⟩ : BufTy).Contents (Elt F) → (⟨S2x512x256x128, .f32⟩ : BufTy).Contents (Elt F) → (⟨S2x512x256x128, .f32⟩ : BufTy).Contents (Elt F)),
    StableHlo.unary main_arg4 main_v18 (broadcastInDim S1x512x1x1 ![1] bcast_S512_S1x512x1x1_1 : (⟨S512, .f32⟩ : BufTy).Contents (Elt F) → (⟨S1x512x1x1, .f32⟩ : BufTy).Contents (Elt F)),
    StableHlo.unary main_v18 main_v19 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_v17 main_v19 main_v20 (addf : (⟨S2x512x256x128, .f32⟩ : BufTy).Contents (Elt F) → (⟨S2x512x256x128, .f32⟩ : BufTy).Contents (Elt F) → (⟨S2x512x256x128, .f32⟩ : BufTy).Contents (Elt F)) ]

/-- Statements %21–%c_4: the video embedding times the attention weight plus its bias, summed per batch entry and divided by 32768. -/
abbrev a3 : List (HloOp τ sig (Elt F)) :=
  [ StableHlo.unary main_arg8 main_v21 (broadcastInDim S1x512x1 ![1] bcast_S512_S1x512x1_1 : (⟨S512, .f32⟩ : BufTy).Contents (Elt F) → (⟨S1x512x1, .f32⟩ : BufTy).Contents (Elt F)),
    StableHlo.unary main_v21 main_v22 (broadcastInDim S2x512x64 ![0, 1, 2] bcast_S1x512x1_S2x512x64_0_1_2 : (⟨S1x512x1, .f32⟩ : BufTy).Contents (Elt F) → (⟨S2x512x64, .f32⟩ : BufTy).Contents (Elt F)),
    StableHlo.binary main_arg1 main_v22 main_v23 (mulf : (⟨S2x512x64, .f32⟩ : BufTy).Contents (Elt F) → (⟨S2x512x64, .f32⟩ : BufTy).Contents (Elt F) → (⟨S2x512x64, .f32⟩ : BufTy).Contents (Elt F)),
    StableHlo.unary main_arg9 main_v24 (broadcastInDim S1x512x1 ![1] bcast_S512_S1x512x1_1 : (⟨S512, .f32⟩ : BufTy).Contents (Elt F) → (⟨S1x512x1, .f32⟩ : BufTy).Contents (Elt F)),
    StableHlo.unary main_v24 main_v25 (broadcastInDim S2x512x64 ![0, 1, 2] bcast_S1x512x1_S2x512x64_0_1_2 : (⟨S1x512x1, .f32⟩ : BufTy).Contents (Elt F) → (⟨S2x512x64, .f32⟩ : BufTy).Contents (Elt F)),
    StableHlo.binary main_v23 main_v25 main_v26 (addf : (⟨S2x512x64, .f32⟩ : BufTy).Contents (Elt F) → (⟨S2x512x64, .f32⟩ : BufTy).Contents (Elt F) → (⟨S2x512x64, .f32⟩ : BufTy).Contents (Elt F)),
    StableHlo.nullary main_cst_2 (constant S_ .f32 0x00000000#32),
    StableHlo.binary main_v26 main_cst_2 main_v27 ((fun x v => Host.reduceAdd x v reducesTo_S2x512x64_S2_d1_2 h_S_) : (⟨S2x512x64, .f32⟩ : BufTy).Contents (Elt F) → (⟨S_, .f32⟩ : BufTy).Contents (Elt F) → (⟨S2, .f32⟩ : BufTy).Contents (Elt F)),
    StableHlo.unary main_v27 main_v28 (broadcastInDim S2x1x1 ![0] bcast_S2_S2x1x1_0 : (⟨S2, .f32⟩ : BufTy).Contents (Elt F) → (⟨S2x1x1, .f32⟩ : BufTy).Contents (Elt F)),
    StableHlo.nullary main_cst_3 (constant S_ .f32 0x47000000#32),
    StableHlo.unary main_cst_3 main_v29 (broadcastInDim S2x1x1 ![] bcast_S_S2x1x1 : (⟨S_, .f32⟩ : BufTy).Contents (Elt F) → (⟨S2x1x1, .f32⟩ : BufTy).Contents (Elt F)),
    StableHlo.binary main_v28 main_v29 main_v30 (Host.divf : (⟨S2x1x1, .f32⟩ : BufTy).Contents (Elt F) → (⟨S2x1x1, .f32⟩ : BufTy).Contents (Elt F) → (⟨S2x1x1, .f32⟩ : BufTy).Contents (Elt F)),
    StableHlo.nullary main_c_4 (constantI S_ 32 0#32) ]

/-- Statement %31, the variance per batch entry of the attention pre-activation, through the same guard at 32768. -/
abbrev a4 : List (HloOp τ sig (Elt F)) :=
  [ StableHlo.TRef.nullary main_call1.cst (constant S_ .f32 0x00000000#32),
    StableHlo.TRef.binary (.of main_v26) main_call1.cst main_call1.v0 (fun x v => Host.reduceAdd x v reducesTo_S2x512x64_S2_d1_2 h_S_),
    StableHlo.TRef.unary main_call1.v0 main_call1.v1 (broadcastInDim S2x1x1 ![0] bcast_S2_S2x1x1_0),
    StableHlo.TRef.nullary main_call1.cst_0 (constant S_ .f32 0x47000000#32),
    StableHlo.TRef.unary main_call1.cst_0 main_call1.v2 (broadcastInDim S2x1x1 ![] bcast_S_S2x1x1),
    StableHlo.TRef.binary main_call1.v1 main_call1.v2 main_call1.v3 Host.divf,
    StableHlo.TRef.unary main_call1.v3 main_call1.v4 (broadcastInDim S2x512x64 ![0, 1, 2] bcast_S2x1x1_S2x512x64_0_1_2),
    StableHlo.TRef.binary (.of main_v26) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x47000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S2x512x64_S2_d1_2 h_S_),
    StableHlo.TRef.unary main_call1.v9 main_call1.v10 (broadcastInDim S2x1x1 ![0] bcast_S2_S2x1x1_0),
    StableHlo.TRef.unary main_call1.v8 main_call1.v11 (broadcastInDim S2x1x1 ![] bcast_S_S2x1x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S2x1x1 ![] bcast_S_S2x1x1),
    StableHlo.TRef.ternary main_call1.v13 main_call1.v12 main_call1.call0.v1 main_call1.call0.v2 (fun p a b => select (broadcastInDim S2x1x1 ![] bcast_S_S2x1x1 p) a b) ]

/-- Statements %32–%44: the attention pre-activation normalised per batch entry, scaled and shifted per channel. -/
abbrev a5 : List (HloOp τ sig (Elt F)) :=
  [ StableHlo.unary main_v30 main_v32 (broadcastInDim S2x512x64 ![0, 1, 2] bcast_S2x1x1_S2x512x64_0_1_2 : (⟨S2x1x1, .f32⟩ : BufTy).Contents (Elt F) → (⟨S2x512x64, .f32⟩ : BufTy).Contents (Elt F)),
    StableHlo.binary main_v26 main_v32 main_v33 (subf : (⟨S2x512x64, .f32⟩ : BufTy).Contents (Elt F) → (⟨S2x512x64, .f32⟩ : BufTy).Contents (Elt F) → (⟨S2x512x64, .f32⟩ : BufTy).Contents (Elt F)),
    StableHlo.nullary main_cst_5 (constant S_ .f32 0x3727C5AC#32),
    StableHlo.unary main_cst_5 main_v34 (broadcastInDim S2x1x1 ![] bcast_S_S2x1x1 : (⟨S_, .f32⟩ : BufTy).Contents (Elt F) → (⟨S2x1x1, .f32⟩ : BufTy).Contents (Elt F)),
    StableHlo.binary main_v31 main_v34 main_v35 (addf : (⟨S2x1x1, .f32⟩ : BufTy).Contents (Elt F) → (⟨S2x1x1, .f32⟩ : BufTy).Contents (Elt F) → (⟨S2x1x1, .f32⟩ : BufTy).Contents (Elt F)),
    StableHlo.unary main_v35 main_v36 (Host.rsqrt : (⟨S2x1x1, .f32⟩ : BufTy).Contents (Elt F) → (⟨S2x1x1, .f32⟩ : BufTy).Contents (Elt F)),
    StableHlo.unary main_v36 main_v37 (broadcastInDim S2x512x64 ![0, 1, 2] bcast_S2x1x1_S2x512x64_0_1_2 : (⟨S2x1x1, .f32⟩ : BufTy).Contents (Elt F) → (⟨S2x512x64, .f32⟩ : BufTy).Contents (Elt F)),
    StableHlo.binary main_v33 main_v37 main_v38 (mulf : (⟨S2x512x64, .f32⟩ : BufTy).Contents (Elt F) → (⟨S2x512x64, .f32⟩ : BufTy).Contents (Elt F) → (⟨S2x512x64, .f32⟩ : BufTy).Contents (Elt F)),
    StableHlo.unary main_arg10 main_v39 (broadcastInDim S1x512x1 ![1] bcast_S512_S1x512x1_1 : (⟨S512, .f32⟩ : BufTy).Contents (Elt F) → (⟨S1x512x1, .f32⟩ : BufTy).Contents (Elt F)),
    StableHlo.unary main_v39 main_v40 (broadcastInDim S2x512x64 ![0, 1, 2] bcast_S1x512x1_S2x512x64_0_1_2 : (⟨S1x512x1, .f32⟩ : BufTy).Contents (Elt F) → (⟨S2x512x64, .f32⟩ : BufTy).Contents (Elt F)),
    StableHlo.binary main_v38 main_v40 main_v41 (mulf : (⟨S2x512x64, .f32⟩ : BufTy).Contents (Elt F) → (⟨S2x512x64, .f32⟩ : BufTy).Contents (Elt F) → (⟨S2x512x64, .f32⟩ : BufTy).Contents (Elt F)),
    StableHlo.unary main_arg11 main_v42 (broadcastInDim S1x512x1 ![1] bcast_S512_S1x512x1_1 : (⟨S512, .f32⟩ : BufTy).Contents (Elt F) → (⟨S1x512x1, .f32⟩ : BufTy).Contents (Elt F)),
    StableHlo.unary main_v42 main_v43 (broadcastInDim S2x512x64 ![0, 1, 2] bcast_S1x512x1_S2x512x64_0_1_2 : (⟨S1x512x1, .f32⟩ : BufTy).Contents (Elt F) → (⟨S2x512x64, .f32⟩ : BufTy).Contents (Elt F)),
    StableHlo.binary main_v41 main_v43 main_v44 (addf : (⟨S2x512x64, .f32⟩ : BufTy).Contents (Elt F) → (⟨S2x512x64, .f32⟩ : BufTy).Contents (Elt F) → (⟨S2x512x64, .f32⟩ : BufTy).Contents (Elt F)) ]

/-- Statements %cst_6–%49: the maximum over the last axis, broadcast back (the softmax's shift). -/
abbrev a6 : List (HloOp τ sig (Elt F)) :=
  [ StableHlo.nullary main_cst_6 (constant S_ .f32 0xFF800000#32),
    StableHlo.binary main_v44 main_cst_6 main_v45 ((fun x v => Host.reduce FloatOps.maximumf x v reducesTo_S2x512x64_S2x512_d2 h_S_) : (⟨S2x512x64, .f32⟩ : BufTy).Contents (Elt F) → (⟨S_, .f32⟩ : BufTy).Contents (Elt F) → (⟨S2x512, .f32⟩ : BufTy).Contents (Elt F)),
    StableHlo.nullary main_cst_7 (constant S_ .f32 0xFF800000#32),
    StableHlo.unary main_cst_7 main_v46 (broadcastInDim S2x512 ![] bcast_S_S2x512 : (⟨S_, .f32⟩ : BufTy).Contents (Elt F) → (⟨S2x512, .f32⟩ : BufTy).Contents (Elt F)),
    StableHlo.binary main_v46 main_v45 main_v47 (maximumf : (⟨S2x512, .f32⟩ : BufTy).Contents (Elt F) → (⟨S2x512, .f32⟩ : BufTy).Contents (Elt F) → (⟨S2x512, .f32⟩ : BufTy).Contents (Elt F)),
    StableHlo.unary main_v47 main_v48 (broadcastInDim S2x512x1 ![0, 1] bcast_S2x512_S2x512x1_0_1 : (⟨S2x512, .f32⟩ : BufTy).Contents (Elt F) → (⟨S2x512x1, .f32⟩ : BufTy).Contents (Elt F)),
    StableHlo.unary main_v48 main_v49 (broadcastInDim S2x512x64 ![0, 1, 2] bcast_S2x512x1_S2x512x64_0_1_2 : (⟨S2x512x1, .f32⟩ : BufTy).Contents (Elt F) → (⟨S2x512x64, .f32⟩ : BufTy).Contents (Elt F)) ]

/-- Statements %50–%55: the exponential of the shifted values divided by its sum over the last axis (the softmax). -/
abbrev b0 : List (HloOp τ sig (Elt F)) :=
  [ StableHlo.binary main_v44 main_v49 main_v50 (subf : (⟨S2x512x64, .f32⟩ : BufTy).Contents (Elt F) → (⟨S2x512x64, .f32⟩ : BufTy).Contents (Elt F) → (⟨S2x512x64, .f32⟩ : BufTy).Contents (Elt F)),
    StableHlo.unary main_v50 main_v51 (Host.exp : (⟨S2x512x64, .f32⟩ : BufTy).Contents (Elt F) → (⟨S2x512x64, .f32⟩ : BufTy).Contents (Elt F)),
    StableHlo.nullary main_cst_8 (constant S_ .f32 0x00000000#32),
    StableHlo.binary main_v51 main_cst_8 main_v52 ((fun x v => Host.reduceAdd x v reducesTo_S2x512x64_S2x512_d2 h_S_) : (⟨S2x512x64, .f32⟩ : BufTy).Contents (Elt F) → (⟨S_, .f32⟩ : BufTy).Contents (Elt F) → (⟨S2x512, .f32⟩ : BufTy).Contents (Elt F)),
    StableHlo.unary main_v52 main_v53 (broadcastInDim S2x512x1 ![0, 1] bcast_S2x512_S2x512x1_0_1 : (⟨S2x512, .f32⟩ : BufTy).Contents (Elt F) → (⟨S2x512x1, .f32⟩ : BufTy).Contents (Elt F)),
    StableHlo.unary main_v53 main_v54 (broadcastInDim S2x512x64 ![0, 1, 2] bcast_S2x512x1_S2x512x64_0_1_2 : (⟨S2x512x1, .f32⟩ : BufTy).Contents (Elt F) → (⟨S2x512x64, .f32⟩ : BufTy).Contents (Elt F)),
    StableHlo.binary main_v51 main_v54 main_v55 (Host.divf : (⟨S2x512x64, .f32⟩ : BufTy).Contents (Elt F) → (⟨S2x512x64, .f32⟩ : BufTy).Contents (Elt F) → (⟨S2x512x64, .f32⟩ : BufTy).Contents (Elt F)) ]

/-- Statements %56–%67: the nearest-neighbour index table floor(i · 0.25) for i < 256, wrapped when negative, as a column. -/
abbrev b1 : List (HloOp τ sig (Elt F)) :=
  [ StableHlo.nullary main_v56 (iotaInDim S256 32 0),
    StableHlo.unary main_v56 main_v57 (sitofp .f32 : (⟨S256, .i32⟩ : BufTy).Contents (Elt F) → (⟨S256, .f32⟩ : BufTy).Contents (Elt F)),
    StableHlo.nullary main_cst_9 (constant S_ .f32 0x3E800000#32),
    StableHlo.unary main_cst_9 main_v58 (broadcastInDim S256 ![] bcast_S_S256 : (⟨S_, .f32⟩ : BufTy).Contents (Elt F) → (⟨S256, .f32⟩ : BufTy).Contents (Elt F)),
    StableHlo.binary main_v57 main_v58 main_v59 (mulf : (⟨S256, .f32⟩ : BufTy).Contents (Elt F) → (⟨S256, .f32⟩ : BufTy).Contents (Elt F) → (⟨S256, .f32⟩ : BufTy).Contents (Elt F)),
    StableHlo.unary main_v59 main_v60 (Host.floor : (⟨S256, .f32⟩ : BufTy).Contents (Elt F) → (⟨S256, .f32⟩ : BufTy).Contents (Elt F)),
    StableHlo.unary main_v60 main_v61 (fptosi 32 : (⟨S256, .f32⟩ : BufTy).Contents (Elt F) → (⟨S256, .i32⟩ : BufTy).Contents (Elt F)),
    StableHlo.nullary main_c_10 (constantI S_ 32 0#32),
    StableHlo.unary main_c_10 main_v62 (broadcastInDim S256 ![] bcast_S_S256 : (⟨S_, .i32⟩ : BufTy).Contents (Elt F) → (⟨S256, .i32⟩ : BufTy).Contents (Elt F)),
    StableHlo.binary main_v61 main_v62 main_v63 (cmpi .slt : (⟨S256, .i32⟩ : BufTy).Contents (Elt F) → (⟨S256, .i32⟩ : BufTy).Contents (Elt F) → (⟨S256, .i1⟩ : BufTy).Contents (Elt F)),
    StableHlo.nullary main_c_11 (constantI S_ 32 64#32),
    StableHlo.unary main_c_11 main_v64 (broadcastInDim S256 ![] bcast_S_S256 : (⟨S_, .i32⟩ : BufTy).Contents (Elt F) → (⟨S256, .i32⟩ : BufTy).Contents (Elt F)),
    StableHlo.binary main_v61 main_v64 main_v65 (addi : (⟨S256, .i32⟩ : BufTy).Contents (Elt F) → (⟨S256, .i32⟩ : BufTy).Contents (Elt F) → (⟨S256, .i32⟩ : BufTy).Contents (Elt F)),
    StableHlo.ternary main_v63 main_v65 main_v61 main_v66 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v66 main_v67 (broadcastInDim S256x1 ![0] bcast_S256_S256x1_0 : (⟨S256, .i32⟩ : BufTy).Contents (Elt F) → (⟨S256x1, .i32⟩ : BufTy).Contents (Elt F)) ]

/-- Statements %68–%71: the softmax gathered along time by that table, broadcast over frequency, times the normalised value branch. -/
abbrev b2 : List (HloOp τ sig (Elt F)) :=
  [ StableHlo.binary main_v55 main_v67 main_v68 ((fun x i => Host.gather gather_S2x512x64_S256x1_S2x512x256_01_2_n_n_2_1_25121 x i) : (⟨S2x512x64, .f32⟩ : BufTy).Contents (Elt F) → (⟨S256x1, .i32⟩ : BufTy).Contents (Elt F) → (⟨S2x512x256, .f32⟩ : BufTy).Contents (Elt F)),
    StableHlo.unary main_v68 main_v69 (broadcastInDim S2x512x256x1 ![0, 1, 2] bcast_S2x512x256_S2x512x256x1_0_1_2 : (⟨S2x512x256, .f32⟩ : BufTy).Contents (Elt F) → (⟨S2x512x256x1, .f32⟩ : BufTy).Contents (Elt F)),
    StableHlo.unary main_v69 main_v70 (broadcastInDim S2x512x256x128 ![0, 1, 2, 3] bcast_S2x512x256x1_S2x512x256x128_0_1_2_3 : (⟨S2x512x256x1, .f32⟩ : BufTy).Contents (Elt F) → (⟨S2x512x256x128, .f32⟩ : BufTy).Contents (Elt F)),
    StableHlo.binary main_v70 main_v20 main_v71 (mulf : (⟨S2x512x256x128, .f32⟩ : BufTy).Contents (Elt F) → (⟨S2x512x256x128, .f32⟩ : BufTy).Contents (Elt F) → (⟨S2x512x256x128, .f32⟩ : BufTy).Contents (Elt F)) ]

/-- Statements %72–%c_14: the video embedding times the residual weight plus its bias, summed per batch entry and divided by 32768. -/
abbrev b3 : List (HloOp τ sig (Elt F)) :=
  [ StableHlo.unary main_arg12 main_v72 (broadcastInDim S1x512x1 ![1] bcast_S512_S1x512x1_1 : (⟨S512, .f32⟩ : BufTy).Contents (Elt F) → (⟨S1x512x1, .f32⟩ : BufTy).Contents (Elt F)),
    StableHlo.unary main_v72 main_v73 (broadcastInDim S2x512x64 ![0, 1, 2] bcast_S1x512x1_S2x512x64_0_1_2 : (⟨S1x512x1, .f32⟩ : BufTy).Contents (Elt F) → (⟨S2x512x64, .f32⟩ : BufTy).Contents (Elt F)),
    StableHlo.binary main_arg1 main_v73 main_v74 (mulf : (⟨S2x512x64, .f32⟩ : BufTy).Contents (Elt F) → (⟨S2x512x64, .f32⟩ : BufTy).Contents (Elt F) → (⟨S2x512x64, .f32⟩ : BufTy).Contents (Elt F)),
    StableHlo.unary main_arg13 main_v75 (broadcastInDim S1x512x1 ![1] bcast_S512_S1x512x1_1 : (⟨S512, .f32⟩ : BufTy).Contents (Elt F) → (⟨S1x512x1, .f32⟩ : BufTy).Contents (Elt F)),
    StableHlo.unary main_v75 main_v76 (broadcastInDim S2x512x64 ![0, 1, 2] bcast_S1x512x1_S2x512x64_0_1_2 : (⟨S1x512x1, .f32⟩ : BufTy).Contents (Elt F) → (⟨S2x512x64, .f32⟩ : BufTy).Contents (Elt F)),
    StableHlo.binary main_v74 main_v76 main_v77 (addf : (⟨S2x512x64, .f32⟩ : BufTy).Contents (Elt F) → (⟨S2x512x64, .f32⟩ : BufTy).Contents (Elt F) → (⟨S2x512x64, .f32⟩ : BufTy).Contents (Elt F)),
    StableHlo.nullary main_cst_12 (constant S_ .f32 0x00000000#32),
    StableHlo.binary main_v77 main_cst_12 main_v78 ((fun x v => Host.reduceAdd x v reducesTo_S2x512x64_S2_d1_2 h_S_) : (⟨S2x512x64, .f32⟩ : BufTy).Contents (Elt F) → (⟨S_, .f32⟩ : BufTy).Contents (Elt F) → (⟨S2, .f32⟩ : BufTy).Contents (Elt F)),
    StableHlo.unary main_v78 main_v79 (broadcastInDim S2x1x1 ![0] bcast_S2_S2x1x1_0 : (⟨S2, .f32⟩ : BufTy).Contents (Elt F) → (⟨S2x1x1, .f32⟩ : BufTy).Contents (Elt F)),
    StableHlo.nullary main_cst_13 (constant S_ .f32 0x47000000#32),
    StableHlo.unary main_cst_13 main_v80 (broadcastInDim S2x1x1 ![] bcast_S_S2x1x1 : (⟨S_, .f32⟩ : BufTy).Contents (Elt F) → (⟨S2x1x1, .f32⟩ : BufTy).Contents (Elt F)),
    StableHlo.binary main_v79 main_v80 main_v81 (Host.divf : (⟨S2x1x1, .f32⟩ : BufTy).Contents (Elt F) → (⟨S2x1x1, .f32⟩ : BufTy).Contents (Elt F) → (⟨S2x1x1, .f32⟩ : BufTy).Contents (Elt F)),
    StableHlo.nullary main_c_14 (constantI S_ 32 0#32) ]

/-- Statement %82, the variance per batch entry of the residual pre-activation, through the guard at 32768. -/
abbrev b4 : List (HloOp τ sig (Elt F)) :=
  [ StableHlo.TRef.nullary main_call2.cst (constant S_ .f32 0x00000000#32),
    StableHlo.TRef.binary (.of main_v77) main_call2.cst main_call2.v0 (fun x v => Host.reduceAdd x v reducesTo_S2x512x64_S2_d1_2 h_S_),
    StableHlo.TRef.unary main_call2.v0 main_call2.v1 (broadcastInDim S2x1x1 ![0] bcast_S2_S2x1x1_0),
    StableHlo.TRef.nullary main_call2.cst_0 (constant S_ .f32 0x47000000#32),
    StableHlo.TRef.unary main_call2.cst_0 main_call2.v2 (broadcastInDim S2x1x1 ![] bcast_S_S2x1x1),
    StableHlo.TRef.binary main_call2.v1 main_call2.v2 main_call2.v3 Host.divf,
    StableHlo.TRef.unary main_call2.v3 main_call2.v4 (broadcastInDim S2x512x64 ![0, 1, 2] bcast_S2x1x1_S2x512x64_0_1_2),
    StableHlo.TRef.binary (.of main_v77) main_call2.v4 main_call2.v5 subf,
    StableHlo.TRef.binary main_call2.v5 main_call2.v5 main_call2.v6 mulf,
    StableHlo.TRef.unary (.of main_c_14) main_call2.v7 (sitofp .f32),
    StableHlo.TRef.nullary main_call2.cst_1 (constant S_ .f32 0x47000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2x512x64_S2_d1_2 h_S_),
    StableHlo.TRef.unary main_call2.v9 main_call2.v10 (broadcastInDim S2x1x1 ![0] bcast_S2_S2x1x1_0),
    StableHlo.TRef.unary main_call2.v8 main_call2.v11 (broadcastInDim S2x1x1 ![] bcast_S_S2x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S2x1x1 ![] bcast_S_S2x1x1),
    StableHlo.TRef.ternary main_call2.v13 main_call2.v12 main_call2.call0.v1 main_call2.call0.v2 (fun p a b => select (broadcastInDim S2x1x1 ![] bcast_S_S2x1x1 p) a b) ]

/-- Statements %83–%95: the residual pre-activation normalised per batch entry, scaled and shifted per channel. -/
abbrev b5 : List (HloOp τ sig (Elt F)) :=
  [ StableHlo.unary main_v81 main_v83 (broadcastInDim S2x512x64 ![0, 1, 2] bcast_S2x1x1_S2x512x64_0_1_2 : (⟨S2x1x1, .f32⟩ : BufTy).Contents (Elt F) → (⟨S2x512x64, .f32⟩ : BufTy).Contents (Elt F)),
    StableHlo.binary main_v77 main_v83 main_v84 (subf : (⟨S2x512x64, .f32⟩ : BufTy).Contents (Elt F) → (⟨S2x512x64, .f32⟩ : BufTy).Contents (Elt F) → (⟨S2x512x64, .f32⟩ : BufTy).Contents (Elt F)),
    StableHlo.nullary main_cst_15 (constant S_ .f32 0x3727C5AC#32),
    StableHlo.unary main_cst_15 main_v85 (broadcastInDim S2x1x1 ![] bcast_S_S2x1x1 : (⟨S_, .f32⟩ : BufTy).Contents (Elt F) → (⟨S2x1x1, .f32⟩ : BufTy).Contents (Elt F)),
    StableHlo.binary main_v82 main_v85 main_v86 (addf : (⟨S2x1x1, .f32⟩ : BufTy).Contents (Elt F) → (⟨S2x1x1, .f32⟩ : BufTy).Contents (Elt F) → (⟨S2x1x1, .f32⟩ : BufTy).Contents (Elt F)),
    StableHlo.unary main_v86 main_v87 (Host.rsqrt : (⟨S2x1x1, .f32⟩ : BufTy).Contents (Elt F) → (⟨S2x1x1, .f32⟩ : BufTy).Contents (Elt F)),
    StableHlo.unary main_v87 main_v88 (broadcastInDim S2x512x64 ![0, 1, 2] bcast_S2x1x1_S2x512x64_0_1_2 : (⟨S2x1x1, .f32⟩ : BufTy).Contents (Elt F) → (⟨S2x512x64, .f32⟩ : BufTy).Contents (Elt F)),
    StableHlo.binary main_v84 main_v88 main_v89 (mulf : (⟨S2x512x64, .f32⟩ : BufTy).Contents (Elt F) → (⟨S2x512x64, .f32⟩ : BufTy).Contents (Elt F) → (⟨S2x512x64, .f32⟩ : BufTy).Contents (Elt F)),
    StableHlo.unary main_arg14 main_v90 (broadcastInDim S1x512x1 ![1] bcast_S512_S1x512x1_1 : (⟨S512, .f32⟩ : BufTy).Contents (Elt F) → (⟨S1x512x1, .f32⟩ : BufTy).Contents (Elt F)),
    StableHlo.unary main_v90 main_v91 (broadcastInDim S2x512x64 ![0, 1, 2] bcast_S1x512x1_S2x512x64_0_1_2 : (⟨S1x512x1, .f32⟩ : BufTy).Contents (Elt F) → (⟨S2x512x64, .f32⟩ : BufTy).Contents (Elt F)),
    StableHlo.binary main_v89 main_v91 main_v92 (mulf : (⟨S2x512x64, .f32⟩ : BufTy).Contents (Elt F) → (⟨S2x512x64, .f32⟩ : BufTy).Contents (Elt F) → (⟨S2x512x64, .f32⟩ : BufTy).Contents (Elt F)),
    StableHlo.unary main_arg15 main_v93 (broadcastInDim S1x512x1 ![1] bcast_S512_S1x512x1_1 : (⟨S512, .f32⟩ : BufTy).Contents (Elt F) → (⟨S1x512x1, .f32⟩ : BufTy).Contents (Elt F)),
    StableHlo.unary main_v93 main_v94 (broadcastInDim S2x512x64 ![0, 1, 2] bcast_S1x512x1_S2x512x64_0_1_2 : (⟨S1x512x1, .f32⟩ : BufTy).Contents (Elt F) → (⟨S2x512x64, .f32⟩ : BufTy).Contents (Elt F)),
    StableHlo.binary main_v92 main_v94 main_v95 (addf : (⟨S2x512x64, .f32⟩ : BufTy).Contents (Elt F) → (⟨S2x512x64, .f32⟩ : BufTy).Contents (Elt F) → (⟨S2x512x64, .f32⟩ : BufTy).Contents (Elt F)) ]

/-- Statements %96–%100: the second index table's iota, conversion, product with 0.25 and floor. -/
abbrev b6 : List (HloOp τ sig (Elt F)) :=
  [ StableHlo.nullary main_v96 (iotaInDim S256 32 0),
    StableHlo.unary main_v96 main_v97 (sitofp .f32 : (⟨S256, .i32⟩ : BufTy).Contents (Elt F) → (⟨S256, .f32⟩ : BufTy).Contents (Elt F)),
    StableHlo.nullary main_cst_16 (constant S_ .f32 0x3E800000#32),
    StableHlo.unary main_cst_16 main_v98 (broadcastInDim S256 ![] bcast_S_S256 : (⟨S_, .f32⟩ : BufTy).Contents (Elt F) → (⟨S256, .f32⟩ : BufTy).Contents (Elt F)),
    StableHlo.binary main_v97 main_v98 main_v99 (mulf : (⟨S256, .f32⟩ : BufTy).Contents (Elt F) → (⟨S256, .f32⟩ : BufTy).Contents (Elt F) → (⟨S256, .f32⟩ : BufTy).Contents (Elt F)),
    StableHlo.unary main_v99 main_v100 (Host.floor : (⟨S256, .f32⟩ : BufTy).Contents (Elt F) → (⟨S256, .f32⟩ : BufTy).Contents (Elt F)) ]

/-- Statements %101–%107: the second index table converted to integers, wrapped when negative, as a column. -/
abbrev c0 : List (HloOp τ sig (Elt F)) :=
  [ StableHlo.unary main_v100 main_v101 (fptosi 32 : (⟨S256, .f32⟩ : BufTy).Contents (Elt F) → (⟨S256, .i32⟩ : BufTy).Contents (Elt F)),
    StableHlo.nullary main_c_17 (constantI S_ 32 0#32),
    StableHlo.unary main_c_17 main_v102 (broadcastInDim S256 ![] bcast_S_S256 : (⟨S_, .i32⟩ : BufTy).Contents (Elt F) → (⟨S256, .i32⟩ : BufTy).Contents (Elt F)),
    StableHlo.binary main_v101 main_v102 main_v103 (cmpi .slt : (⟨S256, .i32⟩ : BufTy).Contents (Elt F) → (⟨S256, .i32⟩ : BufTy).Contents (Elt F) → (⟨S256, .i1⟩ : BufTy).Contents (Elt F)),
    StableHlo.nullary main_c_18 (constantI S_ 32 64#32),
    StableHlo.unary main_c_18 main_v104 (broadcastInDim S256 ![] bcast_S_S256 : (⟨S_, .i32⟩ : BufTy).Contents (Elt F) → (⟨S256, .i32⟩ : BufTy).Contents (Elt F)),
    StableHlo.binary main_v101 main_v104 main_v105 (addi : (⟨S256, .i32⟩ : BufTy).Contents (Elt F) → (⟨S256, .i32⟩ : BufTy).Contents (Elt F) → (⟨S256, .i32⟩ : BufTy).Contents (Elt F)),
    StableHlo.ternary main_v103 main_v105 main_v101 main_v106 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v106 main_v107 (broadcastInDim S256x1 ![0] bcast_S256_S256x1_0 : (⟨S256, .i32⟩ : BufTy).Contents (Elt F) → (⟨S256x1, .i32⟩ : BufTy).Contents (Elt F)) ]

/-- Statements %108–%109: the residual branch gathered along time by that table, with a trailing unit axis. -/
abbrev c1 : List (HloOp τ sig (Elt F)) :=
  [ StableHlo.binary main_v95 main_v107 main_v108 ((fun x i => Host.gather gather_S2x512x64_S256x1_S2x512x256_01_2_n_n_2_1_25121 x i) : (⟨S2x512x64, .f32⟩ : BufTy).Contents (Elt F) → (⟨S256x1, .i32⟩ : BufTy).Contents (Elt F) → (⟨S2x512x256, .f32⟩ : BufTy).Contents (Elt F)),
    StableHlo.unary main_v108 main_v109 (broadcastInDim S2x512x256x1 ![0, 1, 2] bcast_S2x512x256_S2x512x256x1_0_1_2 : (⟨S2x512x256, .f32⟩ : BufTy).Contents (Elt F) → (⟨S2x512x256x1, .f32⟩ : BufTy).Contents (Elt F)) ]

/-- Statements %110–%c_21: the gate weight broadcast over the audio array, the product x·w, its per-channel sum and mean. -/
abbrev c2 : List (HloOp τ sig (Elt F)) :=
  [ StableHlo.unary main_arg5 main_v110 (broadcastInDim S1x512x1x1 ![1] bcast_S512_S1x512x1x1_1 : (⟨S512, .f32⟩ : BufTy).Contents (Elt F) → (⟨S1x512x1x1, .f32⟩ : BufTy).Contents (Elt F)),
    StableHlo.unary main_v110 main_v111 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_arg0 main_v111 main_v112 (mulf : (⟨S2x512x256x128, .f32⟩ : BufTy).Contents (Elt F) → (⟨S2x512x256x128, .f32⟩ : BufTy).Contents (Elt F) → (⟨S2x512x256x128, .f32⟩ : BufTy).Contents (Elt F)),
    StableHlo.nullary main_cst_19 (constant S_ .f32 0x00000000#32),
    StableHlo.binary main_v112 main_cst_19 main_v113 ((fun x v => Host.reduceAdd x v reducesTo_S2x512x256x128_S512_d0_2_3 h_S_) : (⟨S2x512x256x128, .f32⟩ : BufTy).Contents (Elt F) → (⟨S_, .f32⟩ : BufTy).Contents (Elt F) → (⟨S512, .f32⟩ : BufTy).Contents (Elt F)),
    StableHlo.unary main_v113 main_v114 (broadcastInDim S1x512x1x1 ![1] bcast_S512_S1x512x1x1_1 : (⟨S512, .f32⟩ : BufTy).Contents (Elt F) → (⟨S1x512x1x1, .f32⟩ : BufTy).Contents (Elt F)),
    StableHlo.nullary main_cst_20 (constant S_ .f32 0x47800000#32),
    StableHlo.unary main_cst_20 main_v115 (broadcastInDim S1x512x1x1 ![] bcast_S_S1x512x1x1 : (⟨S_, .f32⟩ : BufTy).Contents (Elt F) → (⟨S1x512x1x1, .f32⟩ : BufTy).Contents (Elt F)),
    StableHlo.binary main_v114 main_v115 main_v116 (Host.divf : (⟨S1x512x1x1, .f32⟩ : BufTy).Contents (Elt F) → (⟨S1x512x1x1, .f32⟩ : BufTy).Contents (Elt F) → (⟨S1x512x1x1, .f32⟩ : BufTy).Contents (Elt F)),
    StableHlo.nullary main_c_21 (constantI S_ 32 0#32) ]

/-- Statement %117, the variance of the gate's x·w per channel, through the guard at 65536. -/
abbrev c3 : List (HloOp τ sig (Elt F)) :=
  [ StableHlo.TRef.nullary main_call3.cst (constant S_ .f32 0x00000000#32),
    StableHlo.TRef.binary (.of main_v112) main_call3.cst main_call3.v0 (fun x v => Host.reduceAdd x v reducesTo_S2x512x256x128_S512_d0_2_3 h_S_),
    StableHlo.TRef.unary main_call3.v0 main_call3.v1 (broadcastInDim S1x512x1x1 ![1] bcast_S512_S1x512x1x1_1),
    StableHlo.TRef.nullary main_call3.cst_0 (constant S_ .f32 0x47800000#32),
    StableHlo.TRef.unary main_call3.cst_0 main_call3.v2 (broadcastInDim S1x512x1x1 ![] bcast_S_S1x512x1x1),
    StableHlo.TRef.binary main_call3.v1 main_call3.v2 main_call3.v3 Host.divf,
    StableHlo.TRef.unary main_call3.v3 main_call3.v4 (broadcastInDim S2x512x256x128 ![0, 1, 2, 3] bcast_S1x512x1x1_S2x512x256x128_0_1_2_3),
    StableHlo.TRef.binary (.of main_v112) main_call3.v4 main_call3.v5 subf,
    StableHlo.TRef.binary main_call3.v5 main_call3.v5 main_call3.v6 mulf,
    StableHlo.TRef.unary (.of main_c_21) main_call3.v7 (sitofp .f32),
    StableHlo.TRef.nullary main_call3.cst_1 (constant S_ .f32 0x47800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S2x512x256x128_S512_d0_2_3 h_S_),
    StableHlo.TRef.unary main_call3.v9 main_call3.v10 (broadcastInDim S1x512x1x1 ![1] bcast_S512_S1x512x1x1_1),
    StableHlo.TRef.unary main_call3.v8 main_call3.v11 (broadcastInDim S1x512x1x1 ![] bcast_S_S1x512x1x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1x512x1x1 ![] bcast_S_S1x512x1x1),
    StableHlo.TRef.ternary main_call3.v13 main_call3.v12 main_call3.call0.v1 main_call3.call0.v2 (fun p a b => select (broadcastInDim S1x512x1x1 ![] bcast_S_S1x512x1x1 p) a b) ]

/-- Statements %118–%130: the gate branch normalised, scaled by γ and shifted by β. -/
abbrev c4 : List (HloOp τ sig (Elt F)) :=
  [ StableHlo.unary main_v116 main_v118 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_v112 main_v118 main_v119 (subf : (⟨S2x512x256x128, .f32⟩ : BufTy).Contents (Elt F) → (⟨S2x512x256x128, .f32⟩ : BufTy).Contents (Elt F) → (⟨S2x512x256x128, .f32⟩ : BufTy).Contents (Elt F)),
    StableHlo.nullary main_cst_22 (constant S_ .f32 0x3727C5AC#32),
    StableHlo.unary main_cst_22 main_v120 (broadcastInDim S1x512x1x1 ![] bcast_S_S1x512x1x1 : (⟨S_, .f32⟩ : BufTy).Contents (Elt F) → (⟨S1x512x1x1, .f32⟩ : BufTy).Contents (Elt F)),
    StableHlo.binary main_v117 main_v120 main_v121 (addf : (⟨S1x512x1x1, .f32⟩ : BufTy).Contents (Elt F) → (⟨S1x512x1x1, .f32⟩ : BufTy).Contents (Elt F) → (⟨S1x512x1x1, .f32⟩ : BufTy).Contents (Elt F)),
    StableHlo.unary main_v121 main_v122 (Host.rsqrt : (⟨S1x512x1x1, .f32⟩ : BufTy).Contents (Elt F) → (⟨S1x512x1x1, .f32⟩ : BufTy).Contents (Elt F)),
    StableHlo.unary main_v122 main_v123 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_v119 main_v123 main_v124 (mulf : (⟨S2x512x256x128, .f32⟩ : BufTy).Contents (Elt F) → (⟨S2x512x256x128, .f32⟩ : BufTy).Contents (Elt F) → (⟨S2x512x256x128, .f32⟩ : BufTy).Contents (Elt F)),
    StableHlo.unary main_arg6 main_v125 (broadcastInDim S1x512x1x1 ![1] bcast_S512_S1x512x1x1_1 : (⟨S512, .f32⟩ : BufTy).Contents (Elt F) → (⟨S1x512x1x1, .f32⟩ : BufTy).Contents (Elt F)),
    StableHlo.unary main_v125 main_v126 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_v124 main_v126 main_v127 (mulf : (⟨S2x512x256x128, .f32⟩ : BufTy).Contents (Elt F) → (⟨S2x512x256x128, .f32⟩ : BufTy).Contents (Elt F) → (⟨S2x512x256x128, .f32⟩ : BufTy).Contents (Elt F)),
    StableHlo.unary main_arg7 main_v128 (broadcastInDim S1x512x1x1 ![1] bcast_S512_S1x512x1x1_1 : (⟨S512, .f32⟩ : BufTy).Contents (Elt F) → (⟨S1x512x1x1, .f32⟩ : BufTy).Contents (Elt F)),
    StableHlo.unary main_v128 main_v129 (broadcastInDim S2x512x256x128 ![0, 1, 2, 3] bcast_S1x512x1x1_S2x512x256x128_0_1_2_3 : (⟨S1x512x1x1, .f32⟩ : BufTy).Contents (Elt F) → (⟨S2x512x256x128, .f32⟩ : BufTy).Contents (Elt F)),
    StableHlo.binary main_v127 main_v129 main_v130 (addf : (⟨S2x512x256x128, .f32⟩ : BufTy).Contents (Elt F) → (⟨S2x512x256x128, .f32⟩ : BufTy).Contents (Elt F) → (⟨S2x512x256x128, .f32⟩ : BufTy).Contents (Elt F)) ]

/-- Statement %131: the maximum with zero. -/
abbrev c5 : List (HloOp τ sig (Elt F)) :=
  [ StableHlo.TRef.nullary main_call4.cst (constant S_ .f32 0x00000000#32),
    StableHlo.TRef.unary main_call4.cst main_call4.v0 (broadcastInDim S2x512x256x128 ![] bcast_S_S2x512x256x128),
    StableHlo.TRef.binary (.of main_v130) main_call4.v0 main_call4.v1 maximumf ]

/-- Statements %132–%134: the gathered residual broadcast over frequency, times the rectified gate, plus the attention product. -/
abbrev c6 : List (HloOp τ sig (Elt F)) :=
  [ StableHlo.unary main_v109 main_v132 (broadcastInDim S2x512x256x128 ![0, 1, 2, 3] bcast_S2x512x256x1_S2x512x256x128_0_1_2_3 : (⟨S2x512x256x1, .f32⟩ : BufTy).Contents (Elt F) → (⟨S2x512x256x128, .f32⟩ : BufTy).Contents (Elt F)),
    StableHlo.binary main_v131 main_v132 main_v133 (mulf : (⟨S2x512x256x128, .f32⟩ : BufTy).Contents (Elt F) → (⟨S2x512x256x128, .f32⟩ : BufTy).Contents (Elt F) → (⟨S2x512x256x128, .f32⟩ : BufTy).Contents (Elt F)),
    StableHlo.binary main_v71 main_v133 main_v134 (addf : (⟨S2x512x256x128, .f32⟩ : BufTy).Contents (Elt F) → (⟨S2x512x256x128, .f32⟩ : BufTy).Contents (Elt F) → (⟨S2x512x256x128, .f32⟩ : BufTy).Contents (Elt F)) ]

/-- The operations of statements 1 … 60, the calls unfolded. -/
abbrev ops0 : List (HloOp τ sig (Elt F)) :=
  a0 ++ (a1 ++ (a2 ++ (a3 ++ (a4 ++ (a5 ++ (a6))))))

/-- The operations of statements 61 … 120, the calls unfolded. -/
abbrev ops1 : List (HloOp τ sig (Elt F)) :=
  b0 ++ (b1 ++ (b2 ++ (b3 ++ (b4 ++ (b5 ++ (b6))))))

/-- The operations of statements 121 … 161, the calls unfolded. -/
abbrev ops2 : List (HloOp τ sig (Elt F)) :=
  c0 ++ (c1 ++ (c2 ++ (c3 ++ (c4 ++ (c5 ++ (c6))))))

/-- The whole line. -/
abbrev ops : List (HloOp τ sig (Elt F)) :=
  ops0 ++ (ops1 ++ ops2)

/-! ## The program is that line -/

set_option maxRecDepth 8192 in
set_option maxHeartbeats 4000000 in
/-- Statements 1 … 60: the outlined functions' definitions unfolded at their calls and the records at their
    fields, both sides are one chain of steps once sequencing is reassociated. -/
theorem part0_eq (c : Dev nD) : main_part0 (F := F) c = seq ops0 := by
  simp only [ops0, seq_append]
  simp only [main_part0, fn_var.body, fn_where.body, fn_var_0.body, fn_where_1.body, a0, a1, a2, a3, a4, a5, a6, seq, bind_assoc, pure_bind]
  rfl

set_option maxRecDepth 8192 in
set_option maxHeartbeats 4000000 in
/-- Statements 61 … 120: the outlined functions' definitions unfolded at their calls and the records at their
    fields, both sides are one chain of steps once sequencing is reassociated. -/
theorem part1_eq (c : Dev nD) : main_part1 (F := F) c = seq ops1 := by
  simp only [ops1, seq_append]
  simp only [main_part1, fn_var_0.body, fn_where_1.body, b0, b1, b2, b3, b4, b5, b6, seq, bind_assoc, pure_bind]
  rfl

set_option maxRecDepth 8192 in
set_option maxHeartbeats 4000000 in
/-- Statements 121 … 161: the outlined functions' definitions unfolded at their calls and the records at their
    fields, both sides are one chain of steps once sequencing is reassociated. -/
theorem part2_eq (c : Dev nD) : main_part2 (F := F) c = seq ops2 := by
  simp only [ops2, seq_append]
  simp only [main_part2, fn_var.body, fn_where.body, fn_relu.body, c0, c1, c2, c3, c4, c5, c6, seq, bind_assoc, pure_bind]

/-- @main runs the three windows in order, and a concatenation runs its parts in order. -/
theorem main_eq (c : Dev nD) : main (F := F) c = seq ops := by
  have h : main (F := F) c = (main_part0 c >>= fun _ => main_part1 c >>= fun _ => main_part2 c) := rfl
  rw [h, part0_eq, part1_eq, part2_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its results -/

theorem a0_sub : (a0 : List (HloOp τ sig (Elt F))).Forall fun op => op.bufs ⊆ tcRefs τ sig :=
  ⟨unary_bufs_sub .., unary_bufs_sub .., binary_bufs_sub .., nullary_bufs_sub .., binary_bufs_sub ..,
    unary_bufs_sub .., nullary_bufs_sub .., unary_bufs_sub .., binary_bufs_sub .., nullary_bufs_sub ..⟩

theorem a1_sub : (a1 : List (HloOp τ sig (Elt F))).Forall fun op => op.bufs ⊆ tcRefs τ sig :=
  ⟨nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    unary_bufs_sub .., binary_bufs_sub .., nullary_bufs_sub .., binary_bufs_sub .., nullary_bufs_sub ..,
    unary_bufs_sub .., unary_bufs_sub .., ternary_bufs_sub ..⟩

theorem a2_sub : (a2 : List (HloOp τ sig (Elt F))).Forall fun op => op.bufs ⊆ tcRefs τ sig :=
  ⟨unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

theorem a3_sub : (a3 : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., binary_bufs_sub .., unary_bufs_sub .., nullary_bufs_sub .., unary_bufs_sub ..,
    binary_bufs_sub .., nullary_bufs_sub ..⟩

theorem a4_sub : (a4 : List (HloOp τ sig (Elt F))).Forall fun op => op.bufs ⊆ tcRefs τ sig :=
  ⟨nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    unary_bufs_sub .., binary_bufs_sub .., nullary_bufs_sub .., binary_bufs_sub .., nullary_bufs_sub ..,
    unary_bufs_sub .., unary_bufs_sub .., ternary_bufs_sub ..⟩

theorem a5_sub : (a5 : List (HloOp τ sig (Elt F))).Forall fun op => op.bufs ⊆ tcRefs τ sig :=
  ⟨unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

theorem a6_sub : (a6 : List (HloOp τ sig (Elt F))).Forall fun op => op.bufs ⊆ tcRefs τ sig :=
  ⟨nullary_bufs_sub .., binary_bufs_sub .., nullary_bufs_sub .., unary_bufs_sub .., binary_bufs_sub ..,
    unary_bufs_sub .., unary_bufs_sub ..⟩

theorem b0_sub : (b0 : List (HloOp τ sig (Elt F))).Forall fun op => op.bufs ⊆ tcRefs τ sig :=
  ⟨binary_bufs_sub .., unary_bufs_sub .., nullary_bufs_sub .., binary_bufs_sub .., unary_bufs_sub ..,
    unary_bufs_sub .., binary_bufs_sub ..⟩

theorem b1_sub : (b1 : List (HloOp τ sig (Elt F))).Forall fun op => op.bufs ⊆ tcRefs τ sig :=
  ⟨nullary_bufs_sub .., unary_bufs_sub .., nullary_bufs_sub .., unary_bufs_sub .., binary_bufs_sub ..,
    unary_bufs_sub .., unary_bufs_sub .., nullary_bufs_sub .., unary_bufs_sub .., binary_bufs_sub ..,
    nullary_bufs_sub .., unary_bufs_sub .., binary_bufs_sub .., ternary_bufs_sub .., unary_bufs_sub ..⟩

theorem b2_sub : (b2 : List (HloOp τ sig (Elt F))).Forall fun op => op.bufs ⊆ tcRefs τ sig :=
  ⟨binary_bufs_sub .., unary_bufs_sub .., unary_bufs_sub .., binary_bufs_sub ..⟩

theorem b3_sub : (b3 : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., binary_bufs_sub .., unary_bufs_sub .., nullary_bufs_sub .., unary_bufs_sub ..,
    binary_bufs_sub .., nullary_bufs_sub ..⟩

theorem b4_sub : (b4 : List (HloOp τ sig (Elt F))).Forall fun op => op.bufs ⊆ tcRefs τ sig :=
  ⟨nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    unary_bufs_sub .., binary_bufs_sub .., nullary_bufs_sub .., binary_bufs_sub .., nullary_bufs_sub ..,
    unary_bufs_sub .., unary_bufs_sub .., ternary_bufs_sub ..⟩

theorem b5_sub : (b5 : List (HloOp τ sig (Elt F))).Forall fun op => op.bufs ⊆ tcRefs τ sig :=
  ⟨unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

theorem b6_sub : (b6 : List (HloOp τ sig (Elt F))).Forall fun op => op.bufs ⊆ tcRefs τ sig :=
  ⟨nullary_bufs_sub .., unary_bufs_sub .., nullary_bufs_sub .., unary_bufs_sub .., binary_bufs_sub ..,
    unary_bufs_sub ..⟩

theorem c0_sub : (c0 : List (HloOp τ sig (Elt F))).Forall fun op => op.bufs ⊆ tcRefs τ sig :=
  ⟨unary_bufs_sub .., nullary_bufs_sub .., unary_bufs_sub .., binary_bufs_sub .., nullary_bufs_sub ..,
    unary_bufs_sub .., binary_bufs_sub .., ternary_bufs_sub .., unary_bufs_sub ..⟩

theorem c1_sub : (c1 : List (HloOp τ sig (Elt F))).Forall fun op => op.bufs ⊆ tcRefs τ sig :=
  ⟨binary_bufs_sub .., unary_bufs_sub ..⟩

theorem c2_sub : (c2 : List (HloOp τ sig (Elt F))).Forall fun op => op.bufs ⊆ tcRefs τ sig :=
  ⟨unary_bufs_sub .., unary_bufs_sub .., binary_bufs_sub .., nullary_bufs_sub .., binary_bufs_sub ..,
    unary_bufs_sub .., nullary_bufs_sub .., unary_bufs_sub .., binary_bufs_sub .., nullary_bufs_sub ..⟩

theorem c3_sub : (c3 : List (HloOp τ sig (Elt F))).Forall fun op => op.bufs ⊆ tcRefs τ sig :=
  ⟨nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    unary_bufs_sub .., binary_bufs_sub .., nullary_bufs_sub .., binary_bufs_sub .., nullary_bufs_sub ..,
    unary_bufs_sub .., unary_bufs_sub .., ternary_bufs_sub ..⟩

theorem c4_sub : (c4 : List (HloOp τ sig (Elt F))).Forall fun op => op.bufs ⊆ tcRefs τ sig :=
  ⟨unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

theorem c5_sub : (c5 : List (HloOp τ sig (Elt F))).Forall fun op => op.bufs ⊆ tcRefs τ sig :=
  ⟨nullary_bufs_sub .., unary_bufs_sub .., binary_bufs_sub ..⟩

theorem c6_sub : (c6 : List (HloOp τ sig (Elt F))).Forall fun op => op.bufs ⊆ tcRefs τ sig :=
  ⟨unary_bufs_sub .., binary_bufs_sub .., binary_bufs_sub ..⟩

theorem ops_sub : (ops : List (HloOp τ sig (Elt F))).Forall fun op => op.bufs ⊆ tcRefs τ sig :=
  List.forall_append.2 ⟨List.forall_append.2 ⟨a0_sub, List.forall_append.2 ⟨a1_sub, List.forall_append.2 ⟨a2_sub, List.forall_append.2 ⟨a3_sub, List.forall_append.2 ⟨a4_sub, List.forall_append.2 ⟨a5_sub, a6_sub⟩⟩⟩⟩⟩⟩,
    List.forall_append.2 ⟨List.forall_append.2 ⟨b0_sub, List.forall_append.2 ⟨b1_sub, List.forall_append.2 ⟨b2_sub, List.forall_append.2 ⟨b3_sub, List.forall_append.2 ⟨b4_sub, List.forall_append.2 ⟨b5_sub, b6_sub⟩⟩⟩⟩⟩⟩,
      List.forall_append.2 ⟨c0_sub, List.forall_append.2 ⟨c1_sub, List.forall_append.2 ⟨c2_sub, List.forall_append.2 ⟨c3_sub, List.forall_append.2 ⟨c4_sub, List.forall_append.2 ⟨c5_sub, c6_sub⟩⟩⟩⟩⟩⟩⟩⟩

/-- Membership in a concatenation is membership in a part. -/
theorem forall_mem_append {α : Type} {p : α → Prop} {l₁ l₂ : List α} (h₁ : ∀ x ∈ l₁, p x) (h₂ : ∀ x ∈ l₂, p x) :
    ∀ x ∈ l₁ ++ l₂, p x :=
  fun x hx => (List.mem_append.1 hx).elim (h₁ x) (h₂ x)

theorem a0_fresh : ∀ op ∈ (a0 : List (HloOp τ sig (Elt F))), op.fresh = ∅ := by
  intro _ h; (repeat (cases h with | head => rfl | tail _ h => ?_)); exact nomatch h

theorem a1_fresh : ∀ op ∈ (a1 : List (HloOp τ sig (Elt F))), op.fresh = ∅ := by
  intro _ h; (repeat (cases h with | head => rfl | tail _ h => ?_)); exact nomatch h

theorem a2_fresh : ∀ op ∈ (a2 : List (HloOp τ sig (Elt F))), op.fresh = ∅ := by
  intro _ h; (repeat (cases h with | head => rfl | tail _ h => ?_)); exact nomatch h

theorem a3_fresh : ∀ op ∈ (a3 : List (HloOp τ sig (Elt F))), op.fresh = ∅ := by
  intro _ h; (repeat (cases h with | head => rfl | tail _ h => ?_)); exact nomatch h

theorem a4_fresh : ∀ op ∈ (a4 : List (HloOp τ sig (Elt F))), op.fresh = ∅ := by
  intro _ h; (repeat (cases h with | head => rfl | tail _ h => ?_)); exact nomatch h

theorem a5_fresh : ∀ op ∈ (a5 : List (HloOp τ sig (Elt F))), op.fresh = ∅ := by
  intro _ h; (repeat (cases h with | head => rfl | tail _ h => ?_)); exact nomatch h

theorem a6_fresh : ∀ op ∈ (a6 : List (HloOp τ sig (Elt F))), op.fresh = ∅ := by
  intro _ h; (repeat (cases h with | head => rfl | tail _ h => ?_)); exact nomatch h

theorem b0_fresh : ∀ op ∈ (b0 : List (HloOp τ sig (Elt F))), op.fresh = ∅ := by
  intro _ h; (repeat (cases h with | head => rfl | tail _ h => ?_)); exact nomatch h

theorem b1_fresh : ∀ op ∈ (b1 : List (HloOp τ sig (Elt F))), op.fresh = ∅ := by
  intro _ h; (repeat (cases h with | head => rfl | tail _ h => ?_)); exact nomatch h

theorem b2_fresh : ∀ op ∈ (b2 : List (HloOp τ sig (Elt F))), op.fresh = ∅ := by
  intro _ h; (repeat (cases h with | head => rfl | tail _ h => ?_)); exact nomatch h

theorem b3_fresh : ∀ op ∈ (b3 : List (HloOp τ sig (Elt F))), op.fresh = ∅ := by
  intro _ h; (repeat (cases h with | head => rfl | tail _ h => ?_)); exact nomatch h

theorem b4_fresh : ∀ op ∈ (b4 : List (HloOp τ sig (Elt F))), op.fresh = ∅ := by
  intro _ h; (repeat (cases h with | head => rfl | tail _ h => ?_)); exact nomatch h

theorem b5_fresh : ∀ op ∈ (b5 : List (HloOp τ sig (Elt F))), op.fresh = ∅ := by
  intro _ h; (repeat (cases h with | head => rfl | tail _ h => ?_)); exact nomatch h

theorem b6_fresh : ∀ op ∈ (b6 : List (HloOp τ sig (Elt F))), op.fresh = ∅ := by
  intro _ h; (repeat (cases h with | head => rfl | tail _ h => ?_)); exact nomatch h

theorem c0_fresh : ∀ op ∈ (c0 : List (HloOp τ sig (Elt F))), op.fresh = ∅ := by
  intro _ h; (repeat (cases h with | head => rfl | tail _ h => ?_)); exact nomatch h

theorem c1_fresh : ∀ op ∈ (c1 : List (HloOp τ sig (Elt F))), op.fresh = ∅ := by
  intro _ h; (repeat (cases h with | head => rfl | tail _ h => ?_)); exact nomatch h

theorem c2_fresh : ∀ op ∈ (c2 : List (HloOp τ sig (Elt F))), op.fresh = ∅ := by
  intro _ h; (repeat (cases h with | head => rfl | tail _ h => ?_)); exact nomatch h

theorem c3_fresh : ∀ op ∈ (c3 : List (HloOp τ sig (Elt F))), op.fresh = ∅ := by
  intro _ h; (repeat (cases h with | head => rfl | tail _ h => ?_)); exact nomatch h

theorem c4_fresh : ∀ op ∈ (c4 : List (HloOp τ sig (Elt F))), op.fresh = ∅ := by
  intro _ h; (repeat (cases h with | head => rfl | tail _ h => ?_)); exact nomatch h

theorem c5_fresh : ∀ op ∈ (c5 : List (HloOp τ sig (Elt F))), op.fresh = ∅ := by
  intro _ h; (repeat (cases h with | head => rfl | tail _ h => ?_)); exact nomatch h

theorem c6_fresh : ∀ op ∈ (c6 : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  forall_mem_append (forall_mem_append a0_fresh (forall_mem_append a1_fresh (forall_mem_append a2_fresh (forall_mem_append a3_fresh (forall_mem_append a4_fresh (forall_mem_append a5_fresh (a6_fresh)))))))
    (forall_mem_append (forall_mem_append b0_fresh (forall_mem_append b1_fresh (forall_mem_append b2_fresh (forall_mem_append b3_fresh (forall_mem_append b4_fresh (forall_mem_append b5_fresh (b6_fresh)))))))
      (forall_mem_append c0_fresh (forall_mem_append c1_fresh (forall_mem_append c2_fresh (forall_mem_append c3_fresh (forall_mem_append c4_fresh (forall_mem_append c5_fresh (c6_fresh))))))))

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HandRun

end
-- ==== Proof.LibAfterAppend.lean ====
/-
  The contents after a line of host operations run in stretches.

  The buffer contents after a list of host operations are a fold: each operation rewrites the buffers it writes, in order.
  So the contents after a concatenation are the contents after the second list, from the contents after the first; and the
  contents after a list of stretches joined into one line are the stretches' contents composed, first stretch innermost.
-/
import Idealize.ShloMosaic.Lib.StableHlo.Run

noncomputable section

namespace Cert.AfterAppend

open Idealize.ShloMosaic Idealize.ShloMosaic.StableHlo

variable {τ : Topo} {sig : RefSig} {Val : EltTy → Type}

/-- The contents after `l₁ ++ l₂` are the contents after `l₂`, from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents after a first stretch followed by the rest of the stretches joined. -/
theorem after_flatten_cons (l : List (HloOp τ sig Val)) (L : List (List (HloOp τ sig Val))) (V : Valuation τ sig Val) :
    after (List.flatten (l :: L)) V = after (List.flatten L) (after l V) := by
  rw [List.flatten_cons, after_append]

/-- No stretches: the contents are unchanged. -/
theorem after_flatten_nil (V : Valuation τ sig Val) : after (List.flatten ([] : List (List (HloOp τ sig Val)))) V = V := rfl

end Cert.AfterAppend

end
-- ==== Proof.RefFrame.lean ====
/-
  No operation of the reference program writes an argument.

  Each operation of the line writes one buffer, its result. For each stretch the buffers it writes are listed; a
  buffer not in the list holds after the stretch what it held before. The contents after the whole line are the
  stretches' contents composed, so a buffer in none of the lists — every argument — ends as it began. With the run
  this is the frame: the program terminates and its sixteen argument arrays end unchanged.
-/
import proofs.«118657_j45303315038549_1_alg».proof.Defs
import proofs.«118657_j45303315038549_1_alg».proof.Proof.RefOps
import proofs.«118657_j45303315038549_1_alg».proof.Proof.LibAfterAppend

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.AfterAppend (after_append)

variable {F : FTy → Type} [FloatOps F]

/-- One written buffer, a member of a list, is inside the list's set of device buffers. -/
theorem single_sub_W {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map.2 ⟨y, h, rfl⟩))

/-! ## What each stretch writes, and that it keeps the rest -/

/-- The buffers stretch `a0` writes, in order. -/
abbrev a0_W : List (Ref sig .tc) :=
  [main_v0, main_v1, main_v2, main_cst, main_v3, main_v4, main_cst_0, main_v5, main_v6, main_c]

theorem a0_writes : (a0 : List (HloOp τ sig (Elt F))).Forall fun op =>
    op.writes ⊆ (a0_W.map (Proc.devRef (τ := τ) .tc)).toFinset :=
  ⟨single_sub_W (y := main_v0) (by decide),
    single_sub_W (y := main_v1) (by decide),
    single_sub_W (y := main_v2) (by decide),
    single_sub_W (y := main_cst) (by decide),
    single_sub_W (y := main_v3) (by decide),
    single_sub_W (y := main_v4) (by decide),
    single_sub_W (y := main_cst_0) (by decide),
    single_sub_W (y := main_v5) (by decide),
    single_sub_W (y := main_v6) (by decide),
    single_sub_W (y := main_c) (by decide)⟩

theorem a0_keep (V : Valuation τ sig (Elt F)) {r : Ref sig .tc} (hr : r ∉ a0_W) :
    after a0 V (Proc.devRef .tc r) = V (Proc.devRef .tc r) :=
  after_of_writes_sub a0 V a0_writes hr

/-- The buffers stretch `a1` writes, in order. -/
abbrev a1_W : List (Ref sig .tc) :=
  [(main_call0.cst).ref, (main_call0.v0).ref, (main_call0.v1).ref, (main_call0.cst_0).ref, (main_call0.v2).ref,
    (main_call0.v3).ref, (main_call0.v4).ref, (main_call0.v5).ref, (main_call0.v6).ref, (main_call0.v7).ref,
    (main_call0.cst_1).ref, (main_call0.v8).ref, (main_call0.cst_2).ref, (main_call0.v9).ref, (main_call0.v10).ref,
    (main_call0.v11).ref, (main_call0.v12).ref, (main_call0.cst_3).ref, (main_call0.v13).ref, (main_call0.cst_4).ref,
    (main_call0.call0.v0).ref, (main_call0.call0.v1).ref, (main_call0.call0.v2).ref]

theorem a1_writes : (a1 : List (HloOp τ sig (Elt F))).Forall fun op =>
    op.writes ⊆ (a1_W.map (Proc.devRef (τ := τ) .tc)).toFinset :=
  ⟨single_sub_W (y := (main_call0.cst).ref) (by decide),
    single_sub_W (y := (main_call0.v0).ref) (by decide),
    single_sub_W (y := (main_call0.v1).ref) (by decide),
    single_sub_W (y := (main_call0.cst_0).ref) (by decide),
    single_sub_W (y := (main_call0.v2).ref) (by decide),
    single_sub_W (y := (main_call0.v3).ref) (by decide),
    single_sub_W (y := (main_call0.v4).ref) (by decide),
    single_sub_W (y := (main_call0.v5).ref) (by decide),
    single_sub_W (y := (main_call0.v6).ref) (by decide),
    single_sub_W (y := (main_call0.v7).ref) (by decide),
    single_sub_W (y := (main_call0.cst_1).ref) (by decide),
    single_sub_W (y := (main_call0.v8).ref) (by decide),
    single_sub_W (y := (main_call0.cst_2).ref) (by decide),
    single_sub_W (y := (main_call0.v9).ref) (by decide),
    single_sub_W (y := (main_call0.v10).ref) (by decide),
    single_sub_W (y := (main_call0.v11).ref) (by decide),
    single_sub_W (y := (main_call0.v12).ref) (by decide),
    single_sub_W (y := (main_call0.cst_3).ref) (by decide),
    single_sub_W (y := (main_call0.v13).ref) (by decide),
    single_sub_W (y := (main_call0.cst_4).ref) (by decide),
    single_sub_W (y := (main_call0.call0.v0).ref) (by decide),
    single_sub_W (y := (main_call0.call0.v1).ref) (by decide),
    single_sub_W (y := (main_call0.call0.v2).ref) (by decide)⟩

theorem a1_keep (V : Valuation τ sig (Elt F)) {r : Ref sig .tc} (hr : r ∉ a1_W) :
    after a1 V (Proc.devRef .tc r) = V (Proc.devRef .tc r) :=
  after_of_writes_sub a1 V a1_writes hr

/-- The buffers stretch `a2` writes, in order. -/
abbrev a2_W : List (Ref sig .tc) :=
  [main_v8, main_v9, main_cst_1, main_v10, main_v11, main_v12, main_v13, main_v14, main_v15, main_v16, main_v17,
    main_v18, main_v19, main_v20]

theorem a2_writes : (a2 : List (HloOp τ sig (Elt F))).Forall fun op =>
    op.writes ⊆ (a2_W.map (Proc.devRef (τ := τ) .tc)).toFinset :=
  ⟨single_sub_W (y := main_v8) (by decide),
    single_sub_W (y := main_v9) (by decide),
    single_sub_W (y := main_cst_1) (by decide),
    single_sub_W (y := main_v10) (by decide),
    single_sub_W (y := main_v11) (by decide),
    single_sub_W (y := main_v12) (by decide),
    single_sub_W (y := main_v13) (by decide),
    single_sub_W (y := main_v14) (by decide),
    single_sub_W (y := main_v15) (by decide),
    single_sub_W (y := main_v16) (by decide),
    single_sub_W (y := main_v17) (by decide),
    single_sub_W (y := main_v18) (by decide),
    single_sub_W (y := main_v19) (by decide),
    single_sub_W (y := main_v20) (by decide)⟩

theorem a2_keep (V : Valuation τ sig (Elt F)) {r : Ref sig .tc} (hr : r ∉ a2_W) :
    after a2 V (Proc.devRef .tc r) = V (Proc.devRef .tc r) :=
  after_of_writes_sub a2 V a2_writes hr

/-- The buffers stretch `a3` writes, in order. -/
abbrev a3_W : List (Ref sig .tc) :=
  [main_v21, main_v22, main_v23, main_v24, main_v25, main_v26, main_cst_2, main_v27, main_v28, main_cst_3, main_v29,
    main_v30, main_c_4]

theorem a3_writes : (a3 : List (HloOp τ sig (Elt F))).Forall fun op =>
    op.writes ⊆ (a3_W.map (Proc.devRef (τ := τ) .tc)).toFinset :=
  ⟨single_sub_W (y := main_v21) (by decide),
    single_sub_W (y := main_v22) (by decide),
    single_sub_W (y := main_v23) (by decide),
    single_sub_W (y := main_v24) (by decide),
    single_sub_W (y := main_v25) (by decide),
    single_sub_W (y := main_v26) (by decide),
    single_sub_W (y := main_cst_2) (by decide),
    single_sub_W (y := main_v27) (by decide),
    single_sub_W (y := main_v28) (by decide),
    single_sub_W (y := main_cst_3) (by decide),
    single_sub_W (y := main_v29) (by decide),
    single_sub_W (y := main_v30) (by decide),
    single_sub_W (y := main_c_4) (by decide)⟩

theorem a3_keep (V : Valuation τ sig (Elt F)) {r : Ref sig .tc} (hr : r ∉ a3_W) :
    after a3 V (Proc.devRef .tc r) = V (Proc.devRef .tc r) :=
  after_of_writes_sub a3 V a3_writes hr

/-- The buffers stretch `a4` writes, in order. -/
abbrev a4_W : List (Ref sig .tc) :=
  [(main_call1.cst).ref, (main_call1.v0).ref, (main_call1.v1).ref, (main_call1.cst_0).ref, (main_call1.v2).ref,
    (main_call1.v3).ref, (main_call1.v4).ref, (main_call1.v5).ref, (main_call1.v6).ref, (main_call1.v7).ref,
    (main_call1.cst_1).ref, (main_call1.v8).ref, (main_call1.cst_2).ref, (main_call1.v9).ref, (main_call1.v10).ref,
    (main_call1.v11).ref, (main_call1.v12).ref, (main_call1.cst_3).ref, (main_call1.v13).ref, (main_call1.cst_4).ref,
    (main_call1.call0.v0).ref, (main_call1.call0.v1).ref, (main_call1.call0.v2).ref]

theorem a4_writes : (a4 : List (HloOp τ sig (Elt F))).Forall fun op =>
    op.writes ⊆ (a4_W.map (Proc.devRef (τ := τ) .tc)).toFinset :=
  ⟨single_sub_W (y := (main_call1.cst).ref) (by decide),
    single_sub_W (y := (main_call1.v0).ref) (by decide),
    single_sub_W (y := (main_call1.v1).ref) (by decide),
    single_sub_W (y := (main_call1.cst_0).ref) (by decide),
    single_sub_W (y := (main_call1.v2).ref) (by decide),
    single_sub_W (y := (main_call1.v3).ref) (by decide),
    single_sub_W (y := (main_call1.v4).ref) (by decide),
    single_sub_W (y := (main_call1.v5).ref) (by decide),
    single_sub_W (y := (main_call1.v6).ref) (by decide),
    single_sub_W (y := (main_call1.v7).ref) (by decide),
    single_sub_W (y := (main_call1.cst_1).ref) (by decide),
    single_sub_W (y := (main_call1.v8).ref) (by decide),
    single_sub_W (y := (main_call1.cst_2).ref) (by decide),
    single_sub_W (y := (main_call1.v9).ref) (by decide),
    single_sub_W (y := (main_call1.v10).ref) (by decide),
    single_sub_W (y := (main_call1.v11).ref) (by decide),
    single_sub_W (y := (main_call1.v12).ref) (by decide),
    single_sub_W (y := (main_call1.cst_3).ref) (by decide),
    single_sub_W (y := (main_call1.v13).ref) (by decide),
    single_sub_W (y := (main_call1.cst_4).ref) (by decide),
    single_sub_W (y := (main_call1.call0.v0).ref) (by decide),
    single_sub_W (y := (main_call1.call0.v1).ref) (by decide),
    single_sub_W (y := (main_call1.call0.v2).ref) (by decide)⟩

theorem a4_keep (V : Valuation τ sig (Elt F)) {r : Ref sig .tc} (hr : r ∉ a4_W) :
    after a4 V (Proc.devRef .tc r) = V (Proc.devRef .tc r) :=
  after_of_writes_sub a4 V a4_writes hr

/-- The buffers stretch `a5` writes, in order. -/
abbrev a5_W : List (Ref sig .tc) :=
  [main_v32, main_v33, main_cst_5, main_v34, main_v35, main_v36, main_v37, main_v38, main_v39, main_v40, main_v41,
    main_v42, main_v43, main_v44]

theorem a5_writes : (a5 : List (HloOp τ sig (Elt F))).Forall fun op =>
    op.writes ⊆ (a5_W.map (Proc.devRef (τ := τ) .tc)).toFinset :=
  ⟨single_sub_W (y := main_v32) (by decide),
    single_sub_W (y := main_v33) (by decide),
    single_sub_W (y := main_cst_5) (by decide),
    single_sub_W (y := main_v34) (by decide),
    single_sub_W (y := main_v35) (by decide),
    single_sub_W (y := main_v36) (by decide),
    single_sub_W (y := main_v37) (by decide),
    single_sub_W (y := main_v38) (by decide),
    single_sub_W (y := main_v39) (by decide),
    single_sub_W (y := main_v40) (by decide),
    single_sub_W (y := main_v41) (by decide),
    single_sub_W (y := main_v42) (by decide),
    single_sub_W (y := main_v43) (by decide),
    single_sub_W (y := main_v44) (by decide)⟩

theorem a5_keep (V : Valuation τ sig (Elt F)) {r : Ref sig .tc} (hr : r ∉ a5_W) :
    after a5 V (Proc.devRef .tc r) = V (Proc.devRef .tc r) :=
  after_of_writes_sub a5 V a5_writes hr

/-- The buffers stretch `a6` writes, in order. -/
abbrev a6_W : List (Ref sig .tc) :=
  [main_cst_6, main_v45, main_cst_7, main_v46, main_v47, main_v48, main_v49]

theorem a6_writes : (a6 : List (HloOp τ sig (Elt F))).Forall fun op =>
    op.writes ⊆ (a6_W.map (Proc.devRef (τ := τ) .tc)).toFinset :=
  ⟨single_sub_W (y := main_cst_6) (by decide),
    single_sub_W (y := main_v45) (by decide),
    single_sub_W (y := main_cst_7) (by decide),
    single_sub_W (y := main_v46) (by decide),
    single_sub_W (y := main_v47) (by decide),
    single_sub_W (y := main_v48) (by decide),
    single_sub_W (y := main_v49) (by decide)⟩

theorem a6_keep (V : Valuation τ sig (Elt F)) {r : Ref sig .tc} (hr : r ∉ a6_W) :
    after a6 V (Proc.devRef .tc r) = V (Proc.devRef .tc r) :=
  after_of_writes_sub a6 V a6_writes hr

/-- The buffers stretch `b0` writes, in order. -/
abbrev b0_W : List (Ref sig .tc) :=
  [main_v50, main_v51, main_cst_8, main_v52, main_v53, main_v54, main_v55]

theorem b0_writes : (b0 : List (HloOp τ sig (Elt F))).Forall fun op =>
    op.writes ⊆ (b0_W.map (Proc.devRef (τ := τ) .tc)).toFinset :=
  ⟨single_sub_W (y := main_v50) (by decide),
    single_sub_W (y := main_v51) (by decide),
    single_sub_W (y := main_cst_8) (by decide),
    single_sub_W (y := main_v52) (by decide),
    single_sub_W (y := main_v53) (by decide),
    single_sub_W (y := main_v54) (by decide),
    single_sub_W (y := main_v55) (by decide)⟩

theorem b0_keep (V : Valuation τ sig (Elt F)) {r : Ref sig .tc} (hr : r ∉ b0_W) :
    after b0 V (Proc.devRef .tc r) = V (Proc.devRef .tc r) :=
  after_of_writes_sub b0 V b0_writes hr

/-- The buffers stretch `b1` writes, in order. -/
abbrev b1_W : List (Ref sig .tc) :=
  [main_v56, main_v57, main_cst_9, main_v58, main_v59, main_v60, main_v61, main_c_10, main_v62, main_v63, main_c_11,
    main_v64, main_v65, main_v66, main_v67]

theorem b1_writes : (b1 : List (HloOp τ sig (Elt F))).Forall fun op =>
    op.writes ⊆ (b1_W.map (Proc.devRef (τ := τ) .tc)).toFinset :=
  ⟨single_sub_W (y := main_v56) (by decide),
    single_sub_W (y := main_v57) (by decide),
    single_sub_W (y := main_cst_9) (by decide),
    single_sub_W (y := main_v58) (by decide),
    single_sub_W (y := main_v59) (by decide),
    single_sub_W (y := main_v60) (by decide),
    single_sub_W (y := main_v61) (by decide),
    single_sub_W (y := main_c_10) (by decide),
    single_sub_W (y := main_v62) (by decide),
    single_sub_W (y := main_v63) (by decide),
    single_sub_W (y := main_c_11) (by decide),
    single_sub_W (y := main_v64) (by decide),
    single_sub_W (y := main_v65) (by decide),
    single_sub_W (y := main_v66) (by decide),
    single_sub_W (y := main_v67) (by decide)⟩

theorem b1_keep (V : Valuation τ sig (Elt F)) {r : Ref sig .tc} (hr : r ∉ b1_W) :
    after b1 V (Proc.devRef .tc r) = V (Proc.devRef .tc r) :=
  after_of_writes_sub b1 V b1_writes hr

/-- The buffers stretch `b2` writes, in order. -/
abbrev b2_W : List (Ref sig .tc) :=
  [main_v68, main_v69, main_v70, main_v71]

theorem b2_writes : (b2 : List (HloOp τ sig (Elt F))).Forall fun op =>
    op.writes ⊆ (b2_W.map (Proc.devRef (τ := τ) .tc)).toFinset :=
  ⟨single_sub_W (y := main_v68) (by decide),
    single_sub_W (y := main_v69) (by decide),
    single_sub_W (y := main_v70) (by decide),
    single_sub_W (y := main_v71) (by decide)⟩

theorem b2_keep (V : Valuation τ sig (Elt F)) {r : Ref sig .tc} (hr : r ∉ b2_W) :
    after b2 V (Proc.devRef .tc r) = V (Proc.devRef .tc r) :=
  after_of_writes_sub b2 V b2_writes hr

/-- The buffers stretch `b3` writes, in order. -/
abbrev b3_W : List (Ref sig .tc) :=
  [main_v72, main_v73, main_v74, main_v75, main_v76, main_v77, main_cst_12, main_v78, main_v79, main_cst_13, main_v80,
    main_v81, main_c_14]

theorem b3_writes : (b3 : List (HloOp τ sig (Elt F))).Forall fun op =>
    op.writes ⊆ (b3_W.map (Proc.devRef (τ := τ) .tc)).toFinset :=
  ⟨single_sub_W (y := main_v72) (by decide),
    single_sub_W (y := main_v73) (by decide),
    single_sub_W (y := main_v74) (by decide),
    single_sub_W (y := main_v75) (by decide),
    single_sub_W (y := main_v76) (by decide),
    single_sub_W (y := main_v77) (by decide),
    single_sub_W (y := main_cst_12) (by decide),
    single_sub_W (y := main_v78) (by decide),
    single_sub_W (y := main_v79) (by decide),
    single_sub_W (y := main_cst_13) (by decide),
    single_sub_W (y := main_v80) (by decide),
    single_sub_W (y := main_v81) (by decide),
    single_sub_W (y := main_c_14) (by decide)⟩

theorem b3_keep (V : Valuation τ sig (Elt F)) {r : Ref sig .tc} (hr : r ∉ b3_W) :
    after b3 V (Proc.devRef .tc r) = V (Proc.devRef .tc r) :=
  after_of_writes_sub b3 V b3_writes hr

/-- The buffers stretch `b4` writes, in order. -/
abbrev b4_W : List (Ref sig .tc) :=
  [(main_call2.cst).ref, (main_call2.v0).ref, (main_call2.v1).ref, (main_call2.cst_0).ref, (main_call2.v2).ref,
    (main_call2.v3).ref, (main_call2.v4).ref, (main_call2.v5).ref, (main_call2.v6).ref, (main_call2.v7).ref,
    (main_call2.cst_1).ref, (main_call2.v8).ref, (main_call2.cst_2).ref, (main_call2.v9).ref, (main_call2.v10).ref,
    (main_call2.v11).ref, (main_call2.v12).ref, (main_call2.cst_3).ref, (main_call2.v13).ref, (main_call2.cst_4).ref,
    (main_call2.call0.v0).ref, (main_call2.call0.v1).ref, (main_call2.call0.v2).ref]

theorem b4_writes : (b4 : List (HloOp τ sig (Elt F))).Forall fun op =>
    op.writes ⊆ (b4_W.map (Proc.devRef (τ := τ) .tc)).toFinset :=
  ⟨single_sub_W (y := (main_call2.cst).ref) (by decide),
    single_sub_W (y := (main_call2.v0).ref) (by decide),
    single_sub_W (y := (main_call2.v1).ref) (by decide),
    single_sub_W (y := (main_call2.cst_0).ref) (by decide),
    single_sub_W (y := (main_call2.v2).ref) (by decide),
    single_sub_W (y := (main_call2.v3).ref) (by decide),
    single_sub_W (y := (main_call2.v4).ref) (by decide),
    single_sub_W (y := (main_call2.v5).ref) (by decide),
    single_sub_W (y := (main_call2.v6).ref) (by decide),
    single_sub_W (y := (main_call2.v7).ref) (by decide),
    single_sub_W (y := (main_call2.cst_1).ref) (by decide),
    single_sub_W (y := (main_call2.v8).ref) (by decide),
    single_sub_W (y := (main_call2.cst_2).ref) (by decide),
    single_sub_W (y := (main_call2.v9).ref) (by decide),
    single_sub_W (y := (main_call2.v10).ref) (by decide),
    single_sub_W (y := (main_call2.v11).ref) (by decide),
    single_sub_W (y := (main_call2.v12).ref) (by decide),
    single_sub_W (y := (main_call2.cst_3).ref) (by decide),
    single_sub_W (y := (main_call2.v13).ref) (by decide),
    single_sub_W (y := (main_call2.cst_4).ref) (by decide),
    single_sub_W (y := (main_call2.call0.v0).ref) (by decide),
    single_sub_W (y := (main_call2.call0.v1).ref) (by decide),
    single_sub_W (y := (main_call2.call0.v2).ref) (by decide)⟩

theorem b4_keep (V : Valuation τ sig (Elt F)) {r : Ref sig .tc} (hr : r ∉ b4_W) :
    after b4 V (Proc.devRef .tc r) = V (Proc.devRef .tc r) :=
  after_of_writes_sub b4 V b4_writes hr

/-- The buffers stretch `b5` writes, in order. -/
abbrev b5_W : List (Ref sig .tc) :=
  [main_v83, main_v84, main_cst_15, main_v85, main_v86, main_v87, main_v88, main_v89, main_v90, main_v91, main_v92,
    main_v93, main_v94, main_v95]

theorem b5_writes : (b5 : List (HloOp τ sig (Elt F))).Forall fun op =>
    op.writes ⊆ (b5_W.map (Proc.devRef (τ := τ) .tc)).toFinset :=
  ⟨single_sub_W (y := main_v83) (by decide),
    single_sub_W (y := main_v84) (by decide),
    single_sub_W (y := main_cst_15) (by decide),
    single_sub_W (y := main_v85) (by decide),
    single_sub_W (y := main_v86) (by decide),
    single_sub_W (y := main_v87) (by decide),
    single_sub_W (y := main_v88) (by decide),
    single_sub_W (y := main_v89) (by decide),
    single_sub_W (y := main_v90) (by decide),
    single_sub_W (y := main_v91) (by decide),
    single_sub_W (y := main_v92) (by decide),
    single_sub_W (y := main_v93) (by decide),
    single_sub_W (y := main_v94) (by decide),
    single_sub_W (y := main_v95) (by decide)⟩

theorem b5_keep (V : Valuation τ sig (Elt F)) {r : Ref sig .tc} (hr : r ∉ b5_W) :
    after b5 V (Proc.devRef .tc r) = V (Proc.devRef .tc r) :=
  after_of_writes_sub b5 V b5_writes hr

/-- The buffers stretch `b6` writes, in order. -/
abbrev b6_W : List (Ref sig .tc) :=
  [main_v96, main_v97, main_cst_16, main_v98, main_v99, main_v100]

theorem b6_writes : (b6 : List (HloOp τ sig (Elt F))).Forall fun op =>
    op.writes ⊆ (b6_W.map (Proc.devRef (τ := τ) .tc)).toFinset :=
  ⟨single_sub_W (y := main_v96) (by decide),
    single_sub_W (y := main_v97) (by decide),
    single_sub_W (y := main_cst_16) (by decide),
    single_sub_W (y := main_v98) (by decide),
    single_sub_W (y := main_v99) (by decide),
    single_sub_W (y := main_v100) (by decide)⟩

theorem b6_keep (V : Valuation τ sig (Elt F)) {r : Ref sig .tc} (hr : r ∉ b6_W) :
    after b6 V (Proc.devRef .tc r) = V (Proc.devRef .tc r) :=
  after_of_writes_sub b6 V b6_writes hr

/-- The buffers stretch `c0` writes, in order. -/
abbrev c0_W : List (Ref sig .tc) :=
  [main_v101, main_c_17, main_v102, main_v103, main_c_18, main_v104, main_v105, main_v106, main_v107]

theorem c0_writes : (c0 : List (HloOp τ sig (Elt F))).Forall fun op =>
    op.writes ⊆ (c0_W.map (Proc.devRef (τ := τ) .tc)).toFinset :=
  ⟨single_sub_W (y := main_v101) (by decide),
    single_sub_W (y := main_c_17) (by decide),
    single_sub_W (y := main_v102) (by decide),
    single_sub_W (y := main_v103) (by decide),
    single_sub_W (y := main_c_18) (by decide),
    single_sub_W (y := main_v104) (by decide),
    single_sub_W (y := main_v105) (by decide),
    single_sub_W (y := main_v106) (by decide),
    single_sub_W (y := main_v107) (by decide)⟩

theorem c0_keep (V : Valuation τ sig (Elt F)) {r : Ref sig .tc} (hr : r ∉ c0_W) :
    after c0 V (Proc.devRef .tc r) = V (Proc.devRef .tc r) :=
  after_of_writes_sub c0 V c0_writes hr

/-- The buffers stretch `c1` writes, in order. -/
abbrev c1_W : List (Ref sig .tc) :=
  [main_v108, main_v109]

theorem c1_writes : (c1 : List (HloOp τ sig (Elt F))).Forall fun op =>
    op.writes ⊆ (c1_W.map (Proc.devRef (τ := τ) .tc)).toFinset :=
  ⟨single_sub_W (y := main_v108) (by decide),
    single_sub_W (y := main_v109) (by decide)⟩

theorem c1_keep (V : Valuation τ sig (Elt F)) {r : Ref sig .tc} (hr : r ∉ c1_W) :
    after c1 V (Proc.devRef .tc r) = V (Proc.devRef .tc r) :=
  after_of_writes_sub c1 V c1_writes hr

/-- The buffers stretch `c2` writes, in order. -/
abbrev c2_W : List (Ref sig .tc) :=
  [main_v110, main_v111, main_v112, main_cst_19, main_v113, main_v114, main_cst_20, main_v115, main_v116, main_c_21]

theorem c2_writes : (c2 : List (HloOp τ sig (Elt F))).Forall fun op =>
    op.writes ⊆ (c2_W.map (Proc.devRef (τ := τ) .tc)).toFinset :=
  ⟨single_sub_W (y := main_v110) (by decide),
    single_sub_W (y := main_v111) (by decide),
    single_sub_W (y := main_v112) (by decide),
    single_sub_W (y := main_cst_19) (by decide),
    single_sub_W (y := main_v113) (by decide),
    single_sub_W (y := main_v114) (by decide),
    single_sub_W (y := main_cst_20) (by decide),
    single_sub_W (y := main_v115) (by decide),
    single_sub_W (y := main_v116) (by decide),
    single_sub_W (y := main_c_21) (by decide)⟩

theorem c2_keep (V : Valuation τ sig (Elt F)) {r : Ref sig .tc} (hr : r ∉ c2_W) :
    after c2 V (Proc.devRef .tc r) = V (Proc.devRef .tc r) :=
  after_of_writes_sub c2 V c2_writes hr

/-- The buffers stretch `c3` writes, in order. -/
abbrev c3_W : List (Ref sig .tc) :=
  [(main_call3.cst).ref, (main_call3.v0).ref, (main_call3.v1).ref, (main_call3.cst_0).ref, (main_call3.v2).ref,
    (main_call3.v3).ref, (main_call3.v4).ref, (main_call3.v5).ref, (main_call3.v6).ref, (main_call3.v7).ref,
    (main_call3.cst_1).ref, (main_call3.v8).ref, (main_call3.cst_2).ref, (main_call3.v9).ref, (main_call3.v10).ref,
    (main_call3.v11).ref, (main_call3.v12).ref, (main_call3.cst_3).ref, (main_call3.v13).ref, (main_call3.cst_4).ref,
    (main_call3.call0.v0).ref, (main_call3.call0.v1).ref, (main_call3.call0.v2).ref]

theorem c3_writes : (c3 : List (HloOp τ sig (Elt F))).Forall fun op =>
    op.writes ⊆ (c3_W.map (Proc.devRef (τ := τ) .tc)).toFinset :=
  ⟨single_sub_W (y := (main_call3.cst).ref) (by decide),
    single_sub_W (y := (main_call3.v0).ref) (by decide),
    single_sub_W (y := (main_call3.v1).ref) (by decide),
    single_sub_W (y := (main_call3.cst_0).ref) (by decide),
    single_sub_W (y := (main_call3.v2).ref) (by decide),
    single_sub_W (y := (main_call3.v3).ref) (by decide),
    single_sub_W (y := (main_call3.v4).ref) (by decide),
    single_sub_W (y := (main_call3.v5).ref) (by decide),
    single_sub_W (y := (main_call3.v6).ref) (by decide),
    single_sub_W (y := (main_call3.v7).ref) (by decide),
    single_sub_W (y := (main_call3.cst_1).ref) (by decide),
    single_sub_W (y := (main_call3.v8).ref) (by decide),
    single_sub_W (y := (main_call3.cst_2).ref) (by decide),
    single_sub_W (y := (main_call3.v9).ref) (by decide),
    single_sub_W (y := (main_call3.v10).ref) (by decide),
    single_sub_W (y := (main_call3.v11).ref) (by decide),
    single_sub_W (y := (main_call3.v12).ref) (by decide),
    single_sub_W (y := (main_call3.cst_3).ref) (by decide),
    single_sub_W (y := (main_call3.v13).ref) (by decide),
    single_sub_W (y := (main_call3.cst_4).ref) (by decide),
    single_sub_W (y := (main_call3.call0.v0).ref) (by decide),
    single_sub_W (y := (main_call3.call0.v1).ref) (by decide),
    single_sub_W (y := (main_call3.call0.v2).ref) (by decide)⟩

theorem c3_keep (V : Valuation τ sig (Elt F)) {r : Ref sig .tc} (hr : r ∉ c3_W) :
    after c3 V (Proc.devRef .tc r) = V (Proc.devRef .tc r) :=
  after_of_writes_sub c3 V c3_writes hr

/-- The buffers stretch `c4` writes, in order. -/
abbrev c4_W : List (Ref sig .tc) :=
  [main_v118, main_v119, main_cst_22, main_v120, main_v121, main_v122, main_v123, main_v124, main_v125, main_v126,
    main_v127, main_v128, main_v129, main_v130]

theorem c4_writes : (c4 : List (HloOp τ sig (Elt F))).Forall fun op =>
    op.writes ⊆ (c4_W.map (Proc.devRef (τ := τ) .tc)).toFinset :=
  ⟨single_sub_W (y := main_v118) (by decide),
    single_sub_W (y := main_v119) (by decide),
    single_sub_W (y := main_cst_22) (by decide),
    single_sub_W (y := main_v120) (by decide),
    single_sub_W (y := main_v121) (by decide),
    single_sub_W (y := main_v122) (by decide),
    single_sub_W (y := main_v123) (by decide),
    single_sub_W (y := main_v124) (by decide),
    single_sub_W (y := main_v125) (by decide),
    single_sub_W (y := main_v126) (by decide),
    single_sub_W (y := main_v127) (by decide),
    single_sub_W (y := main_v128) (by decide),
    single_sub_W (y := main_v129) (by decide),
    single_sub_W (y := main_v130) (by decide)⟩

theorem c4_keep (V : Valuation τ sig (Elt F)) {r : Ref sig .tc} (hr : r ∉ c4_W) :
    after c4 V (Proc.devRef .tc r) = V (Proc.devRef .tc r) :=
  after_of_writes_sub c4 V c4_writes hr

/-- The buffers stretch `c5` writes, in order. -/
abbrev c5_W : List (Ref sig .tc) :=
  [(main_call4.cst).ref, (main_call4.v0).ref, (main_call4.v1).ref]

theorem c5_writes : (c5 : List (HloOp τ sig (Elt F))).Forall fun op =>
    op.writes ⊆ (c5_W.map (Proc.devRef (τ := τ) .tc)).toFinset :=
  ⟨single_sub_W (y := (main_call4.cst).ref) (by decide),
    single_sub_W (y := (main_call4.v0).ref) (by decide),
    single_sub_W (y := (main_call4.v1).ref) (by decide)⟩

theorem c5_keep (V : Valuation τ sig (Elt F)) {r : Ref sig .tc} (hr : r ∉ c5_W) :
    after c5 V (Proc.devRef .tc r) = V (Proc.devRef .tc r) :=
  after_of_writes_sub c5 V c5_writes hr

/-- The buffers stretch `c6` writes, in order. -/
abbrev c6_W : List (Ref sig .tc) :=
  [main_v132, main_v133, main_v134]

theorem c6_writes : (c6 : List (HloOp τ sig (Elt F))).Forall fun op =>
    op.writes ⊆ (c6_W.map (Proc.devRef (τ := τ) .tc)).toFinset :=
  ⟨single_sub_W (y := main_v132) (by decide),
    single_sub_W (y := main_v133) (by decide),
    single_sub_W (y := main_v134) (by decide)⟩

theorem c6_keep (V : Valuation τ sig (Elt F)) {r : Ref sig .tc} (hr : r ∉ c6_W) :
    after c6 V (Proc.devRef .tc r) = V (Proc.devRef .tc r) :=
  after_of_writes_sub c6 V c6_writes hr

/-! ## The whole line -/

/-- Every buffer the line writes. -/
abbrev ops_W : List (Ref sig .tc) :=
  a0_W ++ (a1_W ++ (a2_W ++ (a3_W ++ (a4_W ++ (a5_W ++ (a6_W ++ (b0_W ++ (b1_W ++ (b2_W ++ (b3_W ++ (b4_W ++ (b5_W ++ (b6_W ++ (c0_W ++ (c1_W ++ (c2_W ++ (c3_W ++ (c4_W ++ (c5_W ++ (c6_W))))))))))))))))))))

/-- The contents after the whole line are the stretches' contents composed, the first stretch innermost. -/
theorem after_ops (V : Valuation τ sig (Elt F)) :
    after ops V = after c6 (after c5 (after c4 (after c3 (after c2 (after c1 (after c0 (after b6 (after b5 (after b4 (after b3 (after b2 (after b1 (after b0 (after a6 (after a5 (after a4 (after a3 (after a2 (after a1 (after a0 (V))))))))))))))))))))) := by
  simp only [ops, ops0, ops1, ops2, after_append]

/-- A buffer the line never writes ends as it began. -/
theorem ops_keep (V : Valuation τ sig (Elt F)) {r : Ref sig .tc} (hr : r ∉ ops_W) :
    after ops V (Proc.devRef .tc r) = V (Proc.devRef .tc r) := by
  simp only [ops_W, List.mem_append, not_or] at hr
  obtain ⟨h0, h1, h2, h3, h4, h5, h6, h7, h8, h9, h10, h11, h12, h13, h14, h15, h16, h17, h18, h19, h20⟩ := hr
  rw [after_ops, c6_keep _ h20, c5_keep _ h19, c4_keep _ h18, c3_keep _ h17, c2_keep _ h16, c1_keep _ h15, c0_keep _ h14, b6_keep _ h13, b5_keep _ h12, b4_keep _ h11, b3_keep _ h10, b2_keep _ h9, b1_keep _ h8, b0_keep _ h7, a6_keep _ h6, a5_keep _ h5, a4_keep _ h4, a3_keep _ h3, a2_keep _ h2, a1_keep _ h1, a0_keep _ h0]

set_option maxRecDepth 8192 in
theorem arg0_eq (V : Valuation τ sig (Elt F)) :
    after ops V (main_arg0 : DevRef τ sig) = V (main_arg0 : DevRef τ sig) :=
  ops_keep V (by decide)

set_option maxRecDepth 8192 in
theorem arg1_eq (V : Valuation τ sig (Elt F)) :
    after ops V (main_arg1 : DevRef τ sig) = V (main_arg1 : DevRef τ sig) :=
  ops_keep V (by decide)

set_option maxRecDepth 8192 in
theorem arg2_eq (V : Valuation τ sig (Elt F)) :
    after ops V (main_arg2 : DevRef τ sig) = V (main_arg2 : DevRef τ sig) :=
  ops_keep V (by decide)

set_option maxRecDepth 8192 in
theorem arg3_eq (V : Valuation τ sig (Elt F)) :
    after ops V (main_arg3 : DevRef τ sig) = V (main_arg3 : DevRef τ sig) :=
  ops_keep V (by decide)

set_option maxRecDepth 8192 in
theorem arg4_eq (V : Valuation τ sig (Elt F)) :
    after ops V (main_arg4 : DevRef τ sig) = V (main_arg4 : DevRef τ sig) :=
  ops_keep V (by decide)

set_option maxRecDepth 8192 in
theorem arg5_eq (V : Valuation τ sig (Elt F)) :
    after ops V (main_arg5 : DevRef τ sig) = V (main_arg5 : DevRef τ sig) :=
  ops_keep V (by decide)

set_option maxRecDepth 8192 in
theorem arg6_eq (V : Valuation τ sig (Elt F)) :
    after ops V (main_arg6 : DevRef τ sig) = V (main_arg6 : DevRef τ sig) :=
  ops_keep V (by decide)

set_option maxRecDepth 8192 in
theorem arg7_eq (V : Valuation τ sig (Elt F)) :
    after ops V (main_arg7 : DevRef τ sig) = V (main_arg7 : DevRef τ sig) :=
  ops_keep V (by decide)

set_option maxRecDepth 8192 in
theorem arg8_eq (V : Valuation τ sig (Elt F)) :
    after ops V (main_arg8 : DevRef τ sig) = V (main_arg8 : DevRef τ sig) :=
  ops_keep V (by decide)

set_option maxRecDepth 8192 in
theorem arg9_eq (V : Valuation τ sig (Elt F)) :
    after ops V (main_arg9 : DevRef τ sig) = V (main_arg9 : DevRef τ sig) :=
  ops_keep V (by decide)

set_option maxRecDepth 8192 in
theorem arg10_eq (V : Valuation τ sig (Elt F)) :
    after ops V (main_arg10 : DevRef τ sig) = V (main_arg10 : DevRef τ sig) :=
  ops_keep V (by decide)

set_option maxRecDepth 8192 in
theorem arg11_eq (V : Valuation τ sig (Elt F)) :
    after ops V (main_arg11 : DevRef τ sig) = V (main_arg11 : DevRef τ sig) :=
  ops_keep V (by decide)

set_option maxRecDepth 8192 in
theorem arg12_eq (V : Valuation τ sig (Elt F)) :
    after ops V (main_arg12 : DevRef τ sig) = V (main_arg12 : DevRef τ sig) :=
  ops_keep V (by decide)

set_option maxRecDepth 8192 in
theorem arg13_eq (V : Valuation τ sig (Elt F)) :
    after ops V (main_arg13 : DevRef τ sig) = V (main_arg13 : DevRef τ sig) :=
  ops_keep V (by decide)

set_option maxRecDepth 8192 in
theorem arg14_eq (V : Valuation τ sig (Elt F)) :
    after ops V (main_arg14 : DevRef τ sig) = V (main_arg14 : DevRef τ sig) :=
  ops_keep V (by decide)

set_option maxRecDepth 8192 in
theorem arg15_eq (V : Valuation τ sig (Elt F)) :
    after ops V (main_arg15 : DevRef τ sig) = V (main_arg15 : DevRef τ sig) :=
  ops_keep V (by decide)

/-! ## The frame -/

/-- The reference program terminates from every memory with zero counters, and its argument arrays end unchanged. -/
theorem frame [Cert.Pre_finite_inputs.Facts] : Cert.frame_ReferenceIdeal := by
  intro m g _
  exact (θ_run defs _ _).mono
    (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_main (F := Ideal) m g)

end Cert.ReferenceIdeal.HandRun

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.LibTransport.lean ====
/-
  A typed reference moves a value between the tensor type it carries and its buffer's own type along the equation between
  the two. Whatever the equation's proof, the moved value is the value: it equals any term of the target type that is
  heterogeneously equal to it — in particular the same term read at the other type when the two types compute to one.
-/
import Idealize.ShloMosaic.Lib.StableHlo

namespace Idealize.ShloMosaic.StableHlo.TRef

variable {sig : RefSig} {Val : EltTy → Type} {T : BufTy}

/-- Contents read through a typed reference are the contents. -/
theorem ofBuf_eq_of_heq (x : TRef sig T) (v : x.ref.ty.Contents Val) (w : T.Contents Val) (h : HEq v w) : x.ofBuf v = w :=
  cast_eq_iff_heq.mpr h

/-- Contents written through a typed reference are the contents. -/
theorem toBuf_eq_of_heq (x : TRef sig T) (w : T.Contents Val) (v : x.ref.ty.Contents Val) (h : HEq w v) : x.toBuf w = v :=
  cast_eq_iff_heq.mpr h

end Idealize.ShloMosaic.StableHlo.TRef
-- ==== Proof.RefTerm.lean ====
/-
  The reference program's result as one term of its sixteen arguments.

  The pieces are whole-array functions: the per-channel batch normalisation of the audio array in two passes (mean; mean
  of squared deviations through the guarded select; subtract, reciprocal square root, scale, shift), the group
  normalisation of the video embedding per batch entry, the softmax over positions, the nearest-neighbour index table,
  the gather along time, the broadcasts over frequency, the maximum with zero. Each stretch of the program's line computes
  one of them from the buffers it reads; a buffer a stretch does not write passes through it. Composing the stretches,
  the result buffer ends at `refOut` of the arguments' launch contents.
-/
import proofs.«118657_j45303315038549_1_alg».proof.Proof.RefFrame
import proofs.«118657_j45303315038549_1_alg».proof.Proof.LibTypedRefs
import proofs.«118657_j45303315038549_1_alg».proof.Proof.LibTransport

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The pieces, as whole-array functions -/

/-- A per-channel vector laid along the channel axis of the shape [1,512,1,1]. -/
def col4 (w : FVec F S512 .f32) : FVec F S1x512x1x1 .f32 :=
  broadcastInDim S1x512x1x1 ![1] bcast_S512_S1x512x1x1_1 w

/-- A [1,512,1,1] array repeated over batch, time and frequency. -/
def up4 (k : FVec F S1x512x1x1 .f32) : FVec F S2x512x256x128 .f32 :=
  broadcastInDim S2x512x256x128 ![0, 1, 2, 3] bcast_S1x512x1x1_S2x512x256x128_0_1_2_3 k

/-- A per-channel vector repeated over batch, time and frequency. -/
def chan4 (w : FVec F S512 .f32) : FVec F S2x512x256x128 .f32 := up4 (col4 w)

/-- The audio array times a per-channel weight. -/
def scaled4 (x : FVec F S2x512x256x128 .f32) (w : FVec F S512 .f32) : FVec F S2x512x256x128 .f32 :=
  mulf x (chan4 w)

/-- The sum over batch, time and frequency, per channel, from zero. -/
def sum4 (y : FVec F S2x512x256x128 .f32) : FVec F S512 .f32 :=
  Host.reduceAdd y (constant S_ .f32 0x00000000#32) reducesTo_S2x512x256x128_S512_d0_2_3 h_S_

/-- The mean over batch, time and frequency, per channel: the sum divided by 65536. -/
def mean4 (y : FVec F S2x512x256x128 .f32) : FVec F S1x512x1x1 .f32 :=
  Host.divf (col4 (sum4 y)) (broadcastInDim S1x512x1x1 ![] bcast_S_S1x512x1x1 (constant S_ .f32 0x47800000#32))

/-- The variance per channel with `ddof` degrees of freedom removed: the squared deviations from the mean summed and
    divided by 65536 − ddof where that count is positive, the quiet not-a-number otherwise. -/
def var4 (y : FVec F S2x512x256x128 .f32) (ddof : IVec S_ 32) : FVec F S1x512x1x1 .f32 :=
  select
    (broadcastInDim S1x512x1x1 ![] bcast_S_S1x512x1x1
      (cmpf (F := F) .ogt (subf (constant S_ .f32 0x47800000#32) (sitofp .f32 ddof)) (constant S_ .f32 0x00000000#32)))
    (Host.divf (col4 (sum4 (mulf (subf y (up4 (mean4 y))) (subf y (up4 (mean4 y))))))
      (broadcastInDim S1x512x1x1 ![] bcast_S_S1x512x1x1 (subf (constant S_ .f32 0x47800000#32) (sitofp .f32 ddof))))
    (broadcastInDim S1x512x1x1 ![] bcast_S_S1x512x1x1 (constant S_ .f32 0x7FC00000#32))

/-- The normalisation given mean and variance: (y − m) · rsqrt(v + 1e-5) · γ + β. -/
def norm4 (y : FVec F S2x512x256x128 .f32) (m v : FVec F S1x512x1x1 .f32) (γ β : FVec F S512 .f32) :
    FVec F S2x512x256x128 .f32 :=
  addf (mulf (mulf (subf y (up4 m))
      (up4 (Host.rsqrt (addf v (broadcastInDim S1x512x1x1 ![] bcast_S_S1x512x1x1 (constant S_ .f32 0x3727C5AC#32))))))
    (chan4 γ)) (chan4 β)

/-- Training-mode batch normalisation of x·w per channel, in two passes. -/
def bn (x : FVec F S2x512x256x128 .f32) (w γ β : FVec F S512 .f32) : FVec F S2x512x256x128 .f32 :=
  norm4 (scaled4 x w) (mean4 (scaled4 x w)) (var4 (scaled4 x w) (constantI S_ 32 0#32)) γ β

/-- A per-channel vector laid along the channel axis of the shape [1,512,1]. -/
def col3 (w : FVec F S512 .f32) : FVec F S1x512x1 .f32 :=
  broadcastInDim S1x512x1 ![1] bcast_S512_S1x512x1_1 w

/-- A per-channel vector repeated over batch and the 64 positions. -/
def chan3 (w : FVec F S512 .f32) : FVec F S2x512x64 .f32 :=
  broadcastInDim S2x512x64 ![0, 1, 2] bcast_S1x512x1_S2x512x64_0_1_2 (col3 w)

/-- The embedding times a per-channel weight plus a per-channel bias. -/
def affine3 (e : FVec F S2x512x64 .f32) (w b : FVec F S512 .f32) : FVec F S2x512x64 .f32 :=
  addf (mulf e (chan3 w)) (chan3 b)

/-- The sum over channels and positions, per batch entry, from zero. -/
def sum3 (z : FVec F S2x512x64 .f32) : FVec F S2 .f32 :=
  Host.reduceAdd z (constant S_ .f32 0x00000000#32) reducesTo_S2x512x64_S2_d1_2 h_S_

/-- A per-batch vector in the shape [2,1,1]. -/
def keep3 (s : FVec F S2 .f32) : FVec F S2x1x1 .f32 :=
  broadcastInDim S2x1x1 ![0] bcast_S2_S2x1x1_0 s

/-- A [2,1,1] array repeated over channels and positions. -/
def up3 (k : FVec F S2x1x1 .f32) : FVec F S2x512x64 .f32 :=
  broadcastInDim S2x512x64 ![0, 1, 2] bcast_S2x1x1_S2x512x64_0_1_2 k

/-- The mean over channels and positions, per batch entry: the sum divided by 32768. -/
def mean3 (z : FVec F S2x512x64 .f32) : FVec F S2x1x1 .f32 :=
  Host.divf (keep3 (sum3 z)) (broadcastInDim S2x1x1 ![] bcast_S_S2x1x1 (constant S_ .f32 0x47000000#32))

/-- The variance per batch entry with `ddof` degrees of freedom removed, guarded as `var4` is, at 32768. -/
def var3 (z : FVec F S2x512x64 .f32) (ddof : IVec S_ 32) : FVec F S2x1x1 .f32 :=
  select
    (broadcastInDim S2x1x1 ![] bcast_S_S2x1x1
      (cmpf (F := F) .ogt (subf (constant S_ .f32 0x47000000#32) (sitofp .f32 ddof)) (constant S_ .f32 0x00000000#32)))
    (Host.divf (keep3 (sum3 (mulf (subf z (up3 (mean3 z))) (subf z (up3 (mean3 z))))))
      (broadcastInDim S2x1x1 ![] bcast_S_S2x1x1 (subf (constant S_ .f32 0x47000000#32) (sitofp .f32 ddof))))
    (broadcastInDim S2x1x1 ![] bcast_S_S2x1x1 (constant S_ .f32 0x7FC00000#32))

/-- The normalisation per batch entry given mean and variance, scaled and shifted per channel. -/
def norm3 (z : FVec F S2x512x64 .f32) (m v : FVec F S2x1x1 .f32) (γ β : FVec F S512 .f32) : FVec F S2x512x64 .f32 :=
  addf (mulf (mulf (subf z (up3 m))
      (up3 (Host.rsqrt (addf v (broadcastInDim S2x1x1 ![] bcast_S_S2x1x1 (constant S_ .f32 0x3727C5AC#32))))))
    (chan3 γ)) (chan3 β)

/-- The group normalisation (one group) of e·w + b per batch entry, scaled by γ and shifted by β per channel. -/
def gnorm (e : FVec F S2x512x64 .f32) (w b γ β : FVec F S512 .f32) : FVec F S2x512x64 .f32 :=
  norm3 (affine3 e w b) (mean3 (affine3 e w b)) (var3 (affine3 e w b) (constantI S_ 32 0#32)) γ β

/-- A [2,512] array repeated over the 64 positions. -/
def last3 (r : FVec F S2x512 .f32) : FVec F S2x512x64 .f32 :=
  broadcastInDim S2x512x64 ![0, 1, 2] bcast_S2x512x1_S2x512x64_0_1_2
    (broadcastInDim S2x512x1 ![0, 1] bcast_S2x512_S2x512x1_0_1 r)

/-- The maximum over the positions (from −∞, and once more against −∞), repeated over the positions. -/
def rowMax (y : FVec F S2x512x64 .f32) : FVec F S2x512x64 .f32 :=
  last3 (maximumf (broadcastInDim S2x512 ![] bcast_S_S2x512 (constant S_ .f32 0xFF800000#32))
    (Host.reduce FloatOps.maximumf y (constant S_ .f32 0xFF800000#32) reducesTo_S2x512x64_S2x512_d2 h_S_))

/-- The exponential of y − mx divided by its sum over the positions. -/
def softmaxFrom (y mx : FVec F S2x512x64 .f32) : FVec F S2x512x64 .f32 :=
  Host.divf (Host.exp (subf y mx))
    (last3 (Host.reduceAdd (Host.exp (subf y mx)) (constant S_ .f32 0x00000000#32) reducesTo_S2x512x64_S2x512_d2 h_S_))

/-- The softmax over the positions, shifted by the maximum. -/
def softmaxLast (y : FVec F S2x512x64 .f32) : FVec F S2x512x64 .f32 := softmaxFrom y (rowMax y)

variable (F) in
/-- floor(i · 0.25) for i < 256, as floats. -/
def idxFloor : FVec F S256 .f32 :=
  Host.floor (mulf (sitofp .f32 (iotaInDim S256 32 0)) (broadcastInDim S256 ![] bcast_S_S256 (constant S_ .f32 0x3E800000#32)))

/-- Those floats as integers, 64 added where negative, as a column. -/
def idxWrap (fl : FVec F S256 .f32) : IVec S256x1 32 :=
  broadcastInDim S256x1 ![0] bcast_S256_S256x1_0
    (select (cmpi .slt (fptosi 32 fl) (broadcastInDim S256 ![] bcast_S_S256 (constantI S_ 32 0#32)))
      (addi (fptosi 32 fl) (broadcastInDim S256 ![] bcast_S_S256 (constantI S_ 32 64#32)))
      (fptosi 32 fl))

variable (F) in
/-- The nearest-neighbour index table: for each of the 256 time steps the position floor(i · 0.25) it reads. -/
def nearestIdx : IVec S256x1 32 := idxWrap (idxFloor F)

/-- The positions gathered along time by an index table. -/
def gatherT (y : FVec F S2x512x64 .f32) (idx : IVec S256x1 32) : FVec F S2x512x256 .f32 :=
  Host.gather gather_S2x512x64_S256x1_S2x512x256_01_2_n_n_2_1_25121 y idx

/-- A trailing unit axis. -/
def unit4 (g : FVec F S2x512x256 .f32) : FVec F S2x512x256x1 .f32 :=
  broadcastInDim S2x512x256x1 ![0, 1, 2] bcast_S2x512x256_S2x512x256x1_0_1_2 g

/-- The unit axis repeated over frequency. -/
def freq4 (g : FVec F S2x512x256x1 .f32) : FVec F S2x512x256x128 .f32 :=
  broadcastInDim S2x512x256x128 ![0, 1, 2, 3] bcast_S2x512x256x1_S2x512x256x128_0_1_2_3 g

/-- A [2,512,256] array repeated over frequency. -/
def spread (g : FVec F S2x512x256 .f32) : FVec F S2x512x256x128 .f32 := freq4 (unit4 g)

/-- The maximum with zero. -/
def relu (y : FVec F S2x512x256x128 .f32) : FVec F S2x512x256x128 .f32 :=
  maximumf y (broadcastInDim S2x512x256x128 ![] bcast_S_S2x512x256x128 (constant S_ .f32 0x00000000#32))

/-- The reference's result from its sixteen arguments: the softmax of the attention branch resized along time times
    the normalised value branch, plus the rectified normalised gate branch times the residual branch resized. -/
def refOut (x : FVec F S2x512x256x128 .f32) (e : FVec F S2x512x64 .f32)
    (vw vγ vβ gw gγ gβ aw ab aγ aβ rw rb rγ rβ : FVec F S512 .f32) : FVec F S2x512x256x128 .f32 :=
  addf (mulf (spread (gatherT (softmaxLast (gnorm e aw ab aγ aβ)) (nearestIdx F))) (bn x vw vγ vβ))
    (mulf (relu (bn x gw gγ gβ)) (spread (gatherT (gnorm e rw rb rγ rβ) (nearestIdx F))))

/-! ## What each stretch computes -/

attribute [local irreducible] Host.reduceAdd Host.reduce Host.gather in
set_option maxRecDepth 8192 in
set_option maxHeartbeats 1000000 in
theorem a0_v2 (V : Valuation τ sig (Elt F)) :
    after a0 V (main_v2 : DevRef τ sig) = scaled4 (V (main_arg0 : DevRef τ sig)) (V (main_arg2 : DevRef τ sig)) := by
  after_results_simp <;> rfl

attribute [local irreducible] Host.reduceAdd Host.reduce Host.gather in
set_option maxRecDepth 8192 in
set_option maxHeartbeats 1000000 in
theorem a0_v6 (V : Valuation τ sig (Elt F)) :
    after a0 V (main_v6 : DevRef τ sig) = mean4 (scaled4 (V (main_arg0 : DevRef τ sig)) (V (main_arg2 : DevRef τ sig))) := by
  after_results_simp <;> rfl

attribute [local irreducible] Host.reduceAdd Host.reduce Host.gather in
set_option maxRecDepth 8192 in
set_option maxHeartbeats 1000000 in
theorem a0_c (V : Valuation τ sig (Elt F)) :
    after a0 V (main_c : DevRef τ sig) = constantI S_ 32 0#32 := by
  after_results_simp <;> rfl

attribute [local irreducible] Host.reduceAdd Host.reduce Host.gather in
set_option maxRecDepth 8192 in
set_option maxHeartbeats 1000000 in
theorem a1_v7 (V : Valuation τ sig (Elt F)) :
    after a1 V (main_v7 : DevRef τ sig) = var4 (V (main_v2 : DevRef τ sig)) (V (main_c : DevRef τ sig)) := by
  after_results_simp <;> rfl

attribute [local irreducible] Host.reduceAdd Host.reduce Host.gather in
set_option maxRecDepth 8192 in
set_option maxHeartbeats 1000000 in
theorem a2_v20 (V : Valuation τ sig (Elt F)) :
    after a2 V (main_v20 : DevRef τ sig) = norm4 (V (main_v2 : DevRef τ sig)) (V (main_v6 : DevRef τ sig)) (V (main_v7 : DevRef τ sig)) (V (main_arg3 : DevRef τ sig)) (V (main_arg4 : DevRef τ sig)) := by
  after_results_simp <;> rfl

attribute [local irreducible] Host.reduceAdd Host.reduce Host.gather in
set_option maxRecDepth 8192 in
set_option maxHeartbeats 1000000 in
theorem a3_v26 (V : Valuation τ sig (Elt F)) :
    after a3 V (main_v26 : DevRef τ sig) = affine3 (V (main_arg1 : DevRef τ sig)) (V (main_arg8 : DevRef τ sig)) (V (main_arg9 : DevRef τ sig)) := by
  after_results_simp <;> rfl

attribute [local irreducible] Host.reduceAdd Host.reduce Host.gather in
set_option maxRecDepth 8192 in
set_option maxHeartbeats 1000000 in
theorem a3_v30 (V : Valuation τ sig (Elt F)) :
    after a3 V (main_v30 : DevRef τ sig) = mean3 (affine3 (V (main_arg1 : DevRef τ sig)) (V (main_arg8 : DevRef τ sig)) (V (main_arg9 : DevRef τ sig))) := by
  after_results_simp <;> rfl

attribute [local irreducible] Host.reduceAdd Host.reduce Host.gather in
set_option maxRecDepth 8192 in
set_option maxHeartbeats 1000000 in
theorem a3_c4 (V : Valuation τ sig (Elt F)) :
    after a3 V (main_c_4 : DevRef τ sig) = constantI S_ 32 0#32 := by
  after_results_simp <;> rfl

attribute [local irreducible] Host.reduceAdd Host.reduce Host.gather in
set_option maxRecDepth 8192 in
set_option maxHeartbeats 1000000 in
theorem a4_v31 (V : Valuation τ sig (Elt F)) :
    after a4 V (main_v31 : DevRef τ sig) = var3 (V (main_v26 : DevRef τ sig)) (V (main_c_4 : DevRef τ sig)) := by
  after_results_simp <;> rfl

attribute [local irreducible] Host.reduceAdd Host.reduce Host.gather in
set_option maxRecDepth 8192 in
set_option maxHeartbeats 1000000 in
theorem a5_v44 (V : Valuation τ sig (Elt F)) :
    after a5 V (main_v44 : DevRef τ sig) = norm3 (V (main_v26 : DevRef τ sig)) (V (main_v30 : DevRef τ sig)) (V (main_v31 : DevRef τ sig)) (V (main_arg10 : DevRef τ sig)) (V (main_arg11 : DevRef τ sig)) := by
  after_results_simp <;> rfl

attribute [local irreducible] Host.reduceAdd Host.reduce Host.gather in
set_option maxRecDepth 8192 in
set_option maxHeartbeats 1000000 in
theorem a6_v49 (V : Valuation τ sig (Elt F)) :
    after a6 V (main_v49 : DevRef τ sig) = rowMax (V (main_v44 : DevRef τ sig)) := by
  after_results_simp <;> rfl

attribute [local irreducible] Host.reduceAdd Host.reduce Host.gather in
set_option maxRecDepth 8192 in
set_option maxHeartbeats 1000000 in
theorem b0_v55 (V : Valuation τ sig (Elt F)) :
    after b0 V (main_v55 : DevRef τ sig) = softmaxFrom (V (main_v44 : DevRef τ sig)) (V (main_v49 : DevRef τ sig)) := by
  after_results_simp <;> rfl

attribute [local irreducible] Host.reduceAdd Host.reduce Host.gather in
set_option maxRecDepth 8192 in
set_option maxHeartbeats 1000000 in
theorem b1_v67 (V : Valuation τ sig (Elt F)) :
    after b1 V (main_v67 : DevRef τ sig) = nearestIdx F := by
  after_results_simp <;> rfl

attribute [local irreducible] Host.reduceAdd Host.reduce Host.gather in
set_option maxRecDepth 8192 in
set_option maxHeartbeats 1000000 in
theorem b2_v71 (V : Valuation τ sig (Elt F)) :
    after b2 V (main_v71 : DevRef τ sig) = mulf (spread (gatherT (V (main_v55 : DevRef τ sig)) (V (main_v67 : DevRef τ sig)))) (V (main_v20 : DevRef τ sig)) := by
  after_results_simp <;> rfl

attribute [local irreducible] Host.reduceAdd Host.reduce Host.gather in
set_option maxRecDepth 8192 in
set_option maxHeartbeats 1000000 in
theorem b3_v77 (V : Valuation τ sig (Elt F)) :
    after b3 V (main_v77 : DevRef τ sig) = affine3 (V (main_arg1 : DevRef τ sig)) (V (main_arg12 : DevRef τ sig)) (V (main_arg13 : DevRef τ sig)) := by
  after_results_simp <;> rfl

attribute [local irreducible] Host.reduceAdd Host.reduce Host.gather in
set_option maxRecDepth 8192 in
set_option maxHeartbeats 1000000 in
theorem b3_v81 (V : Valuation τ sig (Elt F)) :
    after b3 V (main_v81 : DevRef τ sig) = mean3 (affine3 (V (main_arg1 : DevRef τ sig)) (V (main_arg12 : DevRef τ sig)) (V (main_arg13 : DevRef τ sig))) := by
  after_results_simp <;> rfl

attribute [local irreducible] Host.reduceAdd Host.reduce Host.gather in
set_option maxRecDepth 8192 in
set_option maxHeartbeats 1000000 in
theorem b3_c14 (V : Valuation τ sig (Elt F)) :
    after b3 V (main_c_14 : DevRef τ sig) = constantI S_ 32 0#32 := by
  after_results_simp <;> rfl

attribute [local irreducible] Host.reduceAdd Host.reduce Host.gather in
set_option maxRecDepth 8192 in
set_option maxHeartbeats 1000000 in
theorem b4_v82 (V : Valuation τ sig (Elt F)) :
    after b4 V (main_v82 : DevRef τ sig) = var3 (V (main_v77 : DevRef τ sig)) (V (main_c_14 : DevRef τ sig)) := by
  after_results_simp <;> rfl

attribute [local irreducible] Host.reduceAdd Host.reduce Host.gather in
set_option maxRecDepth 8192 in
set_option maxHeartbeats 1000000 in
theorem b5_v95 (V : Valuation τ sig (Elt F)) :
    after b5 V (main_v95 : DevRef τ sig) = norm3 (V (main_v77 : DevRef τ sig)) (V (main_v81 : DevRef τ sig)) (V (main_v82 : DevRef τ sig)) (V (main_arg14 : DevRef τ sig)) (V (main_arg15 : DevRef τ sig)) := by
  after_results_simp <;> rfl

attribute [local irreducible] Host.reduceAdd Host.reduce Host.gather in
set_option maxRecDepth 8192 in
set_option maxHeartbeats 1000000 in
theorem b6_v100 (V : Valuation τ sig (Elt F)) :
    after b6 V (main_v100 : DevRef τ sig) = idxFloor F := by
  after_results_simp <;> rfl

attribute [local irreducible] Host.reduceAdd Host.reduce Host.gather in
set_option maxRecDepth 8192 in
set_option maxHeartbeats 1000000 in
theorem c0_v107 (V : Valuation τ sig (Elt F)) :
    after c0 V (main_v107 : DevRef τ sig) = idxWrap (V (main_v100 : DevRef τ sig)) := by
  after_results_simp <;> rfl

attribute [local irreducible] Host.reduceAdd Host.reduce Host.gather in
set_option maxRecDepth 8192 in
set_option maxHeartbeats 1000000 in
theorem c1_v109 (V : Valuation τ sig (Elt F)) :
    after c1 V (main_v109 : DevRef τ sig) = unit4 (gatherT (V (main_v95 : DevRef τ sig)) (V (main_v107 : DevRef τ sig))) := by
  after_results_simp <;> rfl

attribute [local irreducible] Host.reduceAdd Host.reduce Host.gather in
set_option maxRecDepth 8192 in
set_option maxHeartbeats 1000000 in
theorem c2_v112 (V : Valuation τ sig (Elt F)) :
    after c2 V (main_v112 : DevRef τ sig) = scaled4 (V (main_arg0 : DevRef τ sig)) (V (main_arg5 : DevRef τ sig)) := by
  after_results_simp <;> rfl

attribute [local irreducible] Host.reduceAdd Host.reduce Host.gather in
set_option maxRecDepth 8192 in
set_option maxHeartbeats 1000000 in
theorem c2_v116 (V : Valuation τ sig (Elt F)) :
    after c2 V (main_v116 : DevRef τ sig) = mean4 (scaled4 (V (main_arg0 : DevRef τ sig)) (V (main_arg5 : DevRef τ sig))) := by
  after_results_simp <;> rfl

attribute [local irreducible] Host.reduceAdd Host.reduce Host.gather in
set_option maxRecDepth 8192 in
set_option maxHeartbeats 1000000 in
theorem c2_c21 (V : Valuation τ sig (Elt F)) :
    after c2 V (main_c_21 : DevRef τ sig) = constantI S_ 32 0#32 := by
  after_results_simp <;> rfl

attribute [local irreducible] Host.reduceAdd Host.reduce Host.gather in
set_option maxRecDepth 8192 in
set_option maxHeartbeats 1000000 in
theorem c3_v117 (V : Valuation τ sig (Elt F)) :
    after c3 V (main_v117 : DevRef τ sig) = var4 (V (main_v112 : DevRef τ sig)) (V (main_c_21 : DevRef τ sig)) := by
  after_results_simp <;> rfl

attribute [local irreducible] Host.reduceAdd Host.reduce Host.gather in
set_option maxRecDepth 8192 in
set_option maxHeartbeats 1000000 in
theorem c4_v130 (V : Valuation τ sig (Elt F)) :
    after c4 V (main_v130 : DevRef τ sig) = norm4 (V (main_v112 : DevRef τ sig)) (V (main_v116 : DevRef τ sig)) (V (main_v117 : DevRef τ sig)) (V (main_arg6 : DevRef τ sig)) (V (main_arg7 : DevRef τ sig)) := by
  after_results_simp <;> rfl

attribute [local irreducible] Host.reduceAdd Host.reduce Host.gather in
set_option maxRecDepth 8192 in
set_option maxHeartbeats 1000000 in
theorem c5_v131 (V : Valuation τ sig (Elt F)) :
    after c5 V (main_v131 : DevRef τ sig) = relu (V (main_v130 : DevRef τ sig)) := by
  after_results_simp <;> rfl

attribute [local irreducible] Host.reduceAdd Host.reduce Host.gather in
set_option maxRecDepth 8192 in
set_option maxHeartbeats 1000000 in
theorem c6_v134 (V : Valuation τ sig (Elt F)) :
    after c6 V (main_v134 : DevRef τ sig) = addf (V (main_v71 : DevRef τ sig)) (mulf (V (main_v131 : DevRef τ sig)) (freq4 (V (main_v109 : DevRef τ sig)))) := by
  after_results_simp <;> rfl

/-! ## The result -/

set_option maxRecDepth 8192 in
set_option maxHeartbeats 4000000 in
/-- The result buffer after the whole line is `refOut` of the arguments' contents before it: reading back from the last
    stretch to the first, each buffer read is either what its stretch computes from earlier buffers or, where the stretch
    does not write it, what it held before the stretch. -/
theorem out_eq (V : Valuation τ sig (Elt F)) :
    after ops V (main_v134 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_ops]
  rw [c6_v134]
  rw [c5_keep _ (r := main_v71) (by decide),
    c5_v131,
    c5_keep _ (r := main_v109) (by decide)]
  rw [c4_keep _ (r := main_v71) (by decide),
    c4_v130,
    c4_keep _ (r := main_v109) (by decide)]
  rw [c3_keep _ (r := main_v71) (by decide),
    c3_keep _ (r := main_v112) (by decide),
    c3_keep _ (r := main_v116) (by decide),
    c3_v117,
    c3_keep _ (r := main_arg6) (by decide),
    c3_keep _ (r := main_arg7) (by decide),
    c3_keep _ (r := main_v109) (by decide)]
  rw [c2_keep _ (r := main_v71) (by decide),
    c2_v112,
    c2_v116,
    c2_c21,
    c2_keep _ (r := main_arg6) (by decide),
    c2_keep _ (r := main_arg7) (by decide),
    c2_keep _ (r := main_v109) (by decide)]
  rw [c1_keep _ (r := main_v71) (by decide),
    c1_keep _ (r := main_arg0) (by decide),
    c1_keep _ (r := main_arg5) (by decide),
    c1_keep _ (r := main_arg6) (by decide),
    c1_keep _ (r := main_arg7) (by decide),
    c1_v109]
  rw [c0_keep _ (r := main_v71) (by decide),
    c0_keep _ (r := main_arg0) (by decide),
    c0_keep _ (r := main_arg5) (by decide),
    c0_keep _ (r := main_arg6) (by decide),
    c0_keep _ (r := main_arg7) (by decide),
    c0_keep _ (r := main_v95) (by decide),
    c0_v107]
  rw [b6_keep _ (r := main_v71) (by decide),
    b6_keep _ (r := main_arg0) (by decide),
    b6_keep _ (r := main_arg5) (by decide),
    b6_keep _ (r := main_arg6) (by decide),
    b6_keep _ (r := main_arg7) (by decide),
    b6_keep _ (r := main_v95) (by decide),
    b6_v100]
  rw [b5_keep _ (r := main_v71) (by decide),
    b5_keep _ (r := main_arg0) (by decide),
    b5_keep _ (r := main_arg5) (by decide),
    b5_keep _ (r := main_arg6) (by decide),
    b5_keep _ (r := main_arg7) (by decide),
    b5_v95]
  rw [b4_keep _ (r := main_v71) (by decide),
    b4_keep _ (r := main_arg0) (by decide),
    b4_keep _ (r := main_arg5) (by decide),
    b4_keep _ (r := main_arg6) (by decide),
    b4_keep _ (r := main_arg7) (by decide),
    b4_keep _ (r := main_v77) (by decide),
    b4_keep _ (r := main_v81) (by decide),
    b4_v82,
    b4_keep _ (r := main_arg14) (by decide),
    b4_keep _ (r := main_arg15) (by decide)]
  rw [b3_keep _ (r := main_v71) (by decide),
    b3_keep _ (r := main_arg0) (by decide),
    b3_keep _ (r := main_arg5) (by decide),
    b3_keep _ (r := main_arg6) (by decide),
    b3_keep _ (r := main_arg7) (by decide),
    b3_v77,
    b3_v81,
    b3_c14,
    b3_keep _ (r := main_arg14) (by decide),
    b3_keep _ (r := main_arg15) (by decide)]
  rw [b2_v71,
    b2_keep _ (r := main_arg0) (by decide),
    b2_keep _ (r := main_arg5) (by decide),
    b2_keep _ (r := main_arg6) (by decide),
    b2_keep _ (r := main_arg7) (by decide),
    b2_keep _ (r := main_arg1) (by decide),
    b2_keep _ (r := main_arg12) (by decide),
    b2_keep _ (r := main_arg13) (by decide),
    b2_keep _ (r := main_arg14) (by decide),
    b2_keep _ (r := main_arg15) (by decide)]
  rw [b1_keep _ (r := main_v55) (by decide),
    b1_v67,
    b1_keep _ (r := main_v20) (by decide),
    b1_keep _ (r := main_arg0) (by decide),
    b1_keep _ (r := main_arg5) (by decide),
    b1_keep _ (r := main_arg6) (by decide),
    b1_keep _ (r := main_arg7) (by decide),
    b1_keep _ (r := main_arg1) (by decide),
    b1_keep _ (r := main_arg12) (by decide),
    b1_keep _ (r := main_arg13) (by decide),
    b1_keep _ (r := main_arg14) (by decide),
    b1_keep _ (r := main_arg15) (by decide)]
  rw [b0_v55,
    b0_keep _ (r := main_v20) (by decide),
    b0_keep _ (r := main_arg0) (by decide),
    b0_keep _ (r := main_arg5) (by decide),
    b0_keep _ (r := main_arg6) (by decide),
    b0_keep _ (r := main_arg7) (by decide),
    b0_keep _ (r := main_arg1) (by decide),
    b0_keep _ (r := main_arg12) (by decide),
    b0_keep _ (r := main_arg13) (by decide),
    b0_keep _ (r := main_arg14) (by decide),
    b0_keep _ (r := main_arg15) (by decide)]
  rw [a6_keep _ (r := main_v44) (by decide),
    a6_v49,
    a6_keep _ (r := main_v20) (by decide),
    a6_keep _ (r := main_arg0) (by decide),
    a6_keep _ (r := main_arg5) (by decide),
    a6_keep _ (r := main_arg6) (by decide),
    a6_keep _ (r := main_arg7) (by decide),
    a6_keep _ (r := main_arg1) (by decide),
    a6_keep _ (r := main_arg12) (by decide),
    a6_keep _ (r := main_arg13) (by decide),
    a6_keep _ (r := main_arg14) (by decide),
    a6_keep _ (r := main_arg15) (by decide)]
  rw [a5_v44,
    a5_keep _ (r := main_v20) (by decide),
    a5_keep _ (r := main_arg0) (by decide),
    a5_keep _ (r := main_arg5) (by decide),
    a5_keep _ (r := main_arg6) (by decide),
    a5_keep _ (r := main_arg7) (by decide),
    a5_keep _ (r := main_arg1) (by decide),
    a5_keep _ (r := main_arg12) (by decide),
    a5_keep _ (r := main_arg13) (by decide),
    a5_keep _ (r := main_arg14) (by decide),
    a5_keep _ (r := main_arg15) (by decide)]
  rw [a4_keep _ (r := main_v26) (by decide),
    a4_keep _ (r := main_v30) (by decide),
    a4_v31,
    a4_keep _ (r := main_arg10) (by decide),
    a4_keep _ (r := main_arg11) (by decide),
    a4_keep _ (r := main_v20) (by decide),
    a4_keep _ (r := main_arg0) (by decide),
    a4_keep _ (r := main_arg5) (by decide),
    a4_keep _ (r := main_arg6) (by decide),
    a4_keep _ (r := main_arg7) (by decide),
    a4_keep _ (r := main_arg1) (by decide),
    a4_keep _ (r := main_arg12) (by decide),
    a4_keep _ (r := main_arg13) (by decide),
    a4_keep _ (r := main_arg14) (by decide),
    a4_keep _ (r := main_arg15) (by decide)]
  rw [a3_v26,
    a3_v30,
    a3_c4,
    a3_keep _ (r := main_arg10) (by decide),
    a3_keep _ (r := main_arg11) (by decide),
    a3_keep _ (r := main_v20) (by decide),
    a3_keep _ (r := main_arg0) (by decide),
    a3_keep _ (r := main_arg5) (by decide),
    a3_keep _ (r := main_arg6) (by decide),
    a3_keep _ (r := main_arg7) (by decide),
    a3_keep _ (r := main_arg1) (by decide),
    a3_keep _ (r := main_arg12) (by decide),
    a3_keep _ (r := main_arg13) (by decide),
    a3_keep _ (r := main_arg14) (by decide),
    a3_keep _ (r := main_arg15) (by decide)]
  rw [a2_keep _ (r := main_arg1) (by decide),
    a2_keep _ (r := main_arg8) (by decide),
    a2_keep _ (r := main_arg9) (by decide),
    a2_keep _ (r := main_arg10) (by decide),
    a2_keep _ (r := main_arg11) (by decide),
    a2_v20,
    a2_keep _ (r := main_arg0) (by decide),
    a2_keep _ (r := main_arg5) (by decide),
    a2_keep _ (r := main_arg6) (by decide),
    a2_keep _ (r := main_arg7) (by decide),
    a2_keep _ (r := main_arg12) (by decide),
    a2_keep _ (r := main_arg13) (by decide),
    a2_keep _ (r := main_arg14) (by decide),
    a2_keep _ (r := main_arg15) (by decide)]
  rw [a1_keep _ (r := main_arg1) (by decide),
    a1_keep _ (r := main_arg8) (by decide),
    a1_keep _ (r := main_arg9) (by decide),
    a1_keep _ (r := main_arg10) (by decide),
    a1_keep _ (r := main_arg11) (by decide),
    a1_keep _ (r := main_v2) (by decide),
    a1_keep _ (r := main_v6) (by decide),
    a1_v7,
    a1_keep _ (r := main_arg3) (by decide),
    a1_keep _ (r := main_arg4) (by decide),
    a1_keep _ (r := main_arg0) (by decide),
    a1_keep _ (r := main_arg5) (by decide),
    a1_keep _ (r := main_arg6) (by decide),
    a1_keep _ (r := main_arg7) (by decide),
    a1_keep _ (r := main_arg12) (by decide),
    a1_keep _ (r := main_arg13) (by decide),
    a1_keep _ (r := main_arg14) (by decide),
    a1_keep _ (r := main_arg15) (by decide)]
  rw [a0_keep _ (r := main_arg1) (by decide),
    a0_keep _ (r := main_arg8) (by decide),
    a0_keep _ (r := main_arg9) (by decide),
    a0_keep _ (r := main_arg10) (by decide),
    a0_keep _ (r := main_arg11) (by decide),
    a0_v2,
    a0_v6,
    a0_c,
    a0_keep _ (r := main_arg3) (by decide),
    a0_keep _ (r := main_arg4) (by decide),
    a0_keep _ (r := main_arg0) (by decide),
    a0_keep _ (r := main_arg5) (by decide),
    a0_keep _ (r := main_arg6) (by decide),
    a0_keep _ (r := main_arg7) (by decide),
    a0_keep _ (r := main_arg12) (by decide),
    a0_keep _ (r := main_arg13) (by decide),
    a0_keep _ (r := main_arg14) (by decide),
    a0_keep _ (r := main_arg15) (by decide)]
  rfl

/-- From any memory with zero counters, at the ideal instance: the reference terminates with its result at `refOut`
    of the arguments' contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v134)
        = refOut (F := Ideal) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono
    (fun _ h c => ⟨(h c main_v134).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_main (F := Ideal) m ρ)

end Cert.ReferenceIdeal.HandRun

end
-- ==== Proof.BridgeRef.lean ====
/-
  The reference's result read at an entry.

  The result is  att · bn_value + relu (bn_gate) · vid,  the attention and video arrays being per (batch, channel, frame)
  and broadcast along frequency.  At entry (b, c, t, f) the broadcast reads the per-frame array at (b, c, t, 0), and the
  rectifier is the maximum with zero.
-/
import proofs.«118657_j45303315038549_1_alg».proof.Proof.RefTerm
import Idealize.ShloMosaic.Lib.Pipeline.Value
import Idealize.ShloMosaic.Lib.ValueIdx
import Idealize.ShloMosaic.PureOps.Ideal.Laws

set_option maxRecDepth 16384

noncomputable section

namespace Cert.ReferenceIdeal.HandRun

open Idealize.ShloMosaic Idealize.ShloMosaic.TcCoe Idealize.ShloMosaic.ValueIdx
open Cert.ReferenceIdeal Cert.ReferenceIdeal.Gen

/-- A per-frame array broadcast along frequency reads its frame's entry. -/
theorem freq4_apply (g : FVec Ideal S2x512x256x1 .f32) (b : Fin 2) (c : Fin 512) (t : Fin 256) (f : Fin 128) :
    freq4 (F := Ideal) g (ix4 b c t f) = g (ix4 b c t (0 : Fin 1)) := by
  unfold freq4
  exact broadcastInDim_apply _ _ g (ix4 b c t f) (ix4 b c t (0 : Fin 1)) (by
    intro a
    match a with
    | ⟨0, _⟩ => rfl
    | ⟨1, _⟩ => rfl
    | ⟨2, _⟩ => rfl
    | ⟨3, _⟩ => rfl)

/-- The rectifier at an entry is the maximum with zero. -/
theorem relu_apply (y : FVec Ideal S2x512x256x128 .f32) (i : S2x512x256x128.Idx) :
    relu (F := Ideal) y i = max (y i) 0 := by
  unfold relu
  show max (y i) (Ideal.ofBits .f32 0x00000000#32) = _
  rw [Ideal.ofBits_zero_f32]

/-- The reference's result at an entry. -/
theorem refOut_apply (x : FVec Ideal S2x512x256x128 .f32) (e : FVec Ideal S2x512x64 .f32)
    (vw vγ vβ gw gγ gβ aw ab aγ aβ rw rb rγ rβ : FVec Ideal S512 .f32) (b : Fin 2) (c : Fin 512) (t : Fin 256) (f : Fin 128) :
    refOut (F := Ideal) x e vw vγ vβ gw gγ gβ aw ab aγ aβ rw rb rγ rβ (ix4 b c t f)
      = unit4 (F := Ideal) (gatherT (softmaxLast (gnorm e aw ab aγ aβ)) (nearestIdx Ideal)) (ix4 b c t (0 : Fin 1))
          * bn (F := Ideal) x vw vγ vβ (ix4 b c t f)
        + max (bn (F := Ideal) x gw gγ gβ (ix4 b c t f)) 0
          * unit4 (F := Ideal) (gatherT (gnorm e rw rb rγ rβ) (nearestIdx Ideal)) (ix4 b c t (0 : Fin 1)) := by
  unfold refOut spread
  show freq4 (F := Ideal) _ (ix4 b c t f) * _ + relu (F := Ideal) _ (ix4 b c t f) * freq4 (F := Ideal) _ (ix4 b c t f) = _
  rw [freq4_apply, freq4_apply, relu_apply]

end Cert.ReferenceIdeal.HandRun

end
-- ==== Proof.Combine.lean ====
/-
  The second region, read as values: the fused combine.

  At every time block of sixteen the body loads the audio block x, the four per-channel vectors (scale and shift of the
  value branch, scale and shift of the gate branch: one number per channel, stored as [1,512,1,1]) and the two per-frame
  arrays (attention and resized video, one number per batch, channel and frame: [2,512,16,1]), and stores
        att · (x · sv + hv) + max (x · sg + hg, 0) · vi .
  The per-channel vectors are broadcast along batch, frame and frequency, the per-frame arrays along frequency.  The sixteen
  time blocks tile the time axis, so after the region the whole result array is that one expression of the arrays the
  region found, index by index: entry (b, c, t, f) reads the audio at (b, c, t, f), the channel vectors at c and the
  per-frame arrays at (b, c, t).
-/
import proofs.«118657_j45303315038549_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Combine

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The combine, index by index, of whole arrays: audio `x`, the four channel vectors, attention and video per frame. -/
def combine (x : S2x512x256x128.Idx → EReal) (sv hv sg hg : S1x512x1x1.Idx → EReal)
    (att vi : S2x512x256x1.Idx → EReal) : S2x512x256x128.Idx → EReal := fun i =>
  att (ix4 (i 0) (i 1) (i 2) (0 : Fin 1))
      * (x i * sv (ix4 (0 : Fin 1) (i 1) (0 : Fin 1) (0 : Fin 1)) + hv (ix4 (0 : Fin 1) (i 1) (0 : Fin 1) (0 : Fin 1)))
    + max (x i * sg (ix4 (0 : Fin 1) (i 1) (0 : Fin 1) (0 : Fin 1)) + hg (ix4 (0 : Fin 1) (i 1) (0 : Fin 1) (0 : Fin 1))) 0
      * vi (ix4 (i 0) (i 1) (i 2) (0 : Fin 1))

theorem zero_offsets : (![0, 0, 0, 0] : Fin 4 → Nat) = fun _ => 0 := funext fun a => by fin_cases a <;> rfl

/-- A channel vector broadcast to the block reads its channel's entry. -/
theorem channel_broadcast (x : Vec Ideal S1x512x1x1 .f32) (b : Fin 2) (c : Fin 512) (t : Fin 16) (f : Fin 128) :
    broadcastTo S2x512x16x128 x broadcasts_S1x512x1x1_S2x512x16x128 (ix4 b c t f)
      = x (ix4 (0 : Fin 1) c (0 : Fin 1) (0 : Fin 1)) :=
  broadcastTo_apply x _ _ _ (by
    intro a
    match a with
    | ⟨0, _⟩ => rfl
    | ⟨1, _⟩ => rfl
    | ⟨2, _⟩ => rfl
    | ⟨3, _⟩ => rfl)

/-- A per-frame array broadcast along frequency reads its frame's entry. -/
theorem frame_broadcast (x : Vec Ideal S2x512x16x1 .f32) (b : Fin 2) (c : Fin 512) (t : Fin 16) (f : Fin 128) :
    broadcastTo S2x512x16x128 x broadcasts_S2x512x16x1_S2x512x16x128 (ix4 b c t f) = x (ix4 b c t (0 : Fin 1)) :=
  broadcastTo_apply x _ _ _ (by
    intro a
    match a with
    | ⟨0, _⟩ => rfl
    | ⟨1, _⟩ => rfl
    | ⟨2, _⟩ => rfl
    | ⟨3, _⟩ => rfl)

/-- The stored value at an entry of the block. -/
theorem payload_apply (x0 : Vec Ideal S2x512x16x128 .f32) (x1 x2 x3 x4 : Vec Ideal S1x512x1x1 .f32)
    (x5 x6 : Vec Ideal S2x512x16x1 .f32) (b : Fin 2) (c : Fin 512) (t : Fin 16) (f : Fin 128) :
    k1_pay1 x0 x1 x2 x3 x4 x5 x6 (ix4 b c t f)
      = x5 (ix4 b c t (0 : Fin 1))
          * (x0 (ix4 b c t f) * x1 (ix4 (0 : Fin 1) c (0 : Fin 1) (0 : Fin 1)) + x2 (ix4 (0 : Fin 1) c (0 : Fin 1) (0 : Fin 1)))
        + max (x0 (ix4 b c t f) * x3 (ix4 (0 : Fin 1) c (0 : Fin 1) (0 : Fin 1)) + x4 (ix4 (0 : Fin 1) c (0 : Fin 1) (0 : Fin 1))) 0
          * x6 (ix4 b c t (0 : Fin 1)) := by
  unfold k1_pay1
  simp only [shapeCast_self]
  show broadcastTo S2x512x16x128 x5 broadcasts_S2x512x16x1_S2x512x16x128 (ix4 b c t f)
        * (x0 (ix4 b c t f) * broadcastTo S2x512x16x128 x1 broadcasts_S1x512x1x1_S2x512x16x128 (ix4 b c t f)
            + broadcastTo S2x512x16x128 x2 broadcasts_S1x512x1x1_S2x512x16x128 (ix4 b c t f))
      + max (x0 (ix4 b c t f) * broadcastTo S2x512x16x128 x3 broadcasts_S1x512x1x1_S2x512x16x128 (ix4 b c t f)
            + broadcastTo S2x512x16x128 x4 broadcasts_S1x512x1x1_S2x512x16x128 (ix4 b c t f)) (Ideal.ofBits .f32 0x00000000#32)
        * broadcastTo S2x512x16x128 x6 broadcasts_S2x512x16x1_S2x512x16x128 (ix4 b c t f) = _
  rw [channel_broadcast, channel_broadcast, channel_broadcast, channel_broadcast, frame_broadcast, frame_broadcast,
    Ideal.ofBits_zero_f32]

/-- The output buffer after the body is the stored value: the one store covers the block, each load reads a whole buffer. -/
theorem out_eq (x0 : Vec Ideal S2x512x16x128 .f32) (x1 x2 x3 x4 : Vec Ideal S1x512x1x1 .f32) (x5 x6 : Vec Ideal S2x512x16x1 .f32) :
    out1_7 x0 x1 x2 x3 x4 x5 x6 = k1_pay1 x0 x1 x2 x3 x4 x5 x6 := by
  unfold out1_7
  rw [View.canon_unit_zero zero_offsets]
  simp only [View.ld_unit_zero (S := S2x512x16x128) zero_offsets, View.ld_unit_zero (S := S1x512x1x1) zero_offsets,
    View.ld_unit_zero (S := S2x512x16x1) zero_offsets]

/-! ## From the blocks to the array -/

section Region

variable (V : (c : Dev nD) → (b : Ref sig .tc) → Buf (Elt Ideal) ((c : Thread nD τ).loc b))

/-- The printed index maps over the grid: the audio, the two per-frame arrays and the result move along the time axis with
    the grid point; the four channel vectors stay at their one block. -/
theorem index_facts : ∀ t : Fin cfg1.N,
    win1_0.index t (0 : Fin 4) = 0 ∧ win1_0.index t (1 : Fin 4) = 0 ∧ win1_0.index t (2 : Fin 4) = t.val ∧ win1_0.index t (3 : Fin 4) = 0
    ∧ win1_1.index t (0 : Fin 4) = 0 ∧ win1_1.index t (1 : Fin 4) = 0 ∧ win1_1.index t (2 : Fin 4) = 0 ∧ win1_1.index t (3 : Fin 4) = 0
    ∧ win1_2.index t (0 : Fin 4) = 0 ∧ win1_2.index t (1 : Fin 4) = 0 ∧ win1_2.index t (2 : Fin 4) = 0 ∧ win1_2.index t (3 : Fin 4) = 0
    ∧ win1_3.index t (0 : Fin 4) = 0 ∧ win1_3.index t (1 : Fin 4) = 0 ∧ win1_3.index t (2 : Fin 4) = 0 ∧ win1_3.index t (3 : Fin 4) = 0
    ∧ win1_4.index t (0 : Fin 4) = 0 ∧ win1_4.index t (1 : Fin 4) = 0 ∧ win1_4.index t (2 : Fin 4) = 0 ∧ win1_4.index t (3 : Fin 4) = 0
    ∧ win1_5.index t (0 : Fin 4) = 0 ∧ win1_5.index t (1 : Fin 4) = 0 ∧ win1_5.index t (2 : Fin 4) = t.val ∧ win1_5.index t (3 : Fin 4) = 0
    ∧ win1_6.index t (0 : Fin 4) = 0 ∧ win1_6.index t (1 : Fin 4) = 0 ∧ win1_6.index t (2 : Fin 4) = t.val ∧ win1_6.index t (3 : Fin 4) = 0
    ∧ win1_7.index t (0 : Fin 4) = 0 ∧ win1_7.index t (1 : Fin 4) = 0 ∧ win1_7.index t (2 : Fin 4) = t.val ∧ win1_7.index t (3 : Fin 4) = 0 :=
  (by decide +kernel : ∀ t : Fin grid1.N, _)

/-- Every time block is some point's. -/
theorem index_onto : ∀ q : Fin 16, ∃ t : Fin cfg1.N, win1_7.index t = ![0, 0, q.val, 0] :=
  (by decide +kernel : ∀ q : Fin 16, ∃ t : Fin grid1.N, win1_7.index t = ![0, 0, q.val, 0])

/-- What point `t` writes back is block `t` of the combine of the arrays the region found. -/
theorem flushed_eq (c : Dev nD) (t : Fin cfg1.N) :
    (dat1 (F := Ideal) V c).flushed 7 t = ((cfg1.win 7).blk t).view.read (Elt Ideal)
      (combine (V c main_arg0) (V c main_v16) (V c main_v22) (V c main_v30) (V c main_v36) (V c main_v106) (V c main_v107)) := by
  show (cfg1.win 7).cut (grid1.coords t) ((dat1 (F := Ideal) V c).after 7 t) = _
  rw [after1_7, out_eq]
  obtain ⟨e0_0, e0_1, e0_2, e0_3, e1_0, e1_1, e1_2, e1_3, e2_0, e2_1, e2_2, e2_3, e3_0, e3_1, e3_2, e3_3, e4_0, e4_1, e4_2, e4_3, e5_0, e5_1, e5_2, e5_3, e6_0, e6_1, e6_2, e6_3, e7_0, e7_1, e7_2, e7_3⟩ := index_facts t
  funext j
  revert j
  show ∀ j : S2x512x16x128.Idx, k1_pay1 (iblk1 V c 0 t) (iblk1 V c 1 t) (iblk1 V c 2 t) (iblk1 V c 3 t) (iblk1 V c 4 t) (iblk1 V c 5 t) (iblk1 V c 6 t) j
      = combine (V c main_arg0) (V c main_v16) (V c main_v22) (V c main_v30) (V c main_v36) (V c main_v106) (V c main_v107)
          (((cfg1.win 7).blk t).view.emb j)
  intro j
  obtain ⟨b, ch, s, f, rfl⟩ : ∃ (b : Fin 2) (ch : Fin 512) (s : Fin 16) (f : Fin 128), j = ix4 b ch s f :=
    ⟨j 0, j 1, j 2, j 3, eq_ix4 j⟩
  refine (payload_apply (iblk1 V c 0 t) (iblk1 V c 1 t) (iblk1 V c 2 t) (iblk1 V c 3 t) (iblk1 V c 4 t) (iblk1 V c 5 t) (iblk1 V c 6 t) b ch s f).trans ?_
  have h0 : ((cfg1.win 0).blk t).view.emb (ix4 b ch s f) = ((cfg1.win 7).blk t).view.emb (ix4 b ch s f) := by
    funext a; apply Fin.ext
    match a with
    | ⟨0, _⟩ => show win1_0.index t (0 : Fin 4) * 2 + 1 * b.val = win1_7.index t (0 : Fin 4) * 2 + 1 * b.val; omega
    | ⟨1, _⟩ => show win1_0.index t (1 : Fin 4) * 512 + 1 * ch.val = win1_7.index t (1 : Fin 4) * 512 + 1 * ch.val; omega
    | ⟨2, _⟩ => show win1_0.index t (2 : Fin 4) * 16 + 1 * s.val = win1_7.index t (2 : Fin 4) * 16 + 1 * s.val; omega
    | ⟨3, _⟩ => show win1_0.index t (3 : Fin 4) * 128 + 1 * f.val = win1_7.index t (3 : Fin 4) * 128 + 1 * f.val; omega
  have h1 : ((cfg1.win 1).blk t).view.emb (ix4 (0 : Fin 1) ch (0 : Fin 1) (0 : Fin 1))
      = ix4 (0 : Fin 1) ((((cfg1.win 7).blk t).view.emb (ix4 b ch s f)) 1) (0 : Fin 1) (0 : Fin 1) := by
    funext a; apply Fin.ext
    match a with
    | ⟨0, _⟩ => show win1_1.index t (0 : Fin 4) * 1 + 1 * 0 = 0; omega
    | ⟨1, _⟩ => show win1_1.index t (1 : Fin 4) * 512 + 1 * ch.val = win1_7.index t (1 : Fin 4) * 512 + 1 * ch.val; omega
    | ⟨2, _⟩ => show win1_1.index t (2 : Fin 4) * 1 + 1 * 0 = 0; omega
    | ⟨3, _⟩ => show win1_1.index t (3 : Fin 4) * 1 + 1 * 0 = 0; omega
  have h2 : ((cfg1.win 2).blk t).view.emb (ix4 (0 : Fin 1) ch (0 : Fin 1) (0 : Fin 1))
      = ix4 (0 : Fin 1) ((((cfg1.win 7).blk t).view.emb (ix4 b ch s f)) 1) (0 : Fin 1) (0 : Fin 1) := by
    funext a; apply Fin.ext
    match a with
    | ⟨0, _⟩ => show win1_2.index t (0 : Fin 4) * 1 + 1 * 0 = 0; omega
    | ⟨1, _⟩ => show win1_2.index t (1 : Fin 4) * 512 + 1 * ch.val = win1_7.index t (1 : Fin 4) * 512 + 1 * ch.val; omega
    | ⟨2, _⟩ => show win1_2.index t (2 : Fin 4) * 1 + 1 * 0 = 0; omega
    | ⟨3, _⟩ => show win1_2.index t (3 : Fin 4) * 1 + 1 * 0 = 0; omega
  have h3 : ((cfg1.win 3).blk t).view.emb (ix4 (0 : Fin 1) ch (0 : Fin 1) (0 : Fin 1))
      = ix4 (0 : Fin 1) ((((cfg1.win 7).blk t).view.emb (ix4 b ch s f)) 1) (0 : Fin 1) (0 : Fin 1) := by
    funext a; apply Fin.ext
    match a with
    | ⟨0, _⟩ => show win1_3.index t (0 : Fin 4) * 1 + 1 * 0 = 0; omega
    | ⟨1, _⟩ => show win1_3.index t (1 : Fin 4) * 512 + 1 * ch.val = win1_7.index t (1 : Fin 4) * 512 + 1 * ch.val; omega
    | ⟨2, _⟩ => show win1_3.index t (2 : Fin 4) * 1 + 1 * 0 = 0; omega
    | ⟨3, _⟩ => show win1_3.index t (3 : Fin 4) * 1 + 1 * 0 = 0; omega
  have h4 : ((cfg1.win 4).blk t).view.emb (ix4 (0 : Fin 1) ch (0 : Fin 1) (0 : Fin 1))
      = ix4 (0 : Fin 1) ((((cfg1.win 7).blk t).view.emb (ix4 b ch s f)) 1) (0 : Fin 1) (0 : Fin 1) := by
    funext a; apply Fin.ext
    match a with
    | ⟨0, _⟩ => show win1_4.index t (0 : Fin 4) * 1 + 1 * 0 = 0; omega
    | ⟨1, _⟩ => show win1_4.index t (1 : Fin 4) * 512 + 1 * ch.val = win1_7.index t (1 : Fin 4) * 512 + 1 * ch.val; omega
    | ⟨2, _⟩ => show win1_4.index t (2 : Fin 4) * 1 + 1 * 0 = 0; omega
    | ⟨3, _⟩ => show win1_4.index t (3 : Fin 4) * 1 + 1 * 0 = 0; omega
  have h5 : ((cfg1.win 5).blk t).view.emb (ix4 b ch s (0 : Fin 1))
      = ix4 ((((cfg1.win 7).blk t).view.emb (ix4 b ch s f)) 0) ((((cfg1.win 7).blk t).view.emb (ix4 b ch s f)) 1)
          ((((cfg1.win 7).blk t).view.emb (ix4 b ch s f)) 2) (0 : Fin 1) := by
    funext a; apply Fin.ext
    match a with
    | ⟨0, _⟩ => show win1_5.index t (0 : Fin 4) * 2 + 1 * b.val = win1_7.index t (0 : Fin 4) * 2 + 1 * b.val; omega
    | ⟨1, _⟩ => show win1_5.index t (1 : Fin 4) * 512 + 1 * ch.val = win1_7.index t (1 : Fin 4) * 512 + 1 * ch.val; omega
    | ⟨2, _⟩ => show win1_5.index t (2 : Fin 4) * 16 + 1 * s.val = win1_7.index t (2 : Fin 4) * 16 + 1 * s.val; omega
    | ⟨3, _⟩ => show win1_5.index t (3 : Fin 4) * 1 + 1 * 0 = 0; omega
  have h6 : ((cfg1.win 6).blk t).view.emb (ix4 b ch s (0 : Fin 1))
      = ix4 ((((cfg1.win 7).blk t).view.emb (ix4 b ch s f)) 0) ((((cfg1.win 7).blk t).view.emb (ix4 b ch s f)) 1)
          ((((cfg1.win 7).blk t).view.emb (ix4 b ch s f)) 2) (0 : Fin 1) := by
    funext a; apply Fin.ext
    match a with
    | ⟨0, _⟩ => show win1_6.index t (0 : Fin 4) * 2 + 1 * b.val = win1_7.index t (0 : Fin 4) * 2 + 1 * b.val; omega
    | ⟨1, _⟩ => show win1_6.index t (1 : Fin 4) * 512 + 1 * ch.val = win1_7.index t (1 : Fin 4) * 512 + 1 * ch.val; omega
    | ⟨2, _⟩ => show win1_6.index t (2 : Fin 4) * 16 + 1 * s.val = win1_7.index t (2 : Fin 4) * 16 + 1 * s.val; omega
    | ⟨3, _⟩ => show win1_6.index t (3 : Fin 4) * 1 + 1 * 0 = 0; omega
  show (@id (S2x512x256x1.Idx → EReal) (V c main_v106)) (((cfg1.win 5).blk t).view.emb (ix4 b ch s (0 : Fin 1)))
        * ((@id (S2x512x256x128.Idx → EReal) (V c main_arg0)) (((cfg1.win 0).blk t).view.emb (ix4 b ch s f))
              * (@id (S1x512x1x1.Idx → EReal) (V c main_v16)) (((cfg1.win 1).blk t).view.emb (ix4 (0 : Fin 1) ch (0 : Fin 1) (0 : Fin 1)))
            + (@id (S1x512x1x1.Idx → EReal) (V c main_v22)) (((cfg1.win 2).blk t).view.emb (ix4 (0 : Fin 1) ch (0 : Fin 1) (0 : Fin 1))))
      + max ((@id (S2x512x256x128.Idx → EReal) (V c main_arg0)) (((cfg1.win 0).blk t).view.emb (ix4 b ch s f))
              * (@id (S1x512x1x1.Idx → EReal) (V c main_v30)) (((cfg1.win 3).blk t).view.emb (ix4 (0 : Fin 1) ch (0 : Fin 1) (0 : Fin 1)))
            + (@id (S1x512x1x1.Idx → EReal) (V c main_v36)) (((cfg1.win 4).blk t).view.emb (ix4 (0 : Fin 1) ch (0 : Fin 1) (0 : Fin 1)))) 0
        * (@id (S2x512x256x1.Idx → EReal) (V c main_v107)) (((cfg1.win 6).blk t).view.emb (ix4 b ch s (0 : Fin 1)))
      = combine (V c main_arg0) (V c main_v16) (V c main_v22) (V c main_v30) (V c main_v36) (V c main_v106) (V c main_v107)
          (((cfg1.win 7).blk t).view.emb (ix4 b ch s f))
  rw [h0, h1, h2, h3, h4, h5, h6]
  rfl

/-- An index of the result array is in point `t`'s block iff each coordinate is in the block's range on its axis. -/
theorem mem_blk (t : Fin cfg1.N) (i : S2x512x256x128.Idx) :
    i ∈ ((cfg1.win 7).blk t).view.set ↔ ∀ a : Fin 4, win1_7.index t a * S2x512x16x128.size a ≤ (i a).val
      ∧ (i a).val < win1_7.index t a * S2x512x16x128.size a + S2x512x16x128.size a := by
  show i ∈ ((View.whole main_v108).slice (win1_7.rect t)).set ↔ _
  rw [View.set_slice_whole, Rect.mem_set_unit]
  exact Iff.rfl

/-- The sixteen time blocks tile the result array: the point covering frame `T` is `T / 16`. -/
theorem covered (i : S2x512x256x128.Idx) :
    ∃ t : Fin cfg1.N, (cfg1.win 7).flush t = true ∧ i ∈ ((cfg1.win 7).blk t).view.set := by
  have hi0 : (i 0).val < 2 := (i 0).isLt
  have hi1 : (i 1).val < 512 := (i 1).isLt
  have hi2 : (i 2).val < 256 := (i 2).isLt
  have hi3 : (i 3).val < 128 := (i 3).isLt
  obtain ⟨t, ht⟩ := index_onto ⟨(i 2).val / 16, by omega⟩
  have q0 : win1_7.index t (0 : Fin 4) = 0 := congrFun ht 0
  have q1 : win1_7.index t (1 : Fin 4) = 0 := congrFun ht 1
  have q2 : win1_7.index t (2 : Fin 4) = (i 2).val / 16 := congrFun ht 2
  have q3 : win1_7.index t (3 : Fin 4) = 0 := congrFun ht 3
  refine ⟨t, flush1_7 t, ?_⟩
  rw [mem_blk]
  intro a
  match a with
  | ⟨0, _⟩ => show win1_7.index t (0 : Fin 4) * 2 ≤ (i 0).val ∧ (i 0).val < win1_7.index t (0 : Fin 4) * 2 + 2; omega
  | ⟨1, _⟩ => show win1_7.index t (1 : Fin 4) * 512 ≤ (i 1).val ∧ (i 1).val < win1_7.index t (1 : Fin 4) * 512 + 512; omega
  | ⟨2, _⟩ => show win1_7.index t (2 : Fin 4) * 16 ≤ (i 2).val ∧ (i 2).val < win1_7.index t (2 : Fin 4) * 16 + 16; omega
  | ⟨3, _⟩ => show win1_7.index t (3 : Fin 4) * 128 ≤ (i 3).val ∧ (i 3).val < win1_7.index t (3 : Fin 4) * 128 + 128; omega

/-- The result array after the region: the combine of the arrays the region found. -/
theorem final (c : Dev nD) :
    (dat1 (F := Ideal) V c).arrAt 7 cfg1.N
      = combine (V c main_arg0) (V c main_v16) (V c main_v22) (V c main_v30) (V c main_v36) (V c main_v106) (V c main_v107) :=
  (dat1 (F := Ideal) V c).arrAt_eq_of_cover 7 _ (fun t _ => flushed_eq V c t) (covered)

end Region

end Cert.KernelIdeal.Combine

end
-- ==== Proof.KernelValue.lean ====
/-
  The idealized kernel's result array, from the launch memory.

  After the second region the result array is the combine (Combine.lean) of what that region found: the audio as
  launched, the four folded channel vectors (KernelFold.lean) of the weights, gains and offsets as launched and of the two
  arrays S and Q the statistics region accumulated, and the attention and video arrays the host prepared.
-/
import proofs.«118657_j45303315038549_1_alg».proof.Proof.Combine
import proofs.«118657_j45303315038549_1_alg».proof.Proof.KernelFold

set_option maxRecDepth 16384

noncomputable section

namespace Cert.KernelIdeal.Result

open Idealize.ShloMosaic Idealize.ShloMosaic.TcCoe Idealize.ShloMosaic.StableHlo Idealize.SL.Sem
open Cert.KernelIdeal Cert.KernelIdeal.Gen Cert.KernelIdeal.Fold

variable (m : (ℓ : Loc nD τ sig) → Buf (Elt Ideal) ℓ) (ρ : Dev nD → PrngReg)

/-- The per-channel sums the statistics region leaves. -/
abbrev sums (c : Dev nD) : FVec Ideal S1x512 .f32 := (dat0 (F := Ideal) (V1 m ρ) c).arrAt 1 cfg0.N
/-- The per-channel sums of squares the statistics region leaves. -/
abbrev sumsqs (c : Dev nD) : FVec Ideal S1x512 .f32 := (dat0 (F := Ideal) (V1 m ρ) c).arrAt 2 cfg0.N

theorem W2_sums (c : Dev nD) : W2 m ρ c (Proc.devRef .tc main_v0_0) = sums m ρ c := W2_arr m ρ c 1
theorem W2_sumsqs (c : Dev nD) : W2 m ρ c (Proc.devRef .tc main_v0_1) = sumsqs m ρ c := W2_arr m ρ c 2

/-- The second region finds the audio as launched. -/
theorem W7_arg0 (c : Dev nD) : W7 m ρ c (Proc.devRef .tc main_arg0) = m ((c : Thread nD τ).loc main_arg0) :=
  ((W8_arr m ρ c 0).trans (((dat1 (V7 m ρ) c).arrAt_in 0 rfl _).trans (A_eq1 (V7 m ρ) c 0))).symm.trans (W8_main_arg0 m ρ c)

/-- The statistics region finds the audio as launched. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- The result array: the combine of the launched audio, the folded vectors, and the prepared attention and video. -/
theorem result (c : Dev nD) :
    W8 m ρ c (Proc.devRef .tc main_v108)
      = Combine.combine (m ((c : Thread nD τ).loc main_arg0))
          (scaleOf (m ((c : Thread nD τ).loc main_arg2)) (m ((c : Thread nD τ).loc main_arg3)) (sums m ρ c) (sumsqs m ρ c))
          (shiftOf (m ((c : Thread nD τ).loc main_arg2)) (m ((c : Thread nD τ).loc main_arg3)) (m ((c : Thread nD τ).loc main_arg4)) (sums m ρ c) (sumsqs m ρ c))
          (scaleOf (m ((c : Thread nD τ).loc main_arg5)) (m ((c : Thread nD τ).loc main_arg6)) (sums m ρ c) (sumsqs m ρ c))
          (shiftOf (m ((c : Thread nD τ).loc main_arg5)) (m ((c : Thread nD τ).loc main_arg6)) (m ((c : Thread nD τ).loc main_arg7)) (sums m ρ c) (sumsqs m ρ c))
          (W7 m ρ c (Proc.devRef .tc main_v106)) (W7 m ρ c (Proc.devRef .tc main_v107)) := by
  refine (W8_arr m ρ c 7).trans ((Combine.final (V7 m ρ) c).trans ?_)
  show Combine.combine (W7 m ρ c (Proc.devRef .tc main_arg0)) (W7 m ρ c (Proc.devRef .tc main_v16)) (W7 m ρ c (Proc.devRef .tc main_v22))
      (W7 m ρ c (Proc.devRef .tc main_v30)) (W7 m ρ c (Proc.devRef .tc main_v36)) (W7 m ρ c (Proc.devRef .tc main_v106))
      (W7 m ρ c (Proc.devRef .tc main_v107)) = _
  rw [W7_arg0, W7_v16, W3_v16, W7_v22, W3_v22, W7_v30, W3_v30, W7_v36, W3_v36, W2_arg2, W2_arg3, W2_arg4, W2_arg5, W2_arg6,
    W2_arg7, W2_sums, W2_sumsqs]

end Cert.KernelIdeal.Result

end
-- ==== Proof.LibFibreSums.lean ====
/-
  The host's float sum over several axes, read at an entry.

  Reducing an array over some of its axes leaves an array indexed by the kept coordinates. The source indices lying
  over one entry of the result (its fibre) are exactly those whose kept coordinates are the entry's, the reduced
  coordinates ranging freely; so a sum over the fibre, in any commutative additive monoid, is the iterated sum over the
  reduced coordinates. Hence the host's float sum over those axes, at that entry, is the initial value plus that
  iterated sum. This file states it for the shapes and axes

    [a, b, c, d] over axes [2, 3] and over axes [0, 2, 3],   [a, b, c, d, e] over axes [3, 4],
    [a, b, c] over axis [1],   [a, b] over axis [0],

  all as instances of one general fact (`sum_filter_of_fibre`): if the indices satisfying a predicate are exactly the
  values of a function `g` that has a left inverse, the sum over them is the sum over `g`'s domain. Beside these: a
  sum over a rank-4 or rank-5 index set is the iterated sum over its coordinates (`sum_idx4`, `sum_idx5`), and a sum
  over `Fin (m * n)` is the double sum over rows and columns in row-major order (`sum_rowMajor`).
-/
import Idealize.ShloMosaic.PureOps.Ideal.Laws
import Idealize.ShloMosaic.PureOps.Reduce
import Idealize.ShloMosaic.Lib.ValueIdx

noncomputable section

open scoped BigOperators

namespace Cert.FibreSums

open Idealize.ShloMosaic Idealize.ShloMosaic.ValueIdx

variable {a b c d e : ℕ}

/-! ## Sums over rank-4 and rank-5 index sets -/

/-- A rank-4 index set is the product of its four coordinate ranges … -/
def idxEquiv4 : (⟨4, ![a, b, c, d]⟩ : Shape).Idx ≃ Fin a × Fin b × Fin c × Fin d where
  toFun i := (i 0, i 1, i 2, i 3)
  invFun κ := ix4 κ.1 κ.2.1 κ.2.2.1 κ.2.2.2
  left_inv i := (eq_ix4 i).symm
  right_inv _ := rfl

/-- … so a sum over it, in any commutative additive monoid, is the fourfold sum over the coordinates. -/
theorem sum_idx4 {M : Type*} [AddCommMonoid M] (f : (⟨4, ![a, b, c, d]⟩ : Shape).Idx → M) :
    ∑ i, f i = ∑ p : Fin a, ∑ q : Fin b, ∑ r : Fin c, ∑ s : Fin d, f (ix4 p q r s) := by
  rw [← Equiv.sum_comp (idxEquiv4 (a := a) (b := b) (c := c) (d := d)).symm f, Fintype.sum_prod_type]
  refine Finset.sum_congr rfl fun p _ => ?_
  rw [Fintype.sum_prod_type]
  refine Finset.sum_congr rfl fun q _ => ?_
  rw [Fintype.sum_prod_type]
  rfl

/-- A rank-5 index set is the product of its five coordinate ranges … -/
def idxEquiv5 : (⟨5, ![a, b, c, d, e]⟩ : Shape).Idx ≃ Fin a × Fin b × Fin c × Fin d × Fin e where
  toFun i := (i 0, i 1, i 2, i 3, i 4)
  invFun κ := ix5 κ.1 κ.2.1 κ.2.2.1 κ.2.2.2.1 κ.2.2.2.2
  left_inv i := (eq_ix5 i).symm
  right_inv _ := rfl

/-- … so a sum over it is the fivefold sum over the coordinates. -/
theorem sum_idx5 {M : Type*} [AddCommMonoid M] (f : (⟨5, ![a, b, c, d, e]⟩ : Shape).Idx → M) :
    ∑ i, f i = ∑ p : Fin a, ∑ q : Fin b, ∑ r : Fin c, ∑ s : Fin d, ∑ t : Fin e, f (ix5 p q r s t) := by
  rw [← Equiv.sum_comp (idxEquiv5 (a := a) (b := b) (c := c) (d := d) (e := e)).symm f, Fintype.sum_prod_type]
  refine Finset.sum_congr rfl fun p _ => ?_
  rw [Fintype.sum_prod_type]
  refine Finset.sum_congr rfl fun q _ => ?_
  rw [Fintype.sum_prod_type]
  refine Finset.sum_congr rfl fun r _ => ?_
  rw [Fintype.sum_prod_type]
  rfl

/-! ## The general fibre sum -/

/-- If every index satisfying `P` is `g` of its image under `k`, every value of `g` satisfies `P`, and `k` undoes `g`,
    then the indices satisfying `P` are in bijection with `g`'s domain, and a sum over them is the sum over that
    domain. -/
theorem sum_filter_of_fibre {I K M : Type} [Fintype I] [Fintype K] [AddCommMonoid M] (P : I → Prop) [DecidablePred P]
    (g : K → I) (k : I → K) (hk : ∀ i, P i → g (k i) = i) (hP : ∀ κ, P (g κ)) (hg : ∀ κ, k (g κ) = κ) (f : I → M) :
    (∑ i ∈ Finset.univ.filter P, f i) = ∑ κ, f (g κ) := by
  refine Finset.sum_nbij' k g ?_ ?_ ?_ ?_ ?_
  · intro i _; exact Finset.mem_univ _
  · intro κ _; exact Finset.mem_filter.2 ⟨Finset.mem_univ _, hP κ⟩
  · intro i hi; exact hk i (Finset.mem_filter.1 hi).2
  · intro κ _; exact hg κ
  · intro i hi; rw [hk i (Finset.mem_filter.1 hi).2]

/-! ## [a, b, c, d] over axes [2, 3] -/

/-- The source indices over entry `(p, q)` are the `(p, q, r, s)`. -/
theorem sum_fibre_r4_23 {M : Type} [AddCommMonoid M] (h : (⟨4, ![a, b, c, d]⟩ : Shape).ReducesTo [2, 3] ⟨2, ![a, b]⟩)
    (f : (⟨4, ![a, b, c, d]⟩ : Shape).Idx → M) (p : Fin a) (q : Fin b) [DecidablePred fun i => h.drop i = ix2 p q] :
    (∑ i ∈ Finset.univ.filter (fun i => h.drop i = ix2 p q), f i) = ∑ r : Fin c, ∑ s : Fin d, f (ix4 p q r s) := by
  have hv0 : ∀ i, (h.drop i 0 : ℕ) = i 0 := fun _ => rfl
  have hv1 : ∀ i, (h.drop i 1 : ℕ) = i 1 := fun _ => rfl
  rw [sum_filter_of_fibre (fun i => h.drop i = ix2 p q) (fun κ : Fin c × Fin d => ix4 p q κ.1 κ.2)
    (fun i => (i 2, i 3)) ?_ ?_ (fun _ => rfl) f, Fintype.sum_prod_type]
  · intro i e
    have h0 : i 0 = p := Fin.ext ((hv0 i).symm.trans (congrArg Fin.val (congrFun e 0)))
    have h1 : i 1 = q := Fin.ext ((hv1 i).symm.trans (congrArg Fin.val (congrFun e 1)))
    funext t
    match t with
    | ⟨0, _⟩ => exact h0.symm
    | ⟨1, _⟩ => exact h1.symm
    | ⟨2, _⟩ => rfl
    | ⟨3, _⟩ => rfl
  · intro κ
    funext t
    match t with
    | ⟨0, _⟩ => exact Fin.ext (hv0 _)
    | ⟨1, _⟩ => exact Fin.ext (hv1 _)

/-- The host's float sum over the last two axes of a rank-4 array, at entry `(p, q)`. -/
theorem hostReduceAdd_r4_23 (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ r : Fin c, ∑ s : Fin d, x (ix4 p q r s) := by
  unfold Ideal.hostReduceAdd
  rw [sum_fibre_r4_23]

/-! ## [a, b, c, d] over axes [0, 2, 3] -/

/-- The source indices over entry `q` are the `(p, q, r, s)`: only the second coordinate is kept. -/
theorem sum_fibre_r4_023 {M : Type} [AddCommMonoid M] (h : (⟨4, ![a, b, c, d]⟩ : Shape).ReducesTo [0, 2, 3] ⟨1, ![b]⟩)
    (f : (⟨4, ![a, b, c, d]⟩ : Shape).Idx → M) (q : Fin b) [DecidablePred fun i => h.drop i = ix1 q] :
    (∑ i ∈ Finset.univ.filter (fun i => h.drop i = ix1 q), f i)
      = ∑ p : Fin a, ∑ r : Fin c, ∑ s : Fin d, f (ix4 p q r s) := by
  have hv : ∀ i, (h.drop i 0 : ℕ) = i 1 := fun _ => rfl
  rw [sum_filter_of_fibre (fun i => h.drop i = ix1 q) (fun κ : Fin a × Fin c × Fin d => ix4 κ.1 q κ.2.1 κ.2.2)
    (fun i => (i 0, i 2, i 3)) ?_ ?_ (fun _ => rfl) f, Fintype.sum_prod_type]
  · refine Finset.sum_congr rfl fun p _ => ?_
    rw [Fintype.sum_prod_type]
  · intro i e
    have h1 : i 1 = q := Fin.ext ((hv i).symm.trans (congrArg Fin.val (congrFun e 0)))
    funext t
    match t with
    | ⟨0, _⟩ => rfl
    | ⟨1, _⟩ => exact h1.symm
    | ⟨2, _⟩ => rfl
    | ⟨3, _⟩ => rfl
  · intro κ
    funext t
    match t with
    | ⟨0, _⟩ => exact Fin.ext (hv _)

/-- The host's float sum over the first, third and fourth axes of a rank-4 array, at entry `q`. -/
theorem hostReduceAdd_r4_023 (h : (⟨4, ![a, b, c, d]⟩ : Shape).ReducesTo [0, 2, 3] ⟨1, ![b]⟩)
    (x : (⟨4, ![a, b, c, d]⟩ : Shape).Idx → EReal) (init : EReal) (q : Fin b) :
    Ideal.hostReduceAdd h x init (ix1 q) = init + ∑ p : Fin a, ∑ r : Fin c, ∑ s : Fin d, x (ix4 p q r s) := by
  unfold Ideal.hostReduceAdd
  rw [sum_fibre_r4_023]

/-! ## [a, b, c, d, e] over axes [3, 4] -/

/-- The source indices over entry `(p, q, r)` are the `(p, q, r, s, t)`. -/
theorem sum_fibre_r5_34 {M : Type} [AddCommMonoid M]
    (h : (⟨5, ![a, b, c, d, e]⟩ : Shape).ReducesTo [3, 4] ⟨3, ![a, b, c]⟩)
    (f : (⟨5, ![a, b, c, d, e]⟩ : Shape).Idx → M) (p : Fin a) (q : Fin b) (r : Fin c)
    [DecidablePred fun i => h.drop i = ix3 p q r] :
    (∑ i ∈ Finset.univ.filter (fun i => h.drop i = ix3 p q r), f i)
      = ∑ s : Fin d, ∑ t : Fin e, f (ix5 p q r s t) := by
  have hv0 : ∀ i, (h.drop i 0 : ℕ) = i 0 := fun _ => rfl
  have hv1 : ∀ i, (h.drop i 1 : ℕ) = i 1 := fun _ => rfl
  have hv2 : ∀ i, (h.drop i 2 : ℕ) = i 2 := fun _ => rfl
  rw [sum_filter_of_fibre (fun i => h.drop i = ix3 p q r) (fun κ : Fin d × Fin e => ix5 p q r κ.1 κ.2)
    (fun i => (i 3, i 4)) ?_ ?_ (fun _ => rfl) f, Fintype.sum_prod_type]
  · intro i e'
    have h0 : i 0 = p := Fin.ext ((hv0 i).symm.trans (congrArg Fin.val (congrFun e' 0)))
    have h1 : i 1 = q := Fin.ext ((hv1 i).symm.trans (congrArg Fin.val (congrFun e' 1)))
    have h2 : i 2 = r := Fin.ext ((hv2 i).symm.trans (congrArg Fin.val (congrFun e' 2)))
    funext u
    match u with
    | ⟨0, _⟩ => exact h0.symm
    | ⟨1, _⟩ => exact h1.symm
    | ⟨2, _⟩ => exact h2.symm
    | ⟨3, _⟩ => rfl
    | ⟨4, _⟩ => rfl
  · intro κ
    funext u
    match u with
    | ⟨0, _⟩ => exact Fin.ext (hv0 _)
    | ⟨1, _⟩ => exact Fin.ext (hv1 _)
    | ⟨2, _⟩ => exact Fin.ext (hv2 _)

/-- The host's float sum over the last two axes of a rank-5 array, at entry `(p, q, r)`. -/
theorem hostReduceAdd_r5_34 (h : (⟨5, ![a, b, c, d, e]⟩ : Shape).ReducesTo [3, 4] ⟨3, ![a, b, c]⟩)
    (x : (⟨5, ![a, b, c, d, e]⟩ : Shape).Idx → EReal) (init : EReal) (p : Fin a) (q : Fin b) (r : Fin c) :
    Ideal.hostReduceAdd h x init (ix3 p q r) = init + ∑ s : Fin d, ∑ t : Fin e, x (ix5 p q r s t) := by
  unfold Ideal.hostReduceAdd
  rw [sum_fibre_r5_34]

/-! ## [a, b, c] over axis [1] -/

/-- The source indices over entry `(p, r)` are the `(p, q, r)`. -/
theorem sum_fibre_r3_1 {M : Type} [AddCommMonoid M] (h : (⟨3, ![a, b, c]⟩ : Shape).ReducesTo [1] ⟨2, ![a, c]⟩)
    (f : (⟨3, ![a, b, c]⟩ : Shape).Idx → M) (p : Fin a) (r : Fin c) [DecidablePred fun i => h.drop i = ix2 p r] :
    (∑ i ∈ Finset.univ.filter (fun i => h.drop i = ix2 p r), f i) = ∑ q : Fin b, f (ix3 p q r) := by
  have hv0 : ∀ i, (h.drop i 0 : ℕ) = i 0 := fun _ => rfl
  have hv1 : ∀ i, (h.drop i 1 : ℕ) = i 2 := fun _ => rfl
  rw [sum_filter_of_fibre (fun i => h.drop i = ix2 p r) (fun κ : Fin b => ix3 p κ r) (fun i => i 1) ?_ ?_
    (fun _ => rfl) f]
  · intro i e
    have h0 : i 0 = p := Fin.ext ((hv0 i).symm.trans (congrArg Fin.val (congrFun e 0)))
    have h2 : i 2 = r := Fin.ext ((hv1 i).symm.trans (congrArg Fin.val (congrFun e 1)))
    funext t
    match t with
    | ⟨0, _⟩ => exact h0.symm
    | ⟨1, _⟩ => rfl
    | ⟨2, _⟩ => exact h2.symm
  · intro κ
    funext t
    match t with
    | ⟨0, _⟩ => exact Fin.ext (hv0 _)
    | ⟨1, _⟩ => exact Fin.ext (hv1 _)

/-- The host's float sum over the middle axis of a rank-3 array, at entry `(p, r)`. -/
theorem hostReduceAdd_r3_1 (h : (⟨3, ![a, b, c]⟩ : Shape).ReducesTo [1] ⟨2, ![a, c]⟩)
    (x : (⟨3, ![a, b, c]⟩ : Shape).Idx → EReal) (init : EReal) (p : Fin a) (r : Fin c) :
    Ideal.hostReduceAdd h x init (ix2 p r) = init + ∑ q : Fin b, x (ix3 p q r) := by
  unfold Ideal.hostReduceAdd
  rw [sum_fibre_r3_1]

/-! ## [a, b] over axis [0] -/

/-- The source indices over entry `q` are the `(p, q)`. -/
theorem sum_fibre_r2_0 {M : Type} [AddCommMonoid M] (h : (⟨2, ![a, b]⟩ : Shape).ReducesTo [0] ⟨1, ![b]⟩)
    (f : (⟨2, ![a, b]⟩ : Shape).Idx → M) (q : Fin b) [DecidablePred fun i => h.drop i = ix1 q] :
    (∑ i ∈ Finset.univ.filter (fun i => h.drop i = ix1 q), f i) = ∑ p : Fin a, f (ix2 p q) := by
  have hv : ∀ i, (h.drop i 0 : ℕ) = i 1 := fun _ => rfl
  rw [sum_filter_of_fibre (fun i => h.drop i = ix1 q) (fun κ : Fin a => ix2 κ q) (fun i => i 0) ?_ ?_
    (fun _ => rfl) f]
  · intro i e
    have h1 : i 1 = q := Fin.ext ((hv i).symm.trans (congrArg Fin.val (congrFun e 0)))
    funext t
    match t with
    | ⟨0, _⟩ => rfl
    | ⟨1, _⟩ => exact h1.symm
  · intro κ
    funext t
    match t with
    | ⟨0, _⟩ => exact Fin.ext (hv _)

/-- The host's float sum over the first axis of a rank-2 array (its column sums), at entry `q`. -/
theorem hostReduceAdd_r2_0 (h : (⟨2, ![a, b]⟩ : Shape).ReducesTo [0] ⟨1, ![b]⟩)
    (x : (⟨2, ![a, b]⟩ : Shape).Idx → EReal) (init : EReal) (q : Fin b) :
    Ideal.hostReduceAdd h x init (ix1 q) = init + ∑ p : Fin a, x (ix2 p q) := by
  unfold Ideal.hostReduceAdd
  rw [sum_fibre_r2_0]

/-! ## A sum over `Fin (m * n)` in row-major order -/

/-- Position `h * n + w` of row `h`, column `w` lies below `m * n`. -/
theorem rowMajor_lt {m n : ℕ} (h : Fin m) (w : Fin n) : h.val * n + w.val < m * n :=
  calc h.val * n + w.val < h.val * n + n := Nat.add_lt_add_left w.isLt _
    _ = (h.val + 1) * n := (Nat.succ_mul _ _).symm
    _ ≤ m * n := Nat.mul_le_mul_right _ h.isLt

/-- Every position below `m * n` is `h * n + w` for exactly one row `h` and column `w`, so a sum over the positions
    is the double sum over rows and columns. -/
theorem sum_rowMajor {M : Type} [AddCommMonoid M] (m n : ℕ) (g : Fin (m * n) → M) :
    ∑ k, g k = ∑ h : Fin m, ∑ w : Fin n, g ⟨h.val * n + w.val, rowMajor_lt h w⟩ := by
  rw [← Equiv.sum_comp finProdFinEquiv g, Fintype.sum_prod_type]
  refine Finset.sum_congr rfl fun h _ => Finset.sum_congr rfl fun w _ => congrArg g (Fin.ext ?_)
  show w.val + n * h.val = h.val * n + w.val
  rw [Nat.mul_comm, Nat.add_comm]

end Cert.FibreSums

end
-- ==== Proof.StatsPayload.lean ====
/-
  The per-channel statistics pass, one grid point at a time.

  The pass walks the 256 time steps of the audio array in 8 blocks of 32. At each grid point it holds one audio block
  `x : [2, 512, 32, 128]` and two running blocks `[1, 512]`; it adds to the first, at channel `q`, the sum of `x` over
  batch, time and frequency, and to the second the sum of the squares; at the first grid point both running blocks are
  first set to zero.

  This file reads what one grid point leaves in each running block, first as the term the body stores (for any float
  values), then, over the extended reals, entry by entry: the block read there plus a triple sum over the audio block.
  A lane sum over the axes 0, 2 and 3 is, at channel `q`, the sum over the source indices `(b, q, r, f)`: the indices
  lying over `q` are exactly those.
-/
import proofs.«118657_j45303315038549_1_alg».proof.Proof.Gen.KernelIdeal.Frame
import proofs.«118657_j45303315038549_1_alg».proof.Proof.LibFibreSums
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen

/-! ## What one grid point leaves, as the stored term (any float values) -/

section Pieces

variable {F : FTy → Type} [FloatOps F]

/-- The offsets of a whole rank-2 block are zero on every axis. -/
theorem hz2 : (![0, 0] : Fin 2 → Nat) = fun _ => 0 := funext fun a => by fin_cases a <;> rfl
/-- The offsets of a whole rank-4 block are zero on every axis. -/
theorem hz4 : (![0, 0, 0, 0] : Fin 4 → Nat) = fun _ => 0 := funext fun a => by fin_cases a <;> rfl

/-- Away from the first grid point the body leaves, in the first output's block holding `xo1`, the block plus the
    audio block's sums over batch, time and frequency: its one store through the whole block. -/
theorem out_B_1 (c : Dev nD) (i : grid0.Coords) (a1 : Memref sig .tc .vmem S2x512x32x128 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S2x512x32x128 .f32) (xo1 xo2 : Vec F S1x512 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero hz2]
  simp only [View.readAt_eq_ld, h1.read_unread, h2.read_unread, View.ld_unit_zero (S := S2x512x32x128) hz4,
    View.ld_unit_zero (S := S1x512) hz2]

/-- The same for the second output: the block holding `xo2` plus the sums of the squares. -/
theorem out_B_2 (c : Dev nD) (i : grid0.Coords) (a1 : Memref sig .tc .vmem S2x512x32x128 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S2x512x32x128 .f32) (xo1 xo2 : Vec F S1x512 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero hz2]
  simp only [View.readAt_eq_ld, h1.read_unread, h3.read_unread, View.ld_unit_zero (S := S2x512x32x128) hz4,
    View.ld_unit_zero (S := S1x512) hz2]

/-- At the first grid point the body first stores the zero block, reads it back, and leaves the zero block plus the
    audio block's sums. -/
theorem out_A_1 (c : Dev nD) (i : grid0.Coords) (a1 : Memref sig .tc .vmem S2x512x32x128 .f32) (h1 : a1.IsWhole)
    (a2 : Memref sig .tc .vmem S1x512 .f32) (h2 : a2.IsWhole) (a3 : Memref sig .tc .vmem S1x512 .f32) (h3 : a3.IsWhole)
    (hc : cond0_0 i) (x : Vec F S2x512x32x128 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x512) hz2, View.readCov_unit_zero (S := S1x512) _ hz2]
  simp only [View.readAt_eq_ld, h1.read_unread, View.ld_unit_zero (S := S2x512x32x128) hz4]

/-- The same for the second output: the zero block plus the sums of the squares. -/
theorem out_A_2 (c : Dev nD) (i : grid0.Coords) (a1 : Memref sig .tc .vmem S2x512x32x128 .f32) (h1 : a1.IsWhole)
    (a2 : Memref sig .tc .vmem S1x512 .f32) (h2 : a2.IsWhole) (a3 : Memref sig .tc .vmem S1x512 .f32) (h3 : a3.IsWhole)
    (hc : cond0_0 i) (x : Vec F S2x512x32x128 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x512) hz2, View.readCov_unit_zero (S := S1x512) _ hz2]
  simp only [View.readAt_eq_ld, h1.read_unread, View.ld_unit_zero (S := S2x512x32x128) hz4]

end Pieces

/-! ## The stored terms read at a channel, over the extended reals -/

/-- Over the extended reals a lane sum over the first, third and fourth axes of a rank-4 vector, read at entry `q`,
    is the triple sum over those three coordinates: the source indices lying over `q` are the `(p, q, r, s)`. -/
theorem multiReduction_add_023 {a b c d : ℕ} (src : FVec Ideal ⟨4, ![a, b, c, d]⟩ .f32)
    (h : (⟨4, ![a, b, c, d]⟩ : Shape).Reduces [0, 2, 3] ⟨1, ![b]⟩) (hφ : FKind.Formats .f32)
    (hacc : (0x00000000#32 : BitVec 32) = FKind.add.neutral .f32 hφ) (q : Fin b) :
    multiReduction .add [0, 2, 3] ⟨1, ![b]⟩ src 0x00000000#32 h hφ hacc (ix1 q)
      = ∑ p : Fin a, ∑ r : Fin c, ∑ s : Fin d, src (ix4 p q r s) := by
  show (∑ i ∈ Finset.univ.filter (fun i => h.drop i = ix1 q), src i) = _
  exact Cert.FibreSums.sum_fibre_r4_023 ⟨h.1, h.2.2⟩ src q

/-- Entry `(0, q)` of a `[1, 512]` block, with the leading unit axis dropped, is entry `q`. -/
theorem tail_ix2 (q : Fin 512) : (fun a : Fin 1 => (ix2 (0 : Fin 1) q) a.succ) = ix1 q := by
  funext a; match a with | ⟨0, _⟩ => rfl

/-- What the body stores to the first output, read at channel `q`: the block it read there plus the audio block's sum
    over batch, time and frequency. -/
theorem pay3_apply (x : Vec Ideal S2x512x32x128 .f32) (xo : Vec Ideal S1x512 .f32) (q : Fin 512) :
    k0_pay3 (F := Ideal) x xo (ix2 0 q) = xo (ix2 0 q) + ∑ b : Fin 2, ∑ r : Fin 32, ∑ f : Fin 128, x (ix4 b q r f) := by
  unfold k0_pay3
  refine congrArg₂ (fun u v : EReal => u + v) ?_ ?_
  · exact congrFun (shapeCast_self xo _) _
  · refine (shapeCast_addUnit_apply ![512] _ _ (ix2 0 q)).trans ?_
    rw [tail_ix2]
    exact multiReduction_add_023 x _ _ _ q

/-- What the body stores to the second output, read at channel `q`: the block it read there plus the sum of the audio
    block's squares. -/
theorem pay4_apply (x : Vec Ideal S2x512x32x128 .f32) (xo : Vec Ideal S1x512 .f32) (q : Fin 512) :
    k0_pay4 (F := Ideal) x xo (ix2 0 q)
      = xo (ix2 0 q) + ∑ b : Fin 2, ∑ r : Fin 32, ∑ f : Fin 128, x (ix4 b q r f) * x (ix4 b q r f) := by
  unfold k0_pay4
  refine congrArg₂ (fun u v : EReal => u + v) ?_ ?_
  · exact congrFun (shapeCast_self xo _) _
  · refine (shapeCast_addUnit_apply ![512] _ _ (ix2 0 q)).trans ?_
    rw [tail_ix2]
    exact multiReduction_add_023 (mulf x x) _ _ _ q

/-- The zero block the first grid point stores, read at any entry, is the real number zero. -/
theorem pay1_apply (j : S1x512.Idx) : k0_pay1 (F := Ideal) j = 0 := by
  unfold k0_pay1
  exact Ideal.ofBits_zero_f32

theorem pay2_apply (j : S1x512.Idx) : k0_pay2 (F := Ideal) j = 0 := by
  unfold k0_pay2
  exact Ideal.ofBits_zero_f32

end Cert.KernelIdeal.Stats

end
-- ==== Proof.StatsInduction.lean ====
/-
  The per-channel statistics pass, across the grid.

  The two running blocks are carried from one grid point to the next: the first point sets them to zero and adds its
  audio block's sums, every later point adds its own to what the point before left. By induction on the point, after
  point `n` the running blocks hold, at channel `q`, zero plus the sums of the audio blocks `0, …, n` (for the
  second block: of their squares). Only associativity of the addition of extended reals is used.
-/
import proofs.«118657_j45303315038549_1_alg».proof.Proof.StatsPayload

noncomputable section

open scoped BigOperators
open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen

variable (V : (c : Dev nD) → (b : Ref sig .tc) → Buf (Elt Ideal) ((c : Thread nD τ).loc b))

/-- The sum, over batch, the 32 time steps of the block at grid point `t`, and frequency, of the audio at channel `q`. -/
def blockSum (c : Dev nD) (t : Fin cfg0.N) (q : Fin 512) : EReal :=
  ∑ b : Fin 2, ∑ r : Fin 32, ∑ f : Fin 128, (iblk0 (F := Ideal) V c 0 t : Vec Ideal S2x512x32x128 .f32) (ix4 b q r f)

/-- The same sum of the squares. -/
def blockSumSq (c : Dev nD) (t : Fin cfg0.N) (q : Fin 512) : EReal :=
  have x : Vec Ideal S2x512x32x128 .f32 := iblk0 (F := Ideal) V c 0 t
  ∑ b : Fin 2, ∑ r : Fin 32, ∑ f : Fin 128, x (ix4 b q r f) * x (ix4 b q r f)

/-- At the first grid point the first running block ends at zero plus that point's block sum. -/
theorem outs_A_1 (c : Dev nD) (t : Fin cfg0.N) (h0 : t.val % 8 = 0) (q : Fin 512) :
    (outsAt0 (F := Ideal) V c t.val t.isLt).1 (ix2 0 q) = 0 + blockSum V c t q := by
  rw [outsAt0_A V c t h0]
  dsimp only
  rw [out_A_1 (F := Ideal) c (grid0.coords t) (ms0_0 t) (hs0_0 t) (ms0_1 t) (hs0_1 t) (ms0_2 t) (hs0_2 t)
    ((hcond0_0 t).mpr h0) (iblk0 V c 0 t)]
  refine (pay3_apply (iblk0 (F := Ideal) V c 0 t) (k0_pay1 (F := Ideal)) q).trans ?_
  rw [pay1_apply]
  rfl

theorem outs_A_2 (c : Dev nD) (t : Fin cfg0.N) (h0 : t.val % 8 = 0) (q : Fin 512) :
    (outsAt0 (F := Ideal) V c t.val t.isLt).2 (ix2 0 q) = 0 + blockSumSq V c t q := by
  rw [outsAt0_A V c t h0]
  dsimp only
  rw [out_A_2 (F := Ideal) c (grid0.coords t) (ms0_0 t) (hs0_0 t) (ms0_1 t) (hs0_1 t) (ms0_2 t) (hs0_2 t)
    ((hcond0_0 t).mpr h0) (iblk0 V c 0 t)]
  refine (pay4_apply (iblk0 (F := Ideal) V c 0 t) (k0_pay2 (F := Ideal)) q).trans ?_
  rw [pay2_apply]
  rfl

/-- At a later grid point the first running block ends at what the point before left plus this point's block sum. -/
theorem outs_B_1 (c : Dev nD) (t : Fin cfg0.N) (h0 : ¬t.val % 8 = 0) (q : Fin 512) :
    (outsAt0 (F := Ideal) V c t.val t.isLt).1 (ix2 0 q)
      = (outsAt0 (F := Ideal) V c (t.val - 1) (Nat.lt_of_le_of_lt (Nat.sub_le _ _) t.isLt)).1 (ix2 0 q) + blockSum V c t q := by
  rw [outsAt0_B V c t h0]
  dsimp only
  rw [out_B_1 (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2]
  exact pay3_apply (iblk0 (F := Ideal) V c 0 t) _ q

theorem outs_B_2 (c : Dev nD) (t : Fin cfg0.N) (h0 : ¬t.val % 8 = 0) (q : Fin 512) :
    (outsAt0 (F := Ideal) V c t.val t.isLt).2 (ix2 0 q)
      = (outsAt0 (F := Ideal) V c (t.val - 1) (Nat.lt_of_le_of_lt (Nat.sub_le _ _) t.isLt)).2 (ix2 0 q) + blockSumSq V c t q := by
  rw [outsAt0_B V c t h0]
  dsimp only
  rw [out_B_2 (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2]
  exact pay4_apply (iblk0 (F := Ideal) V c 0 t) _ q

/-- After grid point `n` the first running block holds, at channel `q`, zero plus the block sums of the points
    `0, …, n`: by induction on the point. -/
theorem outs_eq_1 (c : Dev nD) (q : Fin 512) : ∀ (n : ℕ) (h : n < cfg0.N),
    (outsAt0 (F := Ideal) V c n h).1 (ix2 0 q)
      = 0 + ∑ t' : Fin (n + 1), blockSum V c ⟨t'.val, Nat.lt_of_lt_of_le t'.isLt h⟩ q
  | 0, h => by
    refine (outs_A_1 V c ⟨0, h⟩ rfl q).trans ?_
    rw [Fin.sum_univ_one]
    rfl
  | n + 1, h => by
    have hN : cfg0.N = 8 := N_0
    have hB : ¬(⟨n + 1, h⟩ : Fin cfg0.N).val % 8 = 0 := by dsimp only; omega
    refine (outs_B_1 V c ⟨n + 1, h⟩ hB q).trans ?_
    show (outsAt0 (F := Ideal) V c n _).1 (ix2 0 q) + _ = _
    rw [outs_eq_1 c q n, add_assoc]
    refine congrArg (fun u : EReal => 0 + u) ?_
    exact (Fin.sum_univ_castSucc (fun t' : Fin (n + 2) => blockSum V c ⟨t'.val, Nat.lt_of_lt_of_le t'.isLt h⟩ q)).symm

theorem outs_eq_2 (c : Dev nD) (q : Fin 512) : ∀ (n : ℕ) (h : n < cfg0.N),
    (outsAt0 (F := Ideal) V c n h).2 (ix2 0 q)
      = 0 + ∑ t' : Fin (n + 1), blockSumSq V c ⟨t'.val, Nat.lt_of_lt_of_le t'.isLt h⟩ q
  | 0, h => by
    refine (outs_A_2 V c ⟨0, h⟩ rfl q).trans ?_
    rw [Fin.sum_univ_one]
    rfl
  | n + 1, h => by
    have hN : cfg0.N = 8 := N_0
    have hB : ¬(⟨n + 1, h⟩ : Fin cfg0.N).val % 8 = 0 := by dsimp only; omega
    refine (outs_B_2 V c ⟨n + 1, h⟩ hB q).trans ?_
    show (outsAt0 (F := Ideal) V c n _).2 (ix2 0 q) + _ = _
    rw [outs_eq_2 c q n, add_assoc]
    refine congrArg (fun u : EReal => 0 + u) ?_
    exact (Fin.sum_univ_castSucc (fun t' : Fin (n + 2) => blockSumSq V c ⟨t'.val, Nat.lt_of_lt_of_le t'.isLt h⟩ q)).symm

end Cert.KernelIdeal.Stats

end
-- ==== Proof.StatsValue.lean ====
/-
  The per-channel statistics pass, read as values.

  The pass sums the audio array `x : [2, 512, 256, 128]` (batch, channel, time, frequency) per channel: it walks the
  256 time steps in eight blocks of 32, carrying two running blocks `[1, 512]` that start at zero and receive, at each
  grid point, the block's sums of `x` and of `x · x` over batch, time and frequency. The two output arrays are written
  back once, after the last grid point, and that one block is the whole array. Hence after the pass

      first output  (0, q) = ∑ b, ∑ t, ∑ f, x (b, q, t, f)
      second output (0, q) = ∑ b, ∑ t, ∑ f, x (b, q, t, f) · x (b, q, t, f)

  with `t` over all 256 time steps: entry `(b, q, r, f)` of the block at grid point `k` is entry `(b, q, 32 k + r, f)` of
  the array, and a sum over `k < 8` and `r < 32` is a sum over `t < 256`. Everything here is re-association and
  re-ordering of sums of extended reals; no product is distributed over a sum, so no finiteness is needed.
-/
import proofs.«118657_j45303315038549_1_alg».proof.Proof.StatsInduction

noncomputable section

open scoped BigOperators
open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen

/-! ## Eight blocks of 32 time steps are the 256 time steps -/

/-- In any commutative additive monoid: if the entry `(b, r, f)` of block `t` is the entry `(b, 32 t + r, f)` of
    one array, the sum over the eight blocks of the blocks' sums is the sum over the array. Only commutativity and
    associativity of the addition are used. -/
theorem sum_blocks {M : Type} [AddCommMonoid M] (G : Fin 8 → Fin 2 → Fin 32 → Fin 128 → M) (X : Fin 2 → Fin 256 → Fin 128 → M)
    (h : ∀ (t : Fin 8) (b : Fin 2) (r : Fin 32) (f : Fin 128) (k : Fin 256), k.val = t.val * 32 + r.val → G t b r f = X b k f) :
    ∑ t : Fin 8, ∑ b : Fin 2, ∑ r : Fin 32, ∑ f : Fin 128, G t b r f = ∑ b : Fin 2, ∑ k : Fin 256, ∑ f : Fin 128, X b k f := by
  rw [Finset.sum_comm]
  refine Finset.sum_congr rfl fun b _ => ?_
  have e : ∑ k : Fin 256, ∑ f : Fin 128, X b k f
      = ∑ t : Fin 8, ∑ r : Fin 32, ∑ f : Fin 128, X b ⟨t.val * 32 + r.val, Cert.FibreSums.rowMajor_lt t r⟩ f :=
    Cert.FibreSums.sum_rowMajor 8 32 (fun k : Fin 256 => ∑ f : Fin 128, X b k f)
  rw [e]
  exact Finset.sum_congr rfl fun t _ => Finset.sum_congr rfl fun r _ => Finset.sum_congr rfl fun f _ =>
    h t b r f ⟨t.val * 32 + r.val, Cert.FibreSums.rowMajor_lt t r⟩ rfl

variable (V : (c : Dev nD) → (b : Ref sig .tc) → Buf (Elt Ideal) ((c : Thread nD τ).loc b))

/-! ## The audio block of a grid point, read off the audio array -/

/-- The audio window's block index at grid point `t` is `(0, 0, t, 0)`: decided over the grid. -/
theorem idx_facts : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)

/-- Entry `(b, q, r, f)` of the audio block at grid point `t` is entry `(b, q, 32 t + r, f)` of the audio array. -/
theorem iblk_apply (c : Dev nD) (t : Fin cfg0.N) (b : Fin 2) (q : Fin 512) (r : Fin 32) (f : Fin 128) (k : Fin 256)
    (hk : k.val = t.val * 32 + r.val) :
    (iblk0 (F := Ideal) V c 0 t : Vec Ideal S2x512x32x128 .f32) (ix4 b q r f)
      = (V c main_arg0 : S2x512x256x128.Idx → EReal) (ix4 b q k f) := by
  obtain ⟨i0, i1, i2, i3⟩ := idx_facts t
  unfold iblk0
  rw [View.read_apply]
  show (V c main_arg0 : S2x512x256x128.Idx → EReal) _ = _
  refine congrArg _ ?_
  funext a
  apply Fin.ext
  match a with
  | ⟨0, _⟩ => show win0_0.index t (0 : Fin 4) * 2 + 1 * b.val = b.val; omega
  | ⟨1, _⟩ => show win0_0.index t (1 : Fin 4) * 512 + 1 * q.val = q.val; omega
  | ⟨2, _⟩ => show win0_0.index t (2 : Fin 4) * 32 + 1 * r.val = k.val; omega
  | ⟨3, _⟩ => show win0_0.index t (3 : Fin 4) * 128 + 1 * f.val = f.val; omega

/-! ## The output arrays after the run: what the last grid point wrote back -/

/-- The last grid point is a point of the grid. -/
theorem h7 : 7 < cfg0.N := by rw [show cfg0.N = 8 from N_0]; decide

/-- What the last grid point leaves in the first running block, as contents of the first output array: the block is
    the whole array. -/
abbrev last1 (c : Dev nD) : Buf (Elt Ideal) ((c : Thread nD τ).loc main_v0_0) := (outsAt0 (F := Ideal) V c 7 h7).1
/-- The same for the second running block and the second output array. -/
abbrev last2 (c : Dev nD) : Buf (Elt Ideal) ((c : Thread nD τ).loc main_v0_1) := (outsAt0 (F := Ideal) V c 7 h7).2

/-- The one write-back of the first output, at the last grid point, writes its running block: block `(0, 0)` of the
    `[1, 512]` array, read through zero offsets, is the array. -/
theorem flushed_eq_1 (c : Dev nD) (t : Fin cfg0.N) (hf : (cfg0.win 1).flush t = true) :
    (dat0 (F := Ideal) V c).flushed 1 t = ((cfg0.win 1).blk t).view.read (Elt Ideal) (last1 V c) := by
  have hN : cfg0.N = 8 := N_0
  have h7' : t.val = 7 := by have := (flush0_1 t).mp hf; have := t.isLt; omega
  obtain rfl : t = t0_7 := Fin.ext h7'
  show (cfg0.win 1).cut (grid0.coords t0_7) ((dat0 (F := Ideal) V c).after 1 t0_7) = _
  rw [after0_1]
  have hz' : (fun a => win0_1.index t0_7 a * main_v0_0.ty.shape.size a) = fun _ => 0 :=
    funext fun a => by fin_cases a <;> decide
  exact (Memref.read_access_unit_zero (Elt Ideal) main_v0_0 hz' (fun a => by rw [congrFun hz' a]; simp) (last1 V c)).symm

/-- The same for the second output. -/
theorem flushed_eq_2 (c : Dev nD) (t : Fin cfg0.N) (hf : (cfg0.win 2).flush t = true) :
    (dat0 (F := Ideal) V c).flushed 2 t = ((cfg0.win 2).blk t).view.read (Elt Ideal) (last2 V c) := by
  have hN : cfg0.N = 8 := N_0
  have h7' : t.val = 7 := by have := (flush0_2 t).mp hf; have := t.isLt; omega
  obtain rfl : t = t0_7 := Fin.ext h7'
  show (cfg0.win 2).cut (grid0.coords t0_7) ((dat0 (F := Ideal) V c).after 2 t0_7) = _
  rw [after0_2]
  have hz' : (fun a => win0_2.index t0_7 a * main_v0_1.ty.shape.size a) = fun _ => 0 :=
    funext fun a => by fin_cases a <;> decide
  exact (Memref.read_access_unit_zero (Elt Ideal) main_v0_1 hz' (fun a => by rw [congrFun hz' a]; simp) (last2 V c)).symm

/-- So the first output array ends holding what the last grid point left: that point's block covers the array. -/
theorem arr_final_1 (c : Dev nD) : (dat0 (F := Ideal) V c).arrAt 1 cfg0.N = last1 V c :=
  (dat0 (F := Ideal) V c).arrAt_eq_of_cover 1 (last1 V c) (flushed_eq_1 V c) fun i =>
    ⟨t0_7, (flush0_1 t0_7).mpr rfl, by
      show i ∈ ((View.whole main_v0_0).slice (win0_1.rect t0_7)).set
      rw [View.set_slice_whole, Rect.mem_set_unit]
      intro a
      have h0 : (i 0 : Nat) < 1 := (i 0).isLt
      have h1 : (i 1 : Nat) < 512 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 512 from by decide +kernel]; omega⟩

/-- The same for the second output array. -/
theorem arr_final_2 (c : Dev nD) : (dat0 (F := Ideal) V c).arrAt 2 cfg0.N = last2 V c :=
  (dat0 (F := Ideal) V c).arrAt_eq_of_cover 2 (last2 V c) (flushed_eq_2 V c) fun i =>
    ⟨t0_7, (flush0_2 t0_7).mpr rfl, by
      show i ∈ ((View.whole main_v0_1).slice (win0_2.rect t0_7)).set
      rw [View.set_slice_whole, Rect.mem_set_unit]
      intro a
      have h0 : (i 0 : Nat) < 1 := (i 0).isLt
      have h1 : (i 1 : Nat) < 512 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 512 from by decide +kernel]; omega⟩

/-! ## The statistics as plain sums of the audio array -/

/-- The audio array as the statistics pass finds it, its entries read as extended reals. -/
abbrev audio (c : Dev nD) : S2x512x256x128.Idx → EReal := V c main_arg0
/-- The audio block at grid point `t`. -/
abbrev blk (c : Dev nD) (t : Fin cfg0.N) : Vec Ideal S2x512x32x128 .f32 := iblk0 (F := Ideal) V c 0 t

/-- After the statistics pass the first output holds, at channel `q`, the sum of the audio over batch, all 256 time
    steps and frequency. -/
theorem sum_final (c : Dev nD) (q : Fin 512) :
    (dat0 (F := Ideal) V c).arrAt 1 cfg0.N (ix2 (0 : Fin 1) q)
      = (∑ b : Fin 2, ∑ t : Fin 256, ∑ f : Fin 128, audio V c (ix4 b q t f) : EReal) := by
  rw [arr_final_1 V c]
  show (outsAt0 (F := Ideal) V c 7 h7).1 (ix2 0 q) = _
  rw [outs_eq_1 V c q 7 h7, zero_add]
  exact sum_blocks (M := EReal)
    (fun t b r f => blk V c ⟨t.val, Nat.lt_of_lt_of_le t.isLt h7⟩ (ix4 b q r f))
    (fun b k f => audio V c (ix4 b q k f))
    (fun t b r f k hk => iblk_apply V c ⟨t.val, Nat.lt_of_lt_of_le t.isLt h7⟩ b q r f k hk)

/-- After the statistics pass the second output holds, at channel `q`, the sum of the squares of the audio over batch,
    all 256 time steps and frequency. -/
theorem sumsq_final (c : Dev nD) (q : Fin 512) :
    (dat0 (F := Ideal) V c).arrAt 2 cfg0.N (ix2 (0 : Fin 1) q)
      = (∑ b : Fin 2, ∑ t : Fin 256, ∑ f : Fin 128, audio V c (ix4 b q t f) * audio V c (ix4 b q t f) : EReal) := by
  rw [arr_final_2 V c]
  show (outsAt0 (F := Ideal) V c 7 h7).2 (ix2 0 q) = _
  rw [outs_eq_2 V c q 7 h7, zero_add]
  exact sum_blocks (M := EReal)
    (fun t b r f => blk V c ⟨t.val, Nat.lt_of_lt_of_le t.isLt h7⟩ (ix4 b q r f)
      * blk V c ⟨t.val, Nat.lt_of_lt_of_le t.isLt h7⟩ (ix4 b q r f))
    (fun b k f => audio V c (ix4 b q k f) * audio V c (ix4 b q k f))
    (fun t b r f k hk => by
      show blk V c ⟨t.val, Nat.lt_of_lt_of_le t.isLt h7⟩ (ix4 b q r f) * blk V c ⟨t.val, Nat.lt_of_lt_of_le t.isLt h7⟩ (ix4 b q r f) = _
      rw [show blk V c ⟨t.val, Nat.lt_of_lt_of_le t.isLt h7⟩ (ix4 b q r f) = audio V c (ix4 b q k f) from
        iblk_apply V c ⟨t.val, Nat.lt_of_lt_of_le t.isLt h7⟩ b q r f k hk])

end Cert.KernelIdeal.Stats

end
-- ==== Proof.NearestIdx.lean ====
/-
  THE NEAREST-NEIGHBOUR RESIZE INDEX TABLE: 256 start indices into an axis of length 64, index j reading floor(j/4).

  One program computes the table: the position j as a 32-bit word, converted to a real, multiplied by the
  single-precision word of 1/4, floored, converted back to a 32-bit word, and passed through the usual fix-up of a
  negative index (add 64 where the word is negative).  The other holds the table as a literal 0,0,0,0,1,1,1,1,…,
  63,63,63,63 and passes it through the same fix-up with a constant-false mask.  Over the extended reals every step is
  exact: the word of j < 256 read signed is j; j · (1/4) is the real j/4; its floor is the natural quotient j / 4 (from
  j = 4·(j/4) + j mod 4 with 0 ≤ j mod 4 < 4); a natural number below 64 lies inside the clamp of the conversion to a
  32-bit word and is not negative as a signed word, so the fix-up keeps it.  Both tables are therefore the one function
  j ↦ the 32-bit word of j / 4.
-/
import proofs.«118657_j45303315038549_1_alg».proof.KernelIdeal
import Idealize.ShloMosaic.PureOps.Ideal
import Idealize.ShloMosaic.PureOps.Ideal.Laws
import Idealize.ShloMosaic.Lib.ValueIdx
import Idealize.ShloMosaic.Lib.StableHlo

noncomputable section

namespace Cert.NearestIdx

open Idealize.ShloMosaic

abbrev S256 : Shape := ⟨1, ![256]⟩
abbrev S_ : Shape := ⟨0, ![]⟩

/-- The table both programs use: position j reads the 32-bit word of j / 4. -/
abbrev quarter : IVec S256 32 := fun j => BitVec.ofNat 32 ((j 0).val / 4)

/-! ## The scalar facts -/

/-- The single-precision word 0x3E800000 (exponent 125, fraction 0) is the real number 2⁻² = 1/4. -/
theorem ofBits_quarter : Ideal.ofBits .f32 0x3E800000#32 = ((1 / 4 : ℝ) : EReal) := by
  simp [Ideal.ofBits, Ideal.ieee, -EReal.coe_mul]; norm_num

/-- The 32-bit word of a natural number below 256, read signed, is that number. -/
theorem toInt_ofNat_small (n : ℕ) (h : n < 256) : (BitVec.ofNat 32 n).toInt = (n : ℤ) := by
  have hlt : 2 * (BitVec.ofNat 32 n).toNat < 2 ^ 32 := by
    rw [BitVec.toNat_ofNat]; omega
  rw [BitVec.toInt_eq_toNat_of_lt hlt, BitVec.toNat_ofNat]
  have : n % 2 ^ 32 = n := Nat.mod_eq_of_lt (by omega)
  rw [this]

/-- The floor of n · (1/4) is the natural quotient n / 4: n = 4·(n/4) + n mod 4 with 0 ≤ n mod 4 < 4. -/
theorem floor_quarter (n : ℕ) : ⌊(n : ℝ) * (1 / 4 : ℝ)⌋ = ((n / 4 : ℕ) : ℤ) := by
  rw [Int.floor_eq_iff]
  have h := Nat.div_add_mod n 4
  have h2 := Nat.mod_lt n (show 4 > 0 by norm_num)
  have hr : (n : ℝ) = 4 * ((n / 4 : ℕ) : ℝ) + ((n % 4 : ℕ) : ℝ) := by exact_mod_cast h.symm
  have h3 : ((n % 4 : ℕ) : ℝ) < 4 := by exact_mod_cast h2
  have h4 : (0 : ℝ) ≤ ((n % 4 : ℕ) : ℝ) := Nat.cast_nonneg _
  rw [Int.cast_natCast]
  constructor <;> linarith

/-- The conversion of a natural number k < 2³¹, as a real, to a 32-bit word is the word of k: k is its own floor and
    lies inside the clamp. -/
theorem fptosi_natCast (k : ℕ) (h : k < 2 ^ 31) : Ideal.fptosi 32 (((k : ℤ) : ℝ) : EReal) = BitVec.ofNat 32 k := by
  have h0 : (0 : ℝ) ≤ ((k : ℤ) : ℝ) := by exact_mod_cast Nat.zero_le k
  rw [Ideal.fptosi, Ideal.toIntClamped_coe, if_pos h0, Int.floor_intCast]
  have hmin : min (((2 ^ (32 - 1) : ℕ) : ℤ) - 1) (k : ℤ) = (k : ℤ) := by
    apply min_eq_right; push_cast; omega
  have hmax : max (-((2 ^ (32 - 1) : ℕ) : ℤ)) (k : ℤ) = (k : ℤ) := by
    apply max_eq_right; push_cast; omega
  rw [hmin, hmax, BitVec.ofInt_natCast]

/-- One position of the computed table before the fix-up: the word of j, converted, times 1/4, floored, converted
    back, is the word of j / 4. -/
theorem i0_word (n : ℕ) (h : n < 256) :
    FloatOps.fptosi (F := Ideal) (φ := .f32) 32
        (FloatOps.hostUnary .floor
          (FloatOps.mulf (FloatOps.sitofp (F := Ideal) .f32 (BitVec.ofNat 32 n)) (FloatOps.ofBits (F := Ideal) .f32 0x3E800000#32)))
      = BitVec.ofNat 32 (n / 4) := by
  show Ideal.fptosi 32 (Ideal.liftRound Int.floor
      ((((BitVec.ofNat 32 n).toInt : ℝ) : EReal) * Ideal.ofBits .f32 0x3E800000#32)) = _
  rw [toInt_ofNat_small n h, ofBits_quarter, ← EReal.coe_mul, Ideal.liftRound_coe, Int.cast_natCast, floor_quarter]
  exact fptosi_natCast _ (by omega)

/-- The fix-up of a negative index keeps the word of a natural number below 2³¹: read signed it is not negative. -/
theorem fixup_word (k : ℕ) (h : k < 64) (y : BitVec 32) :
    Scalar.select (IntOp.cmpi .slt (BitVec.ofNat 32 k) 0#32) y (BitVec.ofNat 32 k) = BitVec.ofNat 32 k := by
  have hs : (BitVec.ofNat 32 k).slt 0#32 = false := by
    rw [BitVec.slt, toInt_ofNat_small k (by omega)]
    simp
  simp [Scalar.select, IntOp.cmpi, hs]

/-! ## The computed table -/

/-- The computed table before the fix-up. Rewrites the term
    fptosi 32 (Host.floor (mulf (sitofp .f32 (iotaInDim S256 32 0)) (broadcastInDim S256 ![] hb (constant S_ .f32 0x3E800000#32)))). -/
theorem computed_i0_eq (hb : S_.BroadcastsInDim S256 (![] : Fin 0 → Fin S256.rank)) :
    fptosi 32 (Host.floor (mulf (sitofp (F := Ideal) .f32 (iotaInDim S256 32 0))
        (broadcastInDim S256 ![] hb (constant (F := Ideal) S_ .f32 0x3E800000#32)))) = quarter := by
  funext j
  exact i0_word (j 0).val (j 0).isLt

/-- The fix-up of a negative index, applied to the table, returns the table, whatever is added where the mask is set.
    Rewrites select (cmpi .slt quarter (broadcastInDim S256 ![] hb (constantI S_ 32 0#32))) y quarter. -/
theorem fixup_quarter (hb : S_.BroadcastsInDim S256 (![] : Fin 0 → Fin S256.rank)) (y : IVec S256 32) :
    select (cmpi .slt quarter (broadcastInDim S256 ![] hb (constantI S_ 32 0#32))) y quarter = quarter := by
  funext j
  have hj : (j 0).val < 256 := (j 0).isLt
  exact fixup_word ((j 0).val / 4) (by omega) (y j)

/-- The computed table after the fix-up, as the program writes it (the pre-fix-up table occurring three times). -/
theorem computed_idx_eq (hb : S_.BroadcastsInDim S256 (![] : Fin 0 → Fin S256.rank)) :
    select
      (cmpi .slt
        (fptosi 32 (Host.floor (mulf (sitofp (F := Ideal) .f32 (iotaInDim S256 32 0))
          (broadcastInDim S256 ![] hb (constant (F := Ideal) S_ .f32 0x3E800000#32)))))
        (broadcastInDim S256 ![] hb (constantI S_ 32 0#32)))
      (addi
        (fptosi 32 (Host.floor (mulf (sitofp (F := Ideal) .f32 (iotaInDim S256 32 0))
          (broadcastInDim S256 ![] hb (constant (F := Ideal) S_ .f32 0x3E800000#32)))))
        (broadcastInDim S256 ![] hb (constantI S_ 32 64#32)))
      (fptosi 32 (Host.floor (mulf (sitofp (F := Ideal) .f32 (iotaInDim S256 32 0))
        (broadcastInDim S256 ![] hb (constant (F := Ideal) S_ .f32 0x3E800000#32)))))
      = quarter := by
  rw [computed_i0_eq hb]
  exact fixup_quarter hb _

/-! ## The literal table -/

/-- The 256 literal words are the words of j / 4. -/
theorem lit0_eq : ∀ j : Fin 256, Cert.KernelIdeal.lit0 j = BitVec.ofNat 32 (j.val / 4) := by
  decide

/-- The literal table, read at an index through the row-major position. Rewrites fun i => lit0 (S256.rowMajor i). -/
theorem literal_tbl_eq : (fun i : S256.Idx => Cert.KernelIdeal.lit0 (S256.rowMajor i)) = quarter := by
  funext i
  refine (lit0_eq (S256.rowMajor i)).trans ?_
  show BitVec.ofNat 32 ((S256.rowMajor i).val / 4) = BitVec.ofNat 32 ((i 0).val / 4)
  rw [Shape.rowMajor_val_one]

/-- A selection under the constant-false mask returns its second alternative. -/
theorem select_false {S : Shape} {α : Type} (a b : S.Idx → α) : select (constantI S 1 0#1) a b = b := by
  funext j
  simp [select, constantI, Scalar.select]

/-- The literal table after its fix-up under the constant-false mask, as the program writes it. -/
theorem literal_idx_eq (hb : S_.BroadcastsInDim S256 (![] : Fin 0 → Fin S256.rank)) :
    select (constantI S256 1 0#1)
      (addi (fun i : S256.Idx => Cert.KernelIdeal.lit0 (S256.rowMajor i)) (broadcastInDim S256 ![] hb (constantI S_ 32 64#32)))
      (fun i : S256.Idx => Cert.KernelIdeal.lit0 (S256.rowMajor i)) = quarter := by
  rw [select_false, literal_tbl_eq]

end Cert.NearestIdx
-- ==== Proof.RefBn.lean ====
/-
  THE REFERENCE'S BATCH NORM AS ONE WHOLE-ARRAY FUNCTION, AND ITS VALUE AT AN INDEX.

  The reference normalizes a [2, 512, 256, 128] array per channel (axis 1) in training mode, in two passes.  It scales
  the array by a per-channel weight, takes the mean over the other three axes keeping unit axes ([1, 512, 1, 1]),
  takes the variance as a separate function (the mean again, the squared deviations, their sum over a divisor
  "65536 minus a degrees-of-freedom word", guarded by "that divisor is positive", else a quiet NaN word), and then
  subtracts the mean, multiplies by the reciprocal square root of variance + ε, by the per-channel gain, and adds the
  per-channel offset.  Here the same operations, in the same order, with the same operands, are written as plain
  functions of the four arrays; reading the result at (b, c, t, f) then gives the per-channel two-pass expression of
  channel c: a broadcast reads its operand at the channel, a sum over the three other axes is the initial value plus
  the triple sum, the guard's divisor 65536 − 0 is positive so the guarded value is the quotient.
-/
import proofs.«118657_j45303315038549_1_alg».proof.ReferenceIdeal
import proofs.«118657_j45303315038549_1_alg».proof.Proof.Gen.ReferenceIdeal
import proofs.«118657_j45303315038549_1_alg».proof.Proof.ChannelLaw
import proofs.«118657_j45303315038549_1_alg».proof.Proof.LibFibreSums
import Idealize.ShloMosaic.Lib.ValueIdx
import Idealize.ShloMosaic.Lib.IdealHost
import Idealize.ShloMosaic.Lib.Pipeline.Value

noncomputable section

namespace Cert.RefBn

open Idealize.ShloMosaic Idealize.ShloMosaic.ValueIdx
open Cert.ReferenceIdeal (S2x512x256x128 S1x512x1x1 S512 S_)
open Cert.ReferenceIdeal.Facts₀ Cert.ReferenceIdeal.Facts
open scoped BigOperators

variable [Cert.ReferenceIdeal.Facts]

/-! ## The operations, in the reference's order -/

/-- A per-channel vector placed on axis 1 of [1, 512, 1, 1]. -/
def keep (v : FVec Ideal S512 .f32) : FVec Ideal S1x512x1x1 .f32 :=
  broadcastInDim S1x512x1x1 ![1] bcast_S512_S1x512x1x1_1 v

/-- A [1, 512, 1, 1] array repeated over batch, frame and frequency. -/
def full (u : FVec Ideal S1x512x1x1 .f32) : FVec Ideal S2x512x256x128 .f32 :=
  broadcastInDim S2x512x256x128 ![0, 1, 2, 3] bcast_S1x512x1x1_S2x512x256x128_0_1_2_3 u

/-- The array times the per-channel weight. -/
def scaled (x : FVec Ideal S2x512x256x128 .f32) (w : FVec Ideal S512 .f32) : FVec Ideal S2x512x256x128 .f32 :=
  mulf x (full (keep w))

/-- The sum over batch, frame and frequency from the zero word, kept on [1, 512, 1, 1]. -/
def sumKeep (y : FVec Ideal S2x512x256x128 .f32) : FVec Ideal S1x512x1x1 .f32 :=
  keep (Host.reduceAdd y (constant (F := Ideal) S_ .f32 0x00000000#32) reducesTo_S2x512x256x128_S512_d0_2_3 h_S_)

/-- The mean: that sum over the word of 65536. -/
def meanKeep (y : FVec Ideal S2x512x256x128 .f32) : FVec Ideal S1x512x1x1 .f32 :=
  Host.divf (sumKeep y) (broadcastInDim S1x512x1x1 ![] bcast_S_S1x512x1x1 (constant (F := Ideal) S_ .f32 0x47800000#32))

/-- The variance's divisor: the word of 65536 minus the converted degrees-of-freedom word 0. -/
def ddofDiv : FVec Ideal S_ .f32 :=
  subf (constant (F := Ideal) S_ .f32 0x47800000#32) (sitofp (F := Ideal) .f32 (constantI S_ 32 0#32))

/-- The squared deviations from the mean. -/
def sqDev (y : FVec Ideal S2x512x256x128 .f32) : FVec Ideal S2x512x256x128 .f32 :=
  mulf (subf y (full (meanKeep y))) (subf y (full (meanKeep y)))

/-- The variance: the mean squared deviation where the divisor is positive, else the quiet NaN word. -/
def varKeep (y : FVec Ideal S2x512x256x128 .f32) : FVec Ideal S1x512x1x1 .f32 :=
  (fun p a b => select (broadcastInDim S1x512x1x1 ![] bcast_S_S1x512x1x1 p) a b)
    (cmpf .ogt ddofDiv (constant (F := Ideal) S_ .f32 0x00000000#32))
    (Host.divf (sumKeep (sqDev y)) (broadcastInDim S1x512x1x1 ![] bcast_S_S1x512x1x1 ddofDiv))
    (broadcastInDim S1x512x1x1 ![] bcast_S_S1x512x1x1 (id (constant (F := Ideal) S_ .f32 0x7FC00000#32)))

/-- The reciprocal standard deviation: the reciprocal square root of variance plus the ε word. -/
def invStd (y : FVec Ideal S2x512x256x128 .f32) : FVec Ideal S1x512x1x1 .f32 :=
  Host.rsqrt (addf (varKeep y)
    (broadcastInDim S1x512x1x1 ![] bcast_S_S1x512x1x1 (constant (F := Ideal) S_ .f32 0x3727C5AC#32)))

/-- The reference's batch norm of x with weight w, gain γ and offset β. -/
def bnRef (x : FVec Ideal S2x512x256x128 .f32) (w γ β : FVec Ideal S512 .f32) : FVec Ideal S2x512x256x128 .f32 :=
  addf (mulf (mulf (subf (scaled x w) (full (meanKeep (scaled x w)))) (full (invStd (scaled x w)))) (full (keep γ)))
    (full (keep β))

/-! ## The operations read at an index -/

/-- A per-channel vector placed on axis 1 reads the vector at the index's channel. -/
theorem keep_apply (v : FVec Ideal S512 .f32) (c : Fin 512) : keep v (ix4 0 c 0 0) = v (ix1 c) := by
  unfold keep
  refine broadcastInDim_apply _ _ v _ (ix1 c) ?_
  intro a
  match a with
  | ⟨0, _⟩ => rfl

/-- A [1, 512, 1, 1] array repeated over the other axes reads the array at the channel. -/
theorem full_apply (u : FVec Ideal S1x512x1x1 .f32) (b : Fin 2) (c : Fin 512) (t : Fin 256) (f : Fin 128) :
    full u (ix4 b c t f) = u (ix4 0 c 0 0) := by
  unfold full
  refine broadcastInDim_apply _ _ u _ (ix4 0 c 0 0) ?_
  intro a
  match a with
  | ⟨0, _⟩ => rfl
  | ⟨1, _⟩ => rfl
  | ⟨2, _⟩ => rfl
  | ⟨3, _⟩ => rfl

/-- The scaled array at an index: the entry times the channel's weight. -/
theorem scaled_apply (x : FVec Ideal S2x512x256x128 .f32) (w : FVec Ideal S512 .f32)
    (b : Fin 2) (c : Fin 512) (t : Fin 256) (f : Fin 128) :
    scaled x w (ix4 b c t f) = x (ix4 b c t f) * w (ix1 c) := by
  show x (ix4 b c t f) * full (keep w) (ix4 b c t f) = _
  rw [full_apply, keep_apply]

/-- The kept sum at a channel: zero plus the triple sum over batch, frame and frequency. -/
theorem sumKeep_apply (y : FVec Ideal S2x512x256x128 .f32) (c : Fin 512) :
    sumKeep y (ix4 0 c 0 0) = 0 + ∑ b : Fin 2, ∑ t : Fin 256, ∑ f : Fin 128, y (ix4 b c t f) := by
  unfold sumKeep
  rw [keep_apply, hostReduceAdd_apply, Cert.FibreSums.hostReduceAdd_r4_023]
  show Ideal.ofBits .f32 0x00000000#32 + _ = _
  rw [Ideal.ofBits_zero_f32]

/-- A scalar constant broadcast to [1, 512, 1, 1] reads the word's value. -/
theorem bcastConst_apply (wd : BitVec 32) (j : S1x512x1x1.Idx) :
    broadcastInDim S1x512x1x1 ![] bcast_S_S1x512x1x1 (constant (F := Ideal) S_ .f32 wd) j = Ideal.ofBits .f32 wd := by
  rw [broadcastInDim_scalar_apply]; rfl

/-- The kept mean at a channel: (zero plus the triple sum) over the word of 65536. -/
theorem meanKeep_apply (y : FVec Ideal S2x512x256x128 .f32) (c : Fin 512) :
    meanKeep y (ix4 0 c 0 0)
      = Ideal.div (0 + ∑ b : Fin 2, ∑ t : Fin 256, ∑ f : Fin 128, y (ix4 b c t f)) (Ideal.ofBits .f32 0x47800000#32) := by
  unfold meanKeep
  rw [hostDivf_apply, sumKeep_apply, bcastConst_apply]

/-- The variance's divisor 65536 − 0 is the word of 65536: the zero word converts to the real zero. -/
theorem ddofDiv_eq : ddofDiv = constant (F := Ideal) S_ .f32 0x47800000#32 := by
  funext i
  show Ideal.ofBits .f32 0x47800000#32 - (((0#32 : BitVec 32).toInt : ℝ) : EReal) = Ideal.ofBits .f32 0x47800000#32
  simp

/-- The guard "the divisor is positive" is the true bit: 65536 > 0. -/
theorem guard_true : cmpf .ogt ddofDiv (constant (F := Ideal) S_ .f32 0x00000000#32) = constantI S_ 1 1#1 := by
  rw [ddofDiv_eq]
  funext i
  show Ideal.cmp .ogt (Ideal.ofBits .f32 0x47800000#32) (Ideal.ofBits .f32 0x00000000#32) = 1#1
  rw [Ideal.ofBits_zero_f32, Cert.ChannelLaw.ofBits_N]
  unfold Ideal.cmp
  have h : (0 : EReal) < ((65536 : ℝ) : EReal) := by exact_mod_cast (by norm_num : (0 : ℝ) < 65536)
  simp [h]

/-- The squared deviation at an index. -/
theorem sqDev_apply (y : FVec Ideal S2x512x256x128 .f32) (b : Fin 2) (c : Fin 512) (t : Fin 256) (f : Fin 128) :
    sqDev y (ix4 b c t f)
      = (y (ix4 b c t f) - meanKeep y (ix4 0 c 0 0)) * (y (ix4 b c t f) - meanKeep y (ix4 0 c 0 0)) := by
  show (y (ix4 b c t f) - full (meanKeep y) (ix4 b c t f)) * (y (ix4 b c t f) - full (meanKeep y) (ix4 b c t f)) = _
  rw [full_apply]

/-- The kept variance at a channel: the guard holds, so it is (zero plus the triple sum of squared deviations) over
    the word of 65536. -/
theorem varKeep_apply (y : FVec Ideal S2x512x256x128 .f32) (c : Fin 512) :
    varKeep y (ix4 0 c 0 0)
      = Ideal.div (0 + ∑ b : Fin 2, ∑ t : Fin 256, ∑ f : Fin 128,
          (y (ix4 b c t f) - meanKeep y (ix4 0 c 0 0)) * (y (ix4 b c t f) - meanKeep y (ix4 0 c 0 0)))
        (Ideal.ofBits .f32 0x47800000#32) := by
  unfold varKeep
  rw [guard_true, ddofDiv_eq]
  show Scalar.select (broadcastInDim S1x512x1x1 ![] bcast_S_S1x512x1x1 (constantI S_ 1 1#1) (ix4 0 c 0 0))
      (Host.divf (sumKeep (sqDev y)) (broadcastInDim S1x512x1x1 ![] bcast_S_S1x512x1x1 (constant (F := Ideal) S_ .f32 0x47800000#32))
        (ix4 0 c 0 0)) _ = _
  rw [broadcastInDim_scalar_apply, hostDivf_apply, sumKeep_apply, bcastConst_apply]
  simp only [sqDev_apply]
  simp [Scalar.select, constantI]

/-- The reciprocal standard deviation at a channel. -/
theorem invStd_apply (y : FVec Ideal S2x512x256x128 .f32) (c : Fin 512) :
    invStd y (ix4 0 c 0 0) = Ideal.rsqrt (varKeep y (ix4 0 c 0 0) + Ideal.ofBits .f32 0x3727C5AC#32) := by
  unfold invStd
  show Ideal.rsqrt (varKeep y (ix4 0 c 0 0)
    + broadcastInDim S1x512x1x1 ![] bcast_S_S1x512x1x1 (constant (F := Ideal) S_ .f32 0x3727C5AC#32) (ix4 0 c 0 0)) = _
  rw [bcastConst_apply]

/-! ## The batch norm at an index -/

/-- The reference's batch norm at (b, c, t, f) is the two-pass per-channel expression of channel c. -/
theorem bnRef_apply (x : FVec Ideal S2x512x256x128 .f32) (w γ β : FVec Ideal S512 .f32)
    (b : Fin 2) (c : Fin 512) (t : Fin 256) (f : Fin 128) :
    bnRef x w γ β (ix4 b c t f)
      = Cert.ChannelLaw.ref (fun b' t' f' => x (ix4 b' c t' f')) (w (ix1 c)) (γ (ix1 c)) (β (ix1 c)) (x (ix4 b c t f)) := by
  have hmu : meanKeep (scaled x w) (ix4 0 c 0 0)
      = Cert.ChannelLaw.rMu (fun b' t' f' => x (ix4 b' c t' f')) (w (ix1 c)) := by
    rw [meanKeep_apply]
    simp only [scaled_apply]
    rfl
  have hvar : varKeep (scaled x w) (ix4 0 c 0 0)
      = Cert.ChannelLaw.rVar (fun b' t' f' => x (ix4 b' c t' f')) (w (ix1 c)) := by
    rw [varKeep_apply, hmu]
    simp only [scaled_apply]
    rfl
  show ((scaled x w (ix4 b c t f) - full (meanKeep (scaled x w)) (ix4 b c t f))
        * full (invStd (scaled x w)) (ix4 b c t f)) * full (keep γ) (ix4 b c t f)
      + full (keep β) (ix4 b c t f) = _
  rw [full_apply, full_apply, full_apply, full_apply, keep_apply, keep_apply, invStd_apply, scaled_apply, hmu, hvar]
  rfl

end Cert.RefBn
-- ==== Proof.RefRead.lean ====
/-
  The reference's pieces joined to their readings.

  The nearest-neighbour index table the reference computes — the position as a float, times one quarter, floored, back
  to an integer, 64 added where negative — is the table j ↦ j / 4, as a column: over the extended reals every step is
  exact. The batch normalisation written here stretch by stretch is the same term as the one read at an index
  elsewhere: both list the reference's operations in order, so the two agree by unfolding.
-/
import proofs.«118657_j45303315038549_1_alg».proof.Proof.RefTerm
import proofs.«118657_j45303315038549_1_alg».proof.Proof.NearestIdx
import proofs.«118657_j45303315038549_1_alg».proof.Proof.RefBn

noncomputable section

namespace Cert.ReferenceIdeal.HandRun

open Cert.ReferenceIdeal Cert.ReferenceIdeal.Gen Idealize.ShloMosaic

/-- The computed index table is j ↦ j / 4, as a column. -/
theorem nearestIdx_eq :
    nearestIdx Ideal = broadcastInDim S256x1 ![0] bcast_S256_S256x1_0 (Cert.NearestIdx.quarter : IVec S256 32) := by
  unfold nearestIdx idxWrap idxFloor
  rw [Cert.NearestIdx.computed_idx_eq bcast_S_S256]

/-- The table read at time step t: the word of t / 4. -/
theorem nearestIdx_apply (i : S256x1.Idx) : nearestIdx Ideal i = BitVec.ofNat 32 ((i 0).val / 4) := by
  rw [nearestIdx_eq]
  rfl

/-- The batch normalisation of the line is the one read at an index elsewhere: the same operations in the same order. -/
theorem bn_eq_bnRef (x : FVec Ideal S2x512x256x128 .f32) (w γ β : FVec Ideal S512 .f32) :
    bn (F := Ideal) x w γ β = Cert.RefBn.bnRef x w γ β := rfl

/-- The reference's result over that batch normalisation. -/
theorem refOut_eq (x : FVec Ideal S2x512x256x128 .f32) (e : FVec Ideal S2x512x64 .f32)
    (vw vγ vβ gw gγ gβ aw ab aγ aβ rw rb rγ rβ : FVec Ideal S512 .f32) :
    refOut (F := Ideal) x e vw vγ vβ gw gγ gβ aw ab aγ aβ rw rb rγ rβ
      = addf (mulf (spread (gatherT (softmaxLast (gnorm e aw ab aγ aβ)) (nearestIdx Ideal))) (Cert.RefBn.bnRef x vw vγ vβ))
          (mulf (relu (Cert.RefBn.bnRef x gw gγ gβ)) (spread (gatherT (gnorm e rw rb rγ rβ) (nearestIdx Ideal)))) := by
  unfold refOut
  rw [bn_eq_bnRef, bn_eq_bnRef]

end Cert.ReferenceIdeal.HandRun

end
-- ==== Proof.PreReal.lean ====
/-
  FROM THE FINITENESS PRECONDITION TO "EVERY ENTRY IS A REAL NUMBER".

  The precondition computes, for each of sixteen arrays a, the conjunction over all entries of |a i| < +inf and then
  the conjunction of the sixteen bits, and states that the result is 1.  On the extended reals |x| = max x (-x), and
  max x (-x) < ⊤ holds exactly when x is neither ⊤ nor ⊥, that is, when x is (the inclusion of) a real number.  A
  conjunction of bits that is 1 has every member 1, so every entry of every array is a real number.
-/
import proofs.«118657_j45303315038549_1_alg».proof.Pre_finite_inputs
import proofs.«118657_j45303315038549_1_alg».proof.Proof.Gen.Pre_finite_inputs
import proofs.«118657_j45303315038549_1_alg».proof.Defs
import Idealize.ShloMosaic.Lib.ReduceAll
import Idealize.ShloMosaic.PureOps.Ideal
import Idealize.ShloMosaic.PureOps.Ideal.Laws
import Idealize.ShloMosaic.Lib.ValueIdx
import Idealize.ShloMosaic.Lib.StableHlo

noncomputable section

namespace Cert.PreReal

open Idealize.ShloMosaic Idealize.SL.Sem
open Cert.Pre_finite_inputs (S_ S512 S2x512x64 S2x512x256x128)

/-- The shape with no axes has exactly one index. -/
instance : Subsingleton S_.Idx := ⟨fun a b => funext fun d => d.elim0⟩

/-- The single-precision word 0x7F800000 is +inf, the top of the extended reals. -/
theorem ofBits_inf : Ideal.ofBits .f32 0x7F800000#32 = (⊤ : EReal) := by
  simp [Ideal.ofBits, Ideal.ieee]

/-- An extended real whose absolute value max x (-x) is below ⊤ is a real number: ⊤ fails by itself, ⊥ by its
    negation. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry: the comparison |x| < +inf answering 1 makes x a real number. -/
theorem real_of_word (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h2 : Ideal.cmp .olt (max x (-x)) (Ideal.ofBits .f32 0x7F800000#32) = 1#1 := h
  rw [ofBits_inf] at h2
  simp only [Ideal.cmp] at h2
  by_contra hc
  rw [decide_eq_false hc] at h2
  exact absurd h2 (by decide)

/-- One array of any shape: the conjunction over all entries of |a i| < +inf being 1 makes every entry a real
    number. -/
theorem real_of_all {S : Shape} (hb : S_.BroadcastsInDim S (![] : Fin 0 → Fin S.rank)) {axes : List (Fin S.rank)}
    (hr : S.ReducesTo axes S_) (hu : 0 < S_.numel) (a : FVec Ideal S .f32)
    (h : Host.reduce IntOp.andi
          (cmpf .olt (Host.absf a) (broadcastInDim S ![] hb (constant (F := Ideal) S_ .f32 0x7F800000#32)))
          (constantI S_ 1 1#1) hr hu ValueIdx.ix0 = 1#1) :
    ∀ i, ∃ r : ℝ, a i = (r : EReal) := by
  intro i
  exact real_of_word (a i) (Host.reduce_andi_all _ _ hr hu _ h i)

/-- The precondition over sixteen arrays: each of them has only real entries. -/
theorem real_of_pre [Cert.Pre_finite_inputs.Facts] (a0 : FVec Ideal S2x512x256x128 .f32) (a1 : FVec Ideal S2x512x64 .f32)
    (a2 a3 a4 a5 a6 a7 a8 a9 a10 a11 a12 a13 a14 a15 : FVec Ideal S512 .f32)
    (h : Cert.Pre_finite_inputs.fn (F := Ideal) a0 a1 a2 a3 a4 a5 a6 a7 a8 a9 a10 a11 a12 a13 a14 a15 = fun _ => 1#1) :
    (∀ i, ∃ r : ℝ, a0 i = (r : EReal)) ∧
      (∀ i, ∃ r : ℝ, a1 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) := by
  have h' := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h'
  simp only [IntOp.andi_eq_one] at h'
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := h'
  exact ⟨real_of_all _ _ _ a0 h0,
    real_of_all _ _ _ a1 h1,
    real_of_all _ _ _ a2 h2,
    real_of_all _ _ _ a3 h3,
    real_of_all _ _ _ a4 h4,
    real_of_all _ _ _ a5 h5,
    real_of_all _ _ _ a6 h6,
    real_of_all _ _ _ a7 h7,
    real_of_all _ _ _ a8 h8,
    real_of_all _ _ _ a9 h9,
    real_of_all _ _ _ a10 h10,
    real_of_all _ _ _ a11 h11,
    real_of_all _ _ _ a12 h12,
    real_of_all _ _ _ a13 h13,
    real_of_all _ _ _ a14 h14,
    real_of_all _ _ _ a15 h15⟩

/-- The idealized kernel's precondition, on each device: each of its sixteen argument buffers has only real
    entries. -/
theorem real_of_pre_kernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S2x512x256x128.Idx, ∃ r : ℝ, (m ((c.tc : Thread Cert.KernelIdeal.nD Cert.KernelIdeal.τ).loc Cert.KernelIdeal.main_arg0) : FVec Ideal S2x512x256x128 .f32) i = (r : EReal)) ∧
      (∀ i : S2x512x64.Idx, ∃ r : ℝ, (m ((c.tc : Thread Cert.KernelIdeal.nD Cert.KernelIdeal.τ).loc Cert.KernelIdeal.main_arg1) : FVec Ideal S2x512x64 .f32) i = (r : EReal)) ∧
      (∀ i : S512.Idx, ∃ r : ℝ, (m ((c.tc : Thread Cert.KernelIdeal.nD Cert.KernelIdeal.τ).loc Cert.KernelIdeal.main_arg2) : FVec Ideal S512 .f32) i = (r : EReal)) ∧
      (∀ i : S512.Idx, ∃ r : ℝ, (m ((c.tc : Thread Cert.KernelIdeal.nD Cert.KernelIdeal.τ).loc Cert.KernelIdeal.main_arg3) : FVec Ideal S512 .f32) i = (r : EReal)) ∧
      (∀ i : S512.Idx, ∃ r : ℝ, (m ((c.tc : Thread Cert.KernelIdeal.nD Cert.KernelIdeal.τ).loc Cert.KernelIdeal.main_arg4) : FVec Ideal S512 .f32) i = (r : EReal)) ∧
      (∀ i : S512.Idx, ∃ r : ℝ, (m ((c.tc : Thread Cert.KernelIdeal.nD Cert.KernelIdeal.τ).loc Cert.KernelIdeal.main_arg5) : FVec Ideal S512 .f32) i = (r : EReal)) ∧
      (∀ i : S512.Idx, ∃ r : ℝ, (m ((c.tc : Thread Cert.KernelIdeal.nD Cert.KernelIdeal.τ).loc Cert.KernelIdeal.main_arg6) : FVec Ideal S512 .f32) i = (r : EReal)) ∧
      (∀ i : S512.Idx, ∃ r : ℝ, (m ((c.tc : Thread Cert.KernelIdeal.nD Cert.KernelIdeal.τ).loc Cert.KernelIdeal.main_arg7) : FVec Ideal S512 .f32) i = (r : EReal)) ∧
      (∀ i : S512.Idx, ∃ r : ℝ, (m ((c.tc : Thread Cert.KernelIdeal.nD Cert.KernelIdeal.τ).loc Cert.KernelIdeal.main_arg8) : FVec Ideal S512 .f32) i = (r : EReal)) ∧
      (∀ i : S512.Idx, ∃ r : ℝ, (m ((c.tc : Thread Cert.KernelIdeal.nD Cert.KernelIdeal.τ).loc Cert.KernelIdeal.main_arg9) : FVec Ideal S512 .f32) i = (r : EReal)) ∧
      (∀ i : S512.Idx, ∃ r : ℝ, (m ((c.tc : Thread Cert.KernelIdeal.nD Cert.KernelIdeal.τ).loc Cert.KernelIdeal.main_arg10) : FVec Ideal S512 .f32) i = (r : EReal)) ∧
      (∀ i : S512.Idx, ∃ r : ℝ, (m ((c.tc : Thread Cert.KernelIdeal.nD Cert.KernelIdeal.τ).loc Cert.KernelIdeal.main_arg11) : FVec Ideal S512 .f32) i = (r : EReal)) ∧
      (∀ i : S512.Idx, ∃ r : ℝ, (m ((c.tc : Thread Cert.KernelIdeal.nD Cert.KernelIdeal.τ).loc Cert.KernelIdeal.main_arg12) : FVec Ideal S512 .f32) i = (r : EReal)) ∧
      (∀ i : S512.Idx, ∃ r : ℝ, (m ((c.tc : Thread Cert.KernelIdeal.nD Cert.KernelIdeal.τ).loc Cert.KernelIdeal.main_arg13) : FVec Ideal S512 .f32) i = (r : EReal)) ∧
      (∀ i : S512.Idx, ∃ r : ℝ, (m ((c.tc : Thread Cert.KernelIdeal.nD Cert.KernelIdeal.τ).loc Cert.KernelIdeal.main_arg14) : FVec Ideal S512 .f32) i = (r : EReal)) ∧
      (∀ i : S512.Idx, ∃ r : ℝ, (m ((c.tc : Thread Cert.KernelIdeal.nD Cert.KernelIdeal.τ).loc Cert.KernelIdeal.main_arg15) : FVec Ideal S512 .f32) i = (r : EReal)) :=
  real_of_pre _ _ _ _ _ _ _ _ _ _ _ _ _ _ _ _ (h c)

end Cert.PreReal
-- ==== Proof.Bridge.lean ====
/-
  The two programs' results are one array.

  Entry (b, c, t, f) of the kernel's result is  att · (x · scale_v + shift_v) + max (x · scale_g + shift_g, 0) · vid  and of the
  reference's  att · bn_v + max (bn_g, 0) · vid,  with the same per-frame attention and video entries.  The kernel's
  x · scale + shift is the folded one-pass form of the channel law at the channel's sums (the statistics region's
  result), the reference's batch norm the two-pass form; for real entries — which the precondition gives — the channel law
  makes them equal, in both branches.
-/
import proofs.«118657_j45303315038549_1_alg».proof.Proof.BridgeKernel
import proofs.«118657_j45303315038549_1_alg».proof.Proof.BridgeRef
import proofs.«118657_j45303315038549_1_alg».proof.Proof.KernelValue
import proofs.«118657_j45303315038549_1_alg».proof.Proof.StatsValue
import proofs.«118657_j45303315038549_1_alg».proof.Proof.RefRead
import proofs.«118657_j45303315038549_1_alg».proof.Proof.RefBn
import proofs.«118657_j45303315038549_1_alg».proof.Proof.PreReal
import proofs.«118657_j45303315038549_1_alg».proof.Proof.ChannelLaw

set_option maxRecDepth 16384

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (ρ : Dev Cert.KernelIdeal.nD → PrngReg)

/-- The launched audio on core `c`, as a function of indices. -/
abbrev audio0 (c : Dev Cert.KernelIdeal.nD) : Cert.KernelIdeal.S2x512x256x128.Idx → EReal :=
  m ((c : Thread Cert.KernelIdeal.nD Cert.KernelIdeal.τ).loc Cert.KernelIdeal.main_arg0)

/-- The statistics region's first array holds each channel's sum of the launched audio. -/
theorem sums_eq (c : Dev Cert.KernelIdeal.nD) (q : Fin 512) :
    Cert.KernelIdeal.Result.sums m ρ c (ix2 (0 : Fin 1) q)
      = ∑ b : Fin 2, ∑ t : Fin 256, ∑ f : Fin 128,
          audio0 m c (ix4 b q t f) := by
  have haud : Cert.KernelIdeal.Stats.audio (Cert.KernelIdeal.Gen.V1 m ρ) c = audio0 m c :=
    Cert.KernelIdeal.Result.W1_arg0 m ρ c
  show (Cert.KernelIdeal.Gen.dat0 (F := Ideal) (Cert.KernelIdeal.Gen.V1 m ρ) c).arrAt 1 Cert.KernelIdeal.cfg0.N (ix2 (0 : Fin 1) q) = _
  rw [Cert.KernelIdeal.Stats.sum_final, haud]

/-- Its second array holds each channel's sum of squares. -/
theorem sumsqs_eq (c : Dev Cert.KernelIdeal.nD) (q : Fin 512) :
    Cert.KernelIdeal.Result.sumsqs m ρ c (ix2 (0 : Fin 1) q)
      = ∑ b : Fin 2, ∑ t : Fin 256, ∑ f : Fin 128,
          audio0 m c (ix4 b q t f)
            * audio0 m c (ix4 b q t f) := by
  have haud : Cert.KernelIdeal.Stats.audio (Cert.KernelIdeal.Gen.V1 m ρ) c = audio0 m c :=
    Cert.KernelIdeal.Result.W1_arg0 m ρ c
  show (Cert.KernelIdeal.Gen.dat0 (F := Ideal) (Cert.KernelIdeal.Gen.V1 m ρ) c).arrAt 2 Cert.KernelIdeal.cfg0.N (ix2 (0 : Fin 1) q) = _
  rw [Cert.KernelIdeal.Stats.sumsq_final, haud]

/-- The combine at an entry. -/
theorem combine_apply (x : Cert.KernelIdeal.S2x512x256x128.Idx → EReal) (sv hv sg hg : Cert.KernelIdeal.S1x512x1x1.Idx → EReal)
    (att vi : Cert.KernelIdeal.S2x512x256x1.Idx → EReal) (b : Fin 2) (ch : Fin 512) (t : Fin 256) (f : Fin 128) :
    Cert.KernelIdeal.Combine.combine x sv hv sg hg att vi (ix4 b ch t f)
      = att (ix4 b ch t (0 : Fin 1))
          * (x (ix4 b ch t f) * sv (ix4 (0 : Fin 1) ch (0 : Fin 1) (0 : Fin 1)) + hv (ix4 (0 : Fin 1) ch (0 : Fin 1) (0 : Fin 1)))
        + max (x (ix4 b ch t f) * sg (ix4 (0 : Fin 1) ch (0 : Fin 1) (0 : Fin 1)) + hg (ix4 (0 : Fin 1) ch (0 : Fin 1) (0 : Fin 1))) 0
          * vi (ix4 b ch t (0 : Fin 1)) := rfl

/-- THE BRIDGE.  Under the precondition the kernel's result array is the reference's result term of the launched arguments,
    whatever per-frame attention and video arrays the two programs share. -/
theorem result_eq [Cert.Pre_finite_inputs.Facts] (hpre : Cert.Pre_KernelIdeal m) (c : Dev Cert.KernelIdeal.nD)
    (A V : FVec Ideal Cert.KernelIdeal.S2x512x256x1 .f32)
    (hA : Cert.KernelIdeal.Gen.W7 m ρ c (Proc.devRef .tc Cert.KernelIdeal.main_v106) = A)
    (hV : Cert.KernelIdeal.Gen.W7 m ρ c (Proc.devRef .tc Cert.KernelIdeal.main_v107) = V)
    (e : FVec Ideal Cert.ReferenceIdeal.S2x512x64 .f32) (aw ab aγ aβ rw rb rγ rβ : FVec Ideal Cert.ReferenceIdeal.S512 .f32)
    (hAr : Cert.ReferenceIdeal.HandRun.unit4 (F := Ideal) (Cert.ReferenceIdeal.HandRun.gatherT (Cert.ReferenceIdeal.HandRun.softmaxLast (Cert.ReferenceIdeal.HandRun.gnorm e aw ab aγ aβ)) (Cert.ReferenceIdeal.HandRun.nearestIdx Ideal)) = A)
    (hVr : Cert.ReferenceIdeal.HandRun.unit4 (F := Ideal) (Cert.ReferenceIdeal.HandRun.gatherT (Cert.ReferenceIdeal.HandRun.gnorm e rw rb rγ rβ) (Cert.ReferenceIdeal.HandRun.nearestIdx Ideal)) = V) :
    Cert.KernelIdeal.Gen.W8 m ρ c (Proc.devRef .tc Cert.KernelIdeal.main_v108)
      = Cert.ReferenceIdeal.HandRun.refOut (F := Ideal) (m ((c : Thread Cert.KernelIdeal.nD Cert.KernelIdeal.τ).loc Cert.KernelIdeal.main_arg0)) e (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))
          aw ab aγ aβ rw rb rγ rβ := by
  rw [Cert.KernelIdeal.Result.result m ρ c, hA, hV]
  obtain ⟨r0, r1, r2, r3, r4, r5, r6, r7, -⟩ := Cert.PreReal.real_of_pre_kernelIdeal m hpre c
  refine funext fun (i : Cert.KernelIdeal.S2x512x256x128.Idx) => ?_
  obtain ⟨b, ch, t, f, rfl⟩ : ∃ (b : Fin 2) (ch : Fin 512) (t : Fin 256) (f : Fin 128), i = ix4 b ch t f :=
    ⟨i 0, i 1, i 2, i 3, eq_ix4 i⟩
  rw [Cert.ReferenceIdeal.HandRun.refOut_apply, hAr, hVr, Cert.ReferenceIdeal.HandRun.bn_eq_bnRef, Cert.ReferenceIdeal.HandRun.bn_eq_bnRef, Cert.RefBn.bnRef_apply, Cert.RefBn.bnRef_apply,
    combine_apply,
    Cert.KernelIdeal.Fold.folded_eq_kern _ _ _ _ _ _ (sums_eq m ρ c) (sumsqs_eq m ρ c) b ch t f,
    Cert.KernelIdeal.Fold.folded_eq_kern _ _ _ _ _ _ (sums_eq m ρ c) (sumsqs_eq m ρ c) b ch t f,
    Cert.ChannelLaw.law_of_real_at _ _ _ _ _ (fun b' t' f' => r0 (ix4 b' ch t' f')) (r2 (ix1 ch)) (r3 (ix1 ch)) (r4 (ix1 ch)) (r0 (ix4 b ch t f)),
    Cert.ChannelLaw.law_of_real_at _ _ _ _ _ (fun b' t' f' => r0 (ix4 b' ch t' f')) (r5 (ix1 ch)) (r6 (ix1 ch)) (r7 (ix1 ch)) (r0 (ix4 b ch t f))]

end Cert.Bridge

end
-- ==== Proof.VideoSpec.lean ====
/-
  The video branch of the audio-visual block, as whole-array functions over the extended reals.

  From the video embedding `e : [2, 512, 64]` (batch, channel, frame) and per-channel vectors the block computes

    affine e w b     = e · w + b                                   (w, b broadcast along batch and frame)
    gmean y, gvar y  = the mean and the variance of y over (channel, frame), per batch; the variance is the quotient of
                       the sum of squared deviations by the count minus the correction, guarded: where that divisor
                       is not positive the result is the not-a-number word
    gnorm y γ β      = (y − mean) · rsqrt (var + ε) · γ + β
    softmaxLast z    = exp (z − max z) / ∑ exp (z − max z)          (over the frames)
    resize z idx     = z read along the frame axis at the 256 start indices idx, with a trailing unit axis added
    att              = resize (softmaxLast (gnorm (affine e w b) γ β)) idx
    vid              = resize (gnorm (affine e w b) γ β) idx

  Every operation is the host operation of that name with its operands in the order the programs apply them, and every
  shape fact an operation takes is a variable, so that two programs stating the same facts under different names meet on
  these functions.
-/
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Idealize.ShloMosaic.Lib.ValueIdx

noncomputable section

namespace Cert.VideoSpec

open Idealize.ShloMosaic

abbrev S2x512x64 : Shape := ⟨3, ![2, 512, 64]⟩
abbrev S512 : Shape := ⟨1, ![512]⟩
abbrev S256 : Shape := ⟨1, ![256]⟩
abbrev S_ : Shape := ⟨0, ![]⟩
abbrev S1x512x1 : Shape := ⟨3, ![1, 512, 1]⟩
abbrev S2 : Shape := ⟨1, ![2]⟩
abbrev S2x1x1 : Shape := ⟨3, ![2, 1, 1]⟩
abbrev S2x512 : Shape := ⟨2, ![2, 512]⟩
abbrev S2x512x1 : Shape := ⟨3, ![2, 512, 1]⟩
abbrev S256x1 : Shape := ⟨2, ![256, 1]⟩
abbrev S2x512x256 : Shape := ⟨3, ![2, 512, 256]⟩
abbrev S2x512x256x1 : Shape := ⟨4, ![2, 512, 256, 1]⟩

section Spec

variable (hb_512_1x512x1 : S512.BroadcastsInDim S1x512x1 (![1] : Fin 1 → Fin S1x512x1.rank))
  (hb_1x512x1_2x512x64 : S1x512x1.BroadcastsInDim S2x512x64 (![0, 1, 2] : Fin 3 → Fin S2x512x64.rank))
  (hr_12 : S2x512x64.ReducesTo [1, 2] S2)
  (h0 : 0 < S_.numel)
  (hb_2_2x1x1 : S2.BroadcastsInDim S2x1x1 (![0] : Fin 1 → Fin S2x1x1.rank))
  (hb_s_2x1x1 : S_.BroadcastsInDim S2x1x1 (![] : Fin 0 → Fin S2x1x1.rank))
  (hb_2x1x1_2x512x64 : S2x1x1.BroadcastsInDim S2x512x64 (![0, 1, 2] : Fin 3 → Fin S2x512x64.rank))
  (hr_2 : S2x512x64.ReducesTo [2] S2x512)
  (hb_s_2x512 : S_.BroadcastsInDim S2x512 (![] : Fin 0 → Fin S2x512.rank))
  (hb_2x512_2x512x1 : S2x512.BroadcastsInDim S2x512x1 (![0, 1] : Fin 2 → Fin S2x512x1.rank))
  (hb_2x512x1_2x512x64 : S2x512x1.BroadcastsInDim S2x512x64 (![0, 1, 2] : Fin 3 → Fin S2x512x64.rank))
  (hb_256_256x1 : S256.BroadcastsInDim S256x1 (![0] : Fin 1 → Fin S256x1.rank))
  (hb_2x512x256_2x512x256x1 : S2x512x256.BroadcastsInDim S2x512x256x1 (![0, 1, 2] : Fin 3 → Fin S2x512x256x1.rank))
  (G : GatherDims S2x512x64 S256x1 S2x512x256)

/-- A per-channel vector spread along batch and frame. -/
def chan (v : FVec Ideal S512 .f32) : FVec Ideal S2x512x64 .f32 :=
  broadcastInDim S2x512x64 ![0, 1, 2] hb_1x512x1_2x512x64 (broadcastInDim S1x512x1 ![1] hb_512_1x512x1 v)

/-- The per-channel affine map `e · w + b`. -/
def affine (e : FVec Ideal S2x512x64 .f32) (w b : FVec Ideal S512 .f32) : FVec Ideal S2x512x64 .f32 :=
  addf (mulf e (chan hb_512_1x512x1 hb_1x512x1_2x512x64 w)) (chan hb_512_1x512x1 hb_1x512x1_2x512x64 b)

/-- The mean over channel and frame, per batch: the sum divided by 32768. -/
def gmean (y : FVec Ideal S2x512x64 .f32) : FVec Ideal S2x1x1 .f32 :=
  Host.divf (broadcastInDim S2x1x1 ![0] hb_2_2x1x1 (Host.reduceAdd y (constant (F := Ideal) S_ .f32 0x00000000#32) hr_12 h0))
    (broadcastInDim S2x1x1 ![] hb_s_2x1x1 (constant (F := Ideal) S_ .f32 0x47000000#32))

/-- The divisor of the variance: the count 32768 minus the correction 0. -/
def count : FVec Ideal S_ .f32 :=
  subf (constant (F := Ideal) S_ .f32 0x47000000#32) (sitofp (F := Ideal) .f32 (constantI S_ 32 0#32))

/-- The deviations from the mean. -/
def centred (y : FVec Ideal S2x512x64 .f32) : FVec Ideal S2x512x64 .f32 :=
  subf y (broadcastInDim S2x512x64 ![0, 1, 2] hb_2x1x1_2x512x64 (gmean hr_12 h0 hb_2_2x1x1 hb_s_2x1x1 y))

/-- The variance over channel and frame, per batch: the sum of squared deviations divided by the divisor where the divisor
    is positive, the not-a-number word elsewhere. -/
def gvar (y : FVec Ideal S2x512x64 .f32) : FVec Ideal S2x1x1 .f32 :=
  select (broadcastInDim S2x1x1 ![] hb_s_2x1x1 (cmpf .ogt count (constant (F := Ideal) S_ .f32 0x00000000#32)))
    (Host.divf
      (broadcastInDim S2x1x1 ![0] hb_2_2x1x1
        (Host.reduceAdd
          (mulf (centred hr_12 h0 hb_2_2x1x1 hb_s_2x1x1 hb_2x1x1_2x512x64 y) (centred hr_12 h0 hb_2_2x1x1 hb_s_2x1x1 hb_2x1x1_2x512x64 y))
          (constant (F := Ideal) S_ .f32 0x00000000#32) hr_12 h0))
      (broadcastInDim S2x1x1 ![] hb_s_2x1x1 count))
    (broadcastInDim S2x1x1 ![] hb_s_2x1x1 (constant (F := Ideal) S_ .f32 0x7FC00000#32))

/-- The group normalization `(y − mean) · rsqrt (var + ε) · γ + β`. -/
def gnorm (y : FVec Ideal S2x512x64 .f32) (γ β : FVec Ideal S512 .f32) : FVec Ideal S2x512x64 .f32 :=
  addf
    (mulf
      (mulf (centred hr_12 h0 hb_2_2x1x1 hb_s_2x1x1 hb_2x1x1_2x512x64 y)
        (broadcastInDim S2x512x64 ![0, 1, 2] hb_2x1x1_2x512x64
          (Host.rsqrt (addf (gvar hr_12 h0 hb_2_2x1x1 hb_s_2x1x1 hb_2x1x1_2x512x64 y)
            (broadcastInDim S2x1x1 ![] hb_s_2x1x1 (constant (F := Ideal) S_ .f32 0x3727C5AC#32))))))
      (chan hb_512_1x512x1 hb_1x512x1_2x512x64 γ))
    (chan hb_512_1x512x1 hb_1x512x1_2x512x64 β)

/-- A `[2, 512]` array spread along the frames. -/
def frames (v : FVec Ideal S2x512 .f32) : FVec Ideal S2x512x64 .f32 :=
  broadcastInDim S2x512x64 ![0, 1, 2] hb_2x512x1_2x512x64 (broadcastInDim S2x512x1 ![0, 1] hb_2x512_2x512x1 v)

/-- The exponentials of the differences from the maximum over the frames. -/
def expShifted (z : FVec Ideal S2x512x64 .f32) : FVec Ideal S2x512x64 .f32 :=
  Host.exp (subf z (frames hb_2x512_2x512x1 hb_2x512x1_2x512x64
    (maximumf (broadcastInDim S2x512 ![] hb_s_2x512 (constant (F := Ideal) S_ .f32 0xFF800000#32))
      (Host.reduce FloatOps.maximumf z (constant (F := Ideal) S_ .f32 0xFF800000#32) hr_2 h0))))

/-- The softmax over the frames. -/
def softmaxLast (z : FVec Ideal S2x512x64 .f32) : FVec Ideal S2x512x64 .f32 :=
  Host.divf (expShifted h0 hr_2 hb_s_2x512 hb_2x512_2x512x1 hb_2x512x1_2x512x64 z)
    (frames hb_2x512_2x512x1 hb_2x512x1_2x512x64
      (Host.reduceAdd (expShifted h0 hr_2 hb_s_2x512 hb_2x512_2x512x1 hb_2x512x1_2x512x64 z)
        (constant (F := Ideal) S_ .f32 0x00000000#32) hr_2 h0))

/-- The nearest-neighbour resize along the frames: the array read at the 256 start indices, a trailing unit axis added. -/
def resize (z : FVec Ideal S2x512x64 .f32) (idx : IVec S256 32) : FVec Ideal S2x512x256x1 .f32 :=
  broadcastInDim S2x512x256x1 ![0, 1, 2] hb_2x512x256_2x512x256x1
    (Host.gather G z (broadcastInDim S256x1 ![0] hb_256_256x1 idx))

/-- The attention weights: the softmax of the normalized affine image of the video, resized. -/
def att (e : FVec Ideal S2x512x64 .f32) (w b γ β : FVec Ideal S512 .f32) (idx : IVec S256 32) : FVec Ideal S2x512x256x1 .f32 :=
  resize hb_256_256x1 hb_2x512x256_2x512x256x1 G
    (softmaxLast h0 hr_2 hb_s_2x512 hb_2x512_2x512x1 hb_2x512x1_2x512x64
      (gnorm hb_512_1x512x1 hb_1x512x1_2x512x64 hr_12 h0 hb_2_2x1x1 hb_s_2x1x1 hb_2x1x1_2x512x64
        (affine hb_512_1x512x1 hb_1x512x1_2x512x64 e w b) γ β)) idx

/-- The resized video: the normalized affine image of the video, resized. -/
def vid (e : FVec Ideal S2x512x64 .f32) (w b γ β : FVec Ideal S512 .f32) (idx : IVec S256 32) : FVec Ideal S2x512x256x1 .f32 :=
  resize hb_256_256x1 hb_2x512x256_2x512x256x1 G
    (gnorm hb_512_1x512x1 hb_1x512x1_2x512x64 hr_12 h0 hb_2_2x1x1 hb_s_2x1x1 hb_2x1x1_2x512x64
      (affine hb_512_1x512x1 hb_1x512x1_2x512x64 e w b) γ β) idx

end Spec

end Cert.VideoSpec

end
-- ==== Proof.KernelVideo.lean ====
/-
  The video branch of the kernel's host glue, read as values.

  Between its two regions the program computes on the host, from the video embedding and eight per-channel vectors, the
  two arrays `[2, 512, 256, 1]` the second region reads: the attention weights and the resized video. The five stretches
  of host operations that do so run as one line of operations from the contents the first region leaves; the buffers they
  read there are arguments the first region does not touch, so they hold their launch contents, and the table of start
  indices with its constant-false mask, which the operations before the first region wrote. The composed term of the
  operations is, operation by operation, the whole-array specification of the video branch; the table after its fix-up is
  the function j ↦ j / 4; the moves of a value between a buffer's type and the tensor type a callee states for it are
  along equations between equal types and change nothing.
-/
import proofs.«118657_j45303315038549_1_alg».proof.Proof.Gen.KernelIdeal.Frame
import proofs.«118657_j45303315038549_1_alg».proof.Proof.LibAfterAppend
import proofs.«118657_j45303315038549_1_alg».proof.Proof.LibTypedRefs
import proofs.«118657_j45303315038549_1_alg».proof.Proof.LibTransport
import proofs.«118657_j45303315038549_1_alg».proof.Proof.NearestIdx
import proofs.«118657_j45303315038549_1_alg».proof.Proof.VideoSpec
import Idealize.ShloMosaic.Lib.StableHlo.Run
import Idealize.ShloMosaic.PureOps.Ideal
import Idealize.ShloMosaic.PureOps.Ideal.Laws

set_option maxRecDepth 16384

noncomputable section

namespace Cert.KernelIdeal.Video

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-! ## The leaves: what the host stretches read -/

/-- The five stretches of host operations between the two regions, run as one line. -/
theorem W7_eq (c : Dev nD) : W7 (F := Ideal) m ρ c
    = StableHlo.after (hostOps1 ++ (hostOps1_1 ++ (hostOps1_2 ++ (hostOps1_3 ++ hostOps1_4)))) (W2 m ρ c) := by
  simp only [Cert.AfterAppend.after_append]

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (fun w => by fin_cases w <;> decide)
    _ = W0 m ρ c (Proc.devRef .tc main_arg1) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg1) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (fun w => by fin_cases w <;> decide)
    _ = W0 m ρ c (Proc.devRef .tc main_arg8) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg8) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (fun w => by fin_cases w <;> decide)
    _ = W0 m ρ c (Proc.devRef .tc main_arg9) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg9) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (fun w => by fin_cases w <;> decide)
    _ = W0 m ρ c (Proc.devRef .tc main_arg10) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg10) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (fun w => by fin_cases w <;> decide)
    _ = W0 m ρ c (Proc.devRef .tc main_arg11) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg11) := rfl

theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (fun w => by fin_cases w <;> decide)
    _ = W0 m ρ c (Proc.devRef .tc main_arg12) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg12) := rfl

theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (fun w => by fin_cases w <;> decide)
    _ = W0 m ρ c (Proc.devRef .tc main_arg13) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg13) := rfl

theorem W2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (fun w => by fin_cases w <;> decide)
    _ = W0 m ρ c (Proc.devRef .tc main_arg14) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg14) := rfl

theorem W2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (fun w => by fin_cases w <;> decide)
    _ = W0 m ρ c (Proc.devRef .tc main_arg15) := StableHlo.after_of_forall_not_mem _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg15) := rfl

/-- The literal table of start indices, as the first stretch of host operations leaves it. -/
theorem W2_c (c : Dev nD) : W2 m ρ c (Proc.devRef .tc main_c) = (fun i : S256.Idx => lit0 (S256.rowMajor i)) :=
  calc W2 m ρ c (Proc.devRef .tc main_c)
    _ = W1 m ρ c (Proc.devRef .tc main_c) := W2_of_ne m ρ c main_c (fun w => by fin_cases w <;> decide)
    _ = _ := by
      show StableHlo.after hostOps0 (W0 m ρ c) (Proc.devRef .tc main_c) = _
      after_results
      rfl

/-- The constant-false mask of the attention branch's index fix-up. -/
theorem W2_c_0 (c : Dev nD) : W2 m ρ c (Proc.devRef .tc main_c_0) = constantI S256 1 0#1 :=
  calc W2 m ρ c (Proc.devRef .tc main_c_0)
    _ = W1 m ρ c (Proc.devRef .tc main_c_0) := W2_of_ne m ρ c main_c_0 (fun w => by fin_cases w <;> decide)
    _ = _ := by
      show StableHlo.after hostOps0 (W0 m ρ c) (Proc.devRef .tc main_c_0) = _
      after_results

/-- The constant-false mask of the video branch's index fix-up. -/
theorem W2_c_1 (c : Dev nD) : W2 m ρ c (Proc.devRef .tc main_c_1) = constantI S256 1 0#1 :=
  calc W2 m ρ c (Proc.devRef .tc main_c_1)
    _ = W1 m ρ c (Proc.devRef .tc main_c_1) := W2_of_ne m ρ c main_c_1 (fun w => by fin_cases w <;> decide)
    _ = _ := by
      show StableHlo.after hostOps0 (W0 m ρ c) (Proc.devRef .tc main_c_1) = _
      after_results

/-! ## The two arrays the second region reads -/

set_option maxHeartbeats 4000000 in
/-- The resized video as the second region finds it: the normalized affine image of the video embedding, read along the
    frames at the nearest-neighbour start indices. -/
theorem vid_entry (c : Dev nD) : W7 (F := Ideal) m ρ c (Proc.devRef .tc main_v107)
    = Cert.VideoSpec.vid bcast_S512_S1x512x1_1 bcast_S1x512x1_S2x512x64_0_1_2 reducesTo_S2x512x64_S2_d1_2 h_S_
        bcast_S2_S2x1x1_0 bcast_S_S2x1x1 bcast_S2x1x1_S2x512x64_0_1_2 bcast_S256_S256x1_0
        bcast_S2x512x256_S2x512x256x1_0_1_2 gather_S2x512x64_S256x1_S2x512x256_01_2_n_n_2_1_25121
        (m ((c : Thread nD τ).loc main_arg1)) (m ((c : Thread nD τ).loc main_arg12)) (m ((c : Thread nD τ).loc main_arg13))
        (m ((c : Thread nD τ).loc main_arg14)) (m ((c : Thread nD τ).loc main_arg15)) Cert.NearestIdx.quarter := by
  rw [W7_eq]
  simp only [hostOps1, hostOps1_1, hostOps1_2, hostOps1_3, hostOps1_4, List.cons_append, List.nil_append]
  after_results_simp
  simp only [TRef.ofBuf_toBuf]
  rw [W2_arg1, W2_arg12, W2_arg13, W2_arg14, W2_arg15, W2_c, W2_c_1]
  rw [Cert.NearestIdx.literal_idx_eq bcast_S_S256]
  rfl

set_option maxHeartbeats 4000000 in
/-- The attention weights as the second region finds them: the softmax over the frames of the normalized affine image of
    the video embedding, read along the frames at the nearest-neighbour start indices. -/
theorem att_entry (c : Dev nD) : W7 (F := Ideal) m ρ c (Proc.devRef .tc main_v106)
    = Cert.VideoSpec.att bcast_S512_S1x512x1_1 bcast_S1x512x1_S2x512x64_0_1_2 reducesTo_S2x512x64_S2_d1_2 h_S_
        bcast_S2_S2x1x1_0 bcast_S_S2x1x1 bcast_S2x1x1_S2x512x64_0_1_2 reducesTo_S2x512x64_S2x512_d2 bcast_S_S2x512
        bcast_S2x512_S2x512x1_0_1 bcast_S2x512x1_S2x512x64_0_1_2 bcast_S256_S256x1_0
        bcast_S2x512x256_S2x512x256x1_0_1_2 gather_S2x512x64_S256x1_S2x512x256_01_2_n_n_2_1_25121
        (m ((c : Thread nD τ).loc main_arg1)) (m ((c : Thread nD τ).loc main_arg8)) (m ((c : Thread nD τ).loc main_arg9))
        (m ((c : Thread nD τ).loc main_arg10)) (m ((c : Thread nD τ).loc main_arg11)) Cert.NearestIdx.quarter := by
  rw [W7_eq]
  simp only [hostOps1, hostOps1_1, hostOps1_2, hostOps1_3, hostOps1_4, List.cons_append, List.nil_append]
  after_results_simp
  simp only [TRef.ofBuf_toBuf]
  rw [W2_arg1, W2_arg8, W2_arg9, W2_arg10, W2_arg11, W2_c, W2_c_0]
  rw [Cert.NearestIdx.literal_idx_eq bcast_S_S256]
  rfl

end Cert.KernelIdeal.Video

end
-- ==== Proof.RefVideo.lean ====
/-
  The reference's video branch meets the program-free specification of it.

  The attention weights and the resized video are, in the reference, the stretches of its line that normalise the
  affine image of the video embedding per batch entry, take the softmax over the positions, and read the result along
  time at the nearest-neighbour index table, with a trailing unit axis. The specification lists the same host
  operations in the same order over shape facts it takes as parameters; at the reference's own facts and gather record,
  and with the computed index table replaced by the table j ↦ j / 4 it equals, the two are one term.
-/
import proofs.«118657_j45303315038549_1_alg».proof.Proof.RefRead
import proofs.«118657_j45303315038549_1_alg».proof.Proof.VideoSpec
import proofs.«118657_j45303315038549_1_alg».proof.Proof.Gen.KernelIdeal

noncomputable section

namespace Cert.ReferenceIdeal.HandRun

open Cert.ReferenceIdeal Cert.ReferenceIdeal.Gen Idealize.ShloMosaic

attribute [local irreducible] Host.reduceAdd Host.reduce Host.gather in
set_option maxRecDepth 8192 in
set_option maxHeartbeats 1000000 in
/-- The reference's attention weights, with the trailing unit axis, are the specification's. -/
theorem att_ref (e : FVec Ideal S2x512x64 .f32) (aw ab aγ aβ : FVec Ideal S512 .f32) :
    unit4 (F := Ideal) (gatherT (softmaxLast (gnorm e aw ab aγ aβ)) (nearestIdx Ideal))
      = Cert.VideoSpec.att (hb_512_1x512x1 := bcast_S512_S1x512x1_1) (hb_1x512x1_2x512x64 := bcast_S1x512x1_S2x512x64_0_1_2)
        (hr_12 := reducesTo_S2x512x64_S2_d1_2) (h0 := h_S_) (hb_2_2x1x1 := bcast_S2_S2x1x1_0) (hb_s_2x1x1 := bcast_S_S2x1x1)
        (hb_2x1x1_2x512x64 := bcast_S2x1x1_S2x512x64_0_1_2)
        (hr_2 := reducesTo_S2x512x64_S2x512_d2) (hb_s_2x512 := bcast_S_S2x512)
        (hb_2x512_2x512x1 := bcast_S2x512_S2x512x1_0_1) (hb_2x512x1_2x512x64 := bcast_S2x512x1_S2x512x64_0_1_2)
        (hb_256_256x1 := bcast_S256_S256x1_0) (hb_2x512x256_2x512x256x1 := bcast_S2x512x256_S2x512x256x1_0_1_2)
        (G := gather_S2x512x64_S256x1_S2x512x256_01_2_n_n_2_1_25121)
        e aw ab aγ aβ Cert.NearestIdx.quarter := by
  rw [nearestIdx_eq]
  rfl

attribute [local irreducible] Host.reduceAdd Host.reduce Host.gather in
set_option maxRecDepth 8192 in
set_option maxHeartbeats 1000000 in
/-- The reference's resized video, with the trailing unit axis, is the specification's. -/
theorem vid_ref (e : FVec Ideal S2x512x64 .f32) (rw rb rγ rβ : FVec Ideal S512 .f32) :
    unit4 (F := Ideal) (gatherT (gnorm e rw rb rγ rβ) (nearestIdx Ideal))
      = Cert.VideoSpec.vid (hb_512_1x512x1 := bcast_S512_S1x512x1_1) (hb_1x512x1_2x512x64 := bcast_S1x512x1_S2x512x64_0_1_2)
        (hr_12 := reducesTo_S2x512x64_S2_d1_2) (h0 := h_S_) (hb_2_2x1x1 := bcast_S2_S2x1x1_0) (hb_s_2x1x1 := bcast_S_S2x1x1)
        (hb_2x1x1_2x512x64 := bcast_S2x1x1_S2x512x64_0_1_2)
        (hb_256_256x1 := bcast_S256_S256x1_0) (hb_2x512x256_2x512x256x1 := bcast_S2x512x256_S2x512x256x1_0_1_2)
        (G := gather_S2x512x64_S256x1_S2x512x256_01_2_n_n_2_1_25121)
        e rw rb rγ rβ Cert.NearestIdx.quarter := by
  rw [nearestIdx_eq]
  rfl

/-- The two programs' gather records are one record: the same dimension numbers and slice sizes. -/
theorem gather_eq :
    (Cert.KernelIdeal.gather_S2x512x64_S256x1_S2x512x256_01_2_n_n_2_1_25121 : GatherDims S2x512x64 S256x1 S2x512x256)
      = Cert.ReferenceIdeal.gather_S2x512x64_S256x1_S2x512x256_01_2_n_n_2_1_25121 := rfl

end Cert.ReferenceIdeal.HandRun

end
-- ==== Proof.lean ====
/-
  The proof of `Cert.Claim`: frames, preservation and the algebraic equivalence of a fused audio-visual gating block.

  The kernel normalizes the audio per channel (training-mode batch norm of x·w, in a value and a rectified gate branch) and
  gates it with attention and resized video computed from the video embedding.  The reference does the batch norm in two
  passes over x·w; the kernel accumulates the per-channel sum and sum of squares of the raw audio in a first region
  (Proof/StatsPayload, StatsInduction, StatsValue), folds mean, variance, weight, gain and offset into one scale and one
  shift per channel on the host (Proof/KernelFold, KernelFoldRead) and applies them with the gating in a second region
  (Proof/Combine, KernelValue).  Over the extended reals the two agree when the entries are real numbers, which the
  precondition gives (Proof/PreReal): per channel, the mean of x·w is w times the mean of x, the mean of the squared
  deviations of x·w is w² times (mean of squares − square of the mean), so the two reciprocal standard deviations are
  the reciprocal square root of one positive real, and the two affine forms are one polynomial identity
  (Proof/ChannelLaw, BridgeKernel, RefBn, Bridge).  The attention and video arrays are the same host computation in both
  programs (Proof/VideoSpec, KernelVideo, RefVideo), the resize indices a literal table in one and floor (j/4) computed in
  the other (Proof/NearestIdx).  The reference's run is read off its operation list (Proof/RefOps, RefFrame, RefTerm,
  RefRead, BridgeRef); the kernel's run is its generated frame's launch read at the result buffer (Proof/KernelRun).
-/
import proofs.«118657_j45303315038549_1_alg».proof.Defs
import proofs.«118657_j45303315038549_1_alg».proof.Proof.Gen.Kernel
import proofs.«118657_j45303315038549_1_alg».proof.Proof.Gen.Kernel.Frame
import proofs.«118657_j45303315038549_1_alg».proof.Proof.Gen.KernelIdeal
import proofs.«118657_j45303315038549_1_alg».proof.Proof.Gen.KernelIdeal.Frame
import proofs.«118657_j45303315038549_1_alg».proof.Proof.Gen.ReferenceIdeal
import proofs.«118657_j45303315038549_1_alg».proof.Proof.Gen.Pre_finite_inputs
import proofs.«118657_j45303315038549_1_alg».proof.Proof.KernelRun
import proofs.«118657_j45303315038549_1_alg».proof.Proof.Bridge
import proofs.«118657_j45303315038549_1_alg».proof.Proof.KernelVideo
import proofs.«118657_j45303315038549_1_alg».proof.Proof.RefVideo
import proofs.«118657_j45303315038549_1_alg».proof.Proof.RefFrame
import proofs.«118657_j45303315038549_1_alg».proof.Proof.RefTerm
import Idealize.ShloMosaic.Adequacy
import Idealize.ShloMosaic.Init

set_option maxRecDepth 16384

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and writes none of its arguments. -/
theorem frame_reference : Cert.frame_ReferenceIdeal := Cert.ReferenceIdeal.HandRun.frame

/-- The ideal pass rewrote no operation. -/
theorem preserves : Cert.preserves_Kernel_KernelIdeal := trivial

/-- From memories agreeing on the arguments both idealized programs run, and the reference ends with the array the kernel
    ends with: the reference's result term of the launched arguments is the kernel's result array (the bridge), the
    per-frame attention and video arrays being one specification read at either program's shape evidence. -/
theorem algebraic : Cert.algebraic_KernelIdeal_ReferenceIdeal := by
  intro m ρ m' ρ' hpre hagree
  refine ⟨fun c => Cert.KernelIdeal.Gen.W8 m ρ c (Proc.devRef .tc Cert.KernelIdeal.main_v108),
    Cert.KernelIdeal.ValueRun.run m ρ, ?_⟩
  refine (θ_run Cert.ReferenceIdeal.defs _ _).mono (fun r h c => ?_) (Cert.ReferenceIdeal.HandRun.run m' ρ')
  obtain ⟨hv, hargs⟩ := h c
  refine ⟨hv.trans ?_, hargs⟩
  obtain ⟨e0, e1, e2, e3, e4, e5, e6, e7, e8, e9, e10, e11, e12, e13, e14, e15⟩ := hagree c
  rw [e0, e1, e2, e3, e4, e5, e6, e7, e8, e9, e10, e11, e12, e13, e14, e15]
  refine (Cert.Bridge.result_eq m ρ hpre c _ _ (Cert.KernelIdeal.Video.att_entry m ρ c) (Cert.KernelIdeal.Video.vid_entry m ρ c)
    _ _ _ _ _ _ _ _ _ ?_ ?_).symm
  · exact (Cert.ReferenceIdeal.HandRun.att_ref _ _ _ _ _).trans rfl
  · exact (Cert.ReferenceIdeal.HandRun.vid_ref _ _ _ _ _).trans rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
